-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4096x64 : Shape := ⟨2, ![4096, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S8192x64 .f32) (main_arg1 : FVec F S8192x64 .f32) (main_arg2 : FVec F S4096x64 .f32) (main_arg3 : FVec F S4096x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S8192x64 : Shape := ⟨2, ![8192, 64]⟩
abbrev S4096x64 : Shape := ⟨2, ![4096, 64]⟩
abbrev S2x1x4096 : Shape := ⟨3, ![2, 1, 4096]⟩
abbrev S256x64 : Shape := ⟨2, ![256, 64]⟩
abbrev S1x1x4096 : Shape := ⟨3, ![1, 1, 4096]⟩
abbrev S1x4096 : Shape := ⟨2, ![1, 4096]⟩
abbrev S64x4096 : Shape := ⟨2, ![64, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S_ : Shape := ⟨0, ![]⟩
abbrev S8192x128 : Shape := ⟨2, ![8192, 128]⟩
abbrev S2x4096x128 : Shape := ⟨3, ![2, 4096, 128]⟩
abbrev S256x128 : Shape := ⟨2, ![256, 128]⟩
abbrev S1x4096x128 : Shape := ⟨3, ![1, 4096, 128]⟩
abbrev S4096x128 : Shape := ⟨2, ![4096, 128]⟩
abbrev S4096x1 : Shape := ⟨2, ![4096, 1]⟩
abbrev S1x4096x64 : Shape := ⟨3, ![1, 4096, 64]⟩
abbrev S2x4096x64 : Shape := ⟨3, ![2, 4096, 64]⟩

abbrev nBuf : Space → Nat
  | .hbm => 34
  | .vmem => 16
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S4096x64, .f32⟩
  | .hbm, ⟨3, _⟩ => ⟨S4096x64, .f32⟩
  | .hbm, ⟨4, _⟩ => ⟨S2x1x4096, .f32⟩
  | .hbm, ⟨5, _⟩ => ⟨S2x1x4096, .f32⟩
  | .hbm, ⟨6, _⟩ => ⟨S_, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S8192x128, .f32⟩
  | .hbm, ⟨11, _⟩ => ⟨S2x4096x128, .f32⟩
  | .hbm, ⟨12, _⟩ => ⟨S_, .f32⟩
  | .hbm, ⟨13, _⟩ => ⟨S4096x128, .f32⟩
  | .hbm, ⟨14, _⟩ => ⟨S4096x64, .f32⟩
  | .hbm, ⟨15, _⟩ => ⟨S4096x64, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x1, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S1x4096x64, .f32⟩
  | .hbm, ⟨32, _⟩ => ⟨S1x4096x64, .f32⟩
  | .hbm, ⟨33, _⟩ => ⟨S2x4096x64, .f32⟩
  | .local _ .vmem, ⟨0, _⟩ => ⟨S256x64, .f32⟩
  | .local _ .vmem, ⟨1, _⟩ => ⟨S256x64, .f32⟩
  | .local _ .vmem, ⟨2, _⟩ => ⟨S4096x64, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x4096, .f32⟩
  | .local _ .vmem, ⟨8, _⟩ => ⟨S1x4096, .f32⟩
  | .local _ .vmem, ⟨9, _⟩ => ⟨S256x128, .f32⟩
  | .local _ .vmem, ⟨10, _⟩ => ⟨S256x128, .f32⟩
  | .local _ .vmem, ⟨11, _⟩ => ⟨S4096x64, .f32⟩
  | .local _ .vmem, ⟨12, _⟩ => ⟨S1x4096, .f32⟩
  | .local _ .vmem, ⟨13, _⟩ => ⟨S1x4096x128, .f32⟩
  | .local _ .vmem, ⟨14, _⟩ => ⟨S1x4096x128, .f32⟩
  | .local _ .vmem, ⟨15, _⟩ => ⟨S4096x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_15 : BitVec 32 := 0#32
  let v39 : BitVec 1 := Scalar.cmpi .ne v38 c0_i32_15
  v39

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  transposes_S4096x64_p1_0_S64x4096 : S4096x64.Transposes [1, 0] S64x4096
  reduces_S256x4096_S256 : S256x4096.Reduces [1] S256
  shapeCasts_S256_S256x1 : S256.ShapeCasts S256x1
  broadcasts_S256x1_S256x4096 : S256x1.Broadcasts S256x4096
  reduces_S256x4096_S4096 : S256x4096.Reduces [0] S4096
  shapeCasts_S4096_S1x4096 : S4096.ShapeCasts S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  reducesTo_S2x1x4096_S1x4096_d0 : S2x1x4096.ReducesTo [0] S1x4096
  h_S_ : 0 < S_.numel
  concatenates_S8192x64_S8192x64_S8192x128_d1 : Shape.Concatenates [S8192x64, S8192x64] S8192x128 1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S256x64 : S256x128.Slices ![0, 0] S256x64
  broadcasts_S1x4096_S256x4096 : S1x4096.Broadcasts S256x4096
  shapeCasts_S4096x128_S1x4096x128 : S4096x128.ShapeCasts S1x4096x128
  inb_S1x4096x128_S1x4096x128_0_0_0 : ∀ a, (![0, 0, 0] : Fin 3 → Nat) a + S1x4096x128.size a ≤ S1x4096x128.size a
  h_S1x4096x128 : 0 < S1x4096x128.numel
  reducesTo_S2x4096x128_S4096x128_d0 : S2x4096x128.ReducesTo [0] S4096x128
  slices_S4096x128_S4096x64_0_0 : S4096x128.Slices ![0, 0] S4096x64
  slices_S4096x128_S4096x64_0_64 : S4096x128.Slices ![0, 64] S4096x64
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  dot_S256x64_S64x4096_S256x4096_1_0_0_1_n_n_wf : DotDims.WF S256x64 S64x4096 S256x4096 [1] [0] [0] [1] [] []
  dot_S256x4096_S256x128_S4096x128_0_0_1_1_n_n_wf : DotDims.WF S256x4096 S256x128 S4096x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .f32 = 32 ∨ (Rect.block (s := S8192x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S2x1x4096.size a
  hwx0_2 : ∀ i : grid0.Coords, EltTy.bits .f32 = 32 ∨ (Rect.block (s := S2x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S2x1x4096.size a
  hwx0_3 : ∀ i : grid0.Coords, EltTy.bits .f32 = 32 ∨ (Rect.block (s := S2x1x4096) S1x1x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x128.size a
  hwx1_0 : ∀ i : grid1.Coords, EltTy.bits .f32 = 32 ∨ (Rect.block (s := S8192x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .f32 = 32 ∨ (Rect.block (s := S4096x64) S4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x128.size a ≤ S2x4096x128.size a
  hwx1_3 : ∀ i : grid1.Coords, EltTy.bits .f32 = 32 ∨ (Rect.block (s := S2x4096x128) S1x4096x128.size (cc1_transform_3 i) (hinb1_3 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S256x128_S4096x128_0_0_1_1_n_n : DotDims S256x4096 S256x128 S4096x128 where
  lhsContracting := [0]
  rhsContracting := [0]
  lhsNonContracting := [1]
  rhsNonContracting := [1]
  lhsBatch := []
  rhsBatch := []
  wf := dot_S256x4096_S256x128_S4096x128_0_0_1_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S4096x64 : Shape := ⟨2, ![4096, 64]⟩
abbrev S64x4096 : Shape := ⟨2, ![64, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩
abbrev S4096x8192 : Shape := ⟨2, ![4096, 8192]⟩
abbrev S4096x1 : Shape := ⟨2, ![4096, 1]⟩
abbrev S1x4096x64 : Shape := ⟨3, ![1, 4096, 64]⟩
abbrev S2x4096x64 : Shape := ⟨3, ![2, 4096, 64]⟩

abbrev nBuf : Space → Nat
  | .hbm => 77
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S4096x64, .f32⟩
  | .hbm, ⟨3, _⟩ => ⟨S4096x64, .f32⟩
  | .hbm, ⟨4, _⟩ => ⟨S64x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S4096x8192, .f32⟩
  | .hbm, ⟨41, _⟩ => ⟨S4096x64, .f32⟩
  | .hbm, ⟨42, _⟩ => ⟨S4096x64, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S1x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S4096, .f32⟩
  | .hbm, ⟨57, _⟩ => ⟨S1x4096, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1, .f32⟩
  | .hbm, ⟨67, _⟩ => ⟨S4096x64, .f32⟩
  | .hbm, ⟨68, _⟩ => ⟨S4096x64, .f32⟩
  | .hbm, ⟨69, _⟩ => ⟨S4096x64, .f32⟩
  | .hbm, ⟨70, _⟩ => ⟨S4096x1, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S1x4096x64, .f32⟩
  | .hbm, ⟨75, _⟩ => ⟨S1x4096x64, .f32⟩
  | .hbm, ⟨76, _⟩ => ⟨S2x4096x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  transposes_S4096x64_S64x4096_1_0 : S4096x64.Transposes [1, 0] S64x4096
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  reducesTo_S8192x4096_S4096_d0 : S8192x4096.ReducesTo [0] S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S8192x4096_S4096x8192_1_0 : S8192x4096.Transposes [1, 0] S4096x8192
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  dot_S8192x64_S64x4096_S8192x4096_1_0_0_1_n_n_wf : DotDims.WF S8192x64 S64x4096 S8192x4096 [1] [0] [0] [1] [] []
  dot_S4096x8192_S8192x64_S4096x64_1_0_0_1_n_n_wf : DotDims.WF S4096x8192 S8192x64 S4096x64 [1] [0] [0] [1] [] []

variable [Facts₀]

def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf

class Facts : Prop extends Facts₀ where

variable [Facts]
-- ==== Proof.LibWholeStore.lean ====
/-
  Reading a buffer back after whole-buffer stores.

  If the LAST of several stores into a buffer goes through the whole-shape rectangle at zero offsets, the buffer then
  reads as that store's payload, whatever it held before and whatever the earlier stores were (an accumulator updated
  in place: zeroed, then overwritten with the running sum). Stated over an abstract shape, so that a use at a large
  literal shape only instantiates it.
-/
import Idealize.ShloMosaic.Lib.Pipeline.FrameBody
import Idealize.ShloMosaic.Lib.Pipeline.Value

namespace Idealize.ShloMosaic.View

variable {Val : EltTy → Type} [∀ e, Nonempty (Val e)] {sig : RefSig} {κ : Kind} {sp : Space} {S : Shape} {e : EltTy}

/-- After stores the last of which covers the whole shape, the view reads that store's payload. -/
theorem read_writes_cons_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon _ _ _ (fun y => ⟨_, List.mem_cons_self, mem_set_unit_zero h inb y⟩), canon_cons_unit_zero h]

/-- After ONE store covering the whole shape, the view reads its payload. -/
theorem read_writes_unit_zero (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : Piece Val S e)]) = w :=
  read_writes_cons_unit_zero v f h inb w []

/-- A load through the whole-shape rectangle at zero offsets reads the view. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld, ld_unit_zero h]

end Idealize.ShloMosaic.View
-- ==== Proof.KPass1Facts.lean ====
import proofs.«168828_j76141180223719_2_alg».proof.Proof.Gen.Kernel.Launch
import proofs.«168828_j76141180223719_2_alg».proof.Proof.LibWholeStore
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of pass 1's body, over the grid

The grid is 2 × 16: point `t` is step `t mod 16` of core `t / 16`. The body clears its two running sums at step 0 and
writes them out at step 15. -/

/-- "this is step 0": the condition of the clearing branch. -/
abbrev atFirst (i : grid0.Coords) : Prop := (Scalar.cmpi .ne (Scalar.extui (Scalar.cmpi .eq (BitVec.ofNat 32 (i 1).val) 0#32)) 0#32) = 1#1
/-- "this is step 15": the condition of the writing-out branch. -/
abbrev atLast (i : grid0.Coords) : Prop := k0_cond2 i = 1#1

theorem atFirst_iff : ∀ t : Fin cfg0.N, atFirst (grid0.coords t) ↔ t.val % 16 = 0 :=
  (by decide +kernel : ∀ t : Fin grid0.N, atFirst (grid0.coords t) ↔ t.val % 16 = 0)
theorem atLast_iff : ∀ t : Fin cfg0.N, atLast (grid0.coords t) ↔ t.val % 16 = 15 :=
  (by decide +kernel : ∀ t : Fin grid0.N, atLast (grid0.coords t) ↔ t.val % 16 = 15)

/-- The inputs are never idle; the two outputs are idle, and not written back, except at step 15. -/
theorem live_in0 : ∀ t : Fin cfg0.N, cfg0.idle 0 (grid0.coords t) = false := by decide +kernel
theorem live_in1 : ∀ t : Fin cfg0.N, cfg0.idle 1 (grid0.coords t) = false := by decide +kernel
theorem idle_out2 : ∀ t : Fin cfg0.N, ¬atLast (grid0.coords t) → cfg0.idle 2 (grid0.coords t) = true := by decide +kernel
theorem idle_out3 : ∀ t : Fin cfg0.N, ¬atLast (grid0.coords t) → cfg0.idle 3 (grid0.coords t) = true := by decide +kernel
theorem noFlush_out2 : ∀ t : Fin cfg0.N, ¬atLast (grid0.coords t) → (cfg0.win 2).flush t = false := by decide +kernel
theorem noFlush_out3 : ∀ t : Fin cfg0.N, ¬atLast (grid0.coords t) → (cfg0.win 3).flush t = false := by decide +kernel
theorem live_out2 : ∀ t : Fin cfg0.N, atLast (grid0.coords t) → cfg0.idle 2 (grid0.coords t) = false := by decide +kernel
theorem live_out3 : ∀ t : Fin cfg0.N, atLast (grid0.coords t) → cfg0.idle 3 (grid0.coords t) = false := by decide +kernel

theorem zeros2 : (![0, 0] : Fin 2 → Nat) = fun _ => 0 := by funext a; fin_cases a <;> rfl
theorem zeros3 : (![0, 0, 0] : Fin 3 → Nat) = fun _ => 0 := by funext a; fin_cases a <;> rfl

end Cert.Kernel.Pass1
end
-- ==== Proof.KPass1Middle.lean ====
import proofs.«168828_j76141180223719_2_alg».proof.Proof.KPass1Facts
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run in each of its three cases

On whole staging memrefs: the tile `x0` and the memory keys `x1` stay; the two running sums go from `s6`, `s7` (from
zero at step 0, whatever the buffers held) to `k0_pay7 x0 x1 s6` and `k0_pay1 (k0_pay8 x0 x1 s7)`; the two output
buffers are untouched except at step 15, where they receive the sums just computed. -/

set_option maxHeartbeats 4000000 in
/-- A middle step (neither 0 nor 15). -/
theorem run_middle (c : Dev nD) (i : grid0.Coords) (arg2 : Memref sig .tc .vmem S256x64 .f32) (harg2 : arg2.IsWhole) (arg3 : Memref sig .tc .vmem S4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬atFirst i) (hc1 : ¬atLast i)
    (x0 : Vec F S256x64 .f32) (x1 : Vec F S4096x64 .f32) (xi4 xi5 : Vec F S1x1x4096 .f32) (s6 s7 : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare xi4 ∗ owns (c : Thread nD τ) arg5 fullShare xi5 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare xi4 ∗ owns (c : Thread nD τ) arg5 fullShare xi5
            ∗ owns (c : Thread nD τ) arg6 fullShare (k0_pay7 x0 x1 s6) ∗ owns (c : Thread nD τ) arg7 fullShare (k0_pay1 (k0_pay8 x0 x1 s7))) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0; subst hf1; subst hf4; subst hf5; subst hf6; subst hf7
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H4]
  · iexists _; isplitr; · ipureintro; rfl
    iexact H4
  isplitl [H5]
  · iexists _; isplitr; · ipureintro; rfl
    iexact H5
  isplitl [H6]
  · iexists _; isplitr
    swap; · iexact H6
    ipureintro
    rw [View.read_writes_unit_zero arg6.view f6 zeros2 inb_S1x4096_S1x4096_0_0]
    rw [View.readAt_unit_zero arg2.view f0 zeros2 inb_S256x64_S256x64_0_0, View.readAt_unit_zero arg3.view f1 zeros2 inb_S4096x64_S4096x64_0_0,
      View.readAt_unit_zero arg6.view f6 zeros2 inb_S1x4096_S1x4096_0_0]
  iexists _; isplitr
  swap; · iexact H7
  ipureintro; sl_unfold_words
  rw [View.read_writes_unit_zero arg7.view f7 zeros2 inb_S1x4096_S1x4096_0_0]
  rw [View.readAt_unit_zero arg2.view f0 zeros2 inb_S256x64_S256x64_0_0, View.readAt_unit_zero arg3.view f1 zeros2 inb_S4096x64_S4096x64_0_0,
    View.readAt_unit_zero arg7.view f7 zeros2 inb_S1x4096_S1x4096_0_0]

end Cert.Kernel.Pass1
end
-- ==== Proof.KPass1First.lean ====
import proofs.«168828_j76141180223719_2_alg».proof.Proof.KPass1Facts
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 0: the sums are cleared first, so the scratch may hold anything. -/
theorem run_first (c : Dev nD) (i : grid0.Coords) (arg2 : Memref sig .tc .vmem S256x64 .f32) (harg2 : arg2.IsWhole) (arg3 : Memref sig .tc .vmem S4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : atFirst i) (hc1 : ¬atLast i)
    (x0 : Vec F S256x64 .f32) (x1 : Vec F S4096x64 .f32) (xi4 xi5 : Vec F S1x1x4096 .f32) (E : Set ℕ) (K : PUnit → sProp 𝕄) :
    iprop(owns (c : Thread nD τ) arg2 fullShare x0 ∗ owns (c : Thread nD τ) arg3 fullShare x1 ∗ owns (c : Thread nD τ) arg4 fullShare xi4 ∗ owns (c : Thread nD τ) arg5 fullShare xi5 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi4 ∗ owns (c : Thread nD τ) arg5 fullShare xi5
            ∗ owns (c : Thread nD τ) arg6 fullShare (k0_pay7 x0 x1 k0_pay4) ∗ owns (c : Thread nD τ) arg7 fullShare (k0_pay1 (k0_pay8 x0 x1 k0_pay5))) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f4, %hf4, H4⟩, ⟨%f5, %hf5, H5⟩, ⟨%d6, %f6, -, H6⟩, ⟨%d7, %f7, -, H7⟩, Hk⟩
  subst hf0; subst hf1; subst hf4; subst hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H4]
  · iexists _; isplitr; · ipureintro; rfl
    iexact H4
  isplitl [H5]
  · iexists _; isplitr; · ipureintro; rfl
    iexact H5
  isplitl [H6]
  · iexists _; isplitr
    swap; · iexact H6
    ipureintro; sl_unfold_words
    rw [View.read_writes_cons_unit_zero arg6.view f6 zeros2 inb_S1x4096_S1x4096_0_0]
    rw [View.readAt_unit_zero arg2.view f0 zeros2 inb_S256x64_S256x64_0_0, View.readAt_unit_zero arg3.view f1 zeros2 inb_S4096x64_S4096x64_0_0, View.readCov_unit_zero arg6.view zeros2 inb_S1x4096_S1x4096_0_0]
  iexists _; isplitr
  swap; · iexact H7
  ipureintro; sl_unfold_words
  rw [View.read_writes_cons_unit_zero arg7.view f7 zeros2 inb_S1x4096_S1x4096_0_0]
  rw [View.readAt_unit_zero arg2.view f0 zeros2 inb_S256x64_S256x64_0_0, View.readAt_unit_zero arg3.view f1 zeros2 inb_S4096x64_S4096x64_0_0, View.readCov_unit_zero arg7.view zeros2 inb_S1x4096_S1x4096_0_0]

end Cert.Kernel.Pass1
end
-- ==== Proof.KPass1Last.lean ====
import proofs.«168828_j76141180223719_2_alg».proof.Proof.KPass1Facts
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 15: after the update the two sums are written to the output buffers (which may hold anything). -/
theorem run_last (c : Dev nD) (i : grid0.Coords) (arg2 : Memref sig .tc .vmem S256x64 .f32) (harg2 : arg2.IsWhole) (arg3 : Memref sig .tc .vmem S4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬atFirst i) (hc1 : atLast i)
    (x0 : Vec F S256x64 .f32) (x1 : Vec F S4096x64 .f32) (s6 s7 : Vec F S1x4096 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare (k0_pay2 (k0_pay7 x0 x1 s6)) ∗ owns (c : Thread nD τ) arg5 fullShare (k0_pay3 (k0_pay1 (k0_pay8 x0 x1 s7)))
            ∗ owns (c : Thread nD τ) arg6 fullShare (k0_pay7 x0 x1 s6) ∗ owns (c : Thread nD τ) arg7 fullShare (k0_pay1 (k0_pay8 x0 x1 s7))) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%d4, %f4, -, H4⟩, ⟨%d5, %f5, -, H5⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H4]
  · iexists _; isplitr
    swap; · iexact H4
    ipureintro; sl_unfold_words
    rw [View.read_writes_unit_zero arg4.view f4 zeros3 inb_S1x1x4096_S1x1x4096_0_0_0, View.readCov_unit_zero arg6.view zeros2 inb_S1x4096_S1x4096_0_0]
    rw [View.readAt_unit_zero arg2.view f0 zeros2 inb_S256x64_S256x64_0_0, View.readAt_unit_zero arg3.view f1 zeros2 inb_S4096x64_S4096x64_0_0, View.readAt_unit_zero arg6.view f6 zeros2 inb_S1x4096_S1x4096_0_0]
  isplitl [H5]
  · iexists _; isplitr
    swap; · iexact H5
    ipureintro; sl_unfold_words
    rw [View.read_writes_unit_zero arg5.view f5 zeros3 inb_S1x1x4096_S1x1x4096_0_0_0, View.readCov_unit_zero arg7.view zeros2 inb_S1x4096_S1x4096_0_0]
    rw [View.readAt_unit_zero arg2.view f0 zeros2 inb_S256x64_S256x64_0_0, View.readAt_unit_zero arg3.view f1 zeros2 inb_S4096x64_S4096x64_0_0, View.readAt_unit_zero arg7.view f7 zeros2 inb_S1x4096_S1x4096_0_0]
  isplitl [H6]
  · iexists _; isplitr
    swap; · iexact H6
    ipureintro; sl_unfold_words
    rw [View.read_writes_unit_zero arg6.view f6 zeros2 inb_S1x4096_S1x4096_0_0]
    rw [View.readAt_unit_zero arg2.view f0 zeros2 inb_S256x64_S256x64_0_0, View.readAt_unit_zero arg3.view f1 zeros2 inb_S4096x64_S4096x64_0_0, View.readAt_unit_zero arg6.view f6 zeros2 inb_S1x4096_S1x4096_0_0]
  iexists _; isplitr
  swap; · iexact H7
  ipureintro; sl_unfold_words
  rw [View.read_writes_unit_zero arg7.view f7 zeros2 inb_S1x4096_S1x4096_0_0]
  rw [View.readAt_unit_zero arg2.view f0 zeros2 inb_S256x64_S256x64_0_0, View.readAt_unit_zero arg3.view f1 zeros2 inb_S4096x64_S4096x64_0_0, View.readAt_unit_zero arg7.view f7 zeros2 inb_S1x4096_S1x4096_0_0]

end Cert.Kernel.Pass1
end
-- ==== Proof.KPass1Data.lean ====
import proofs.«168828_j76141180223719_2_alg».proof.Proof.KPass1Middle
import proofs.«168828_j76141180223719_2_alg».proof.Proof.KPass1First
import proofs.«168828_j76141180223719_2_alg».proof.Proof.KPass1Last
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass 1 as a pipeline: what its buffers hold point by point

`V` is what the core's unscoped buffers hold when the region is entered. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The context tile's buffer holds the point's tile, for any proof data over `V` whose body leaves it in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The memory keys' buffer holds the whole key array at every point (fetched once, never moved). -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The two scratch operands (the running sums), as whole memrefs. -/
abbrev sc6 : Memref sig .tc .vmem S1x4096 .f32 := Memref.whole cc0_scratch0
abbrev sc7 : Memref sig .tc .vmem S1x4096 .f32 := Memref.whole cc0_scratch1
abbrev ms0 (t : Fin cfg0.N) : Memref sig .tc .vmem S256x64 .f32 := win0_0.stage (cfg0.slots t 0)
abbrev ms1 (t : Fin cfg0.N) : Memref sig .tc .vmem S4096x64 .f32 := win0_1.stage (cfg0.slots t 1)
abbrev ms2 (t : Fin cfg0.N) : Memref sig .tc .vmem S1x1x4096 .f32 := win0_2.stage (cfg0.slots t 2)
abbrev ms3 (t : Fin cfg0.N) : Memref sig .tc .vmem S1x1x4096 .f32 := win0_3.stage (cfg0.slots t 3)

/-- THE ACCUMULATION: the two running sums after the body at position `n` — from zero at each core's step 0
    (positions 0 and 16), else from what the position before left. -/
def sums (c : Dev nD) : (n : ℕ) → n < cfg0.N → Vec F S1x4096 .f32 × Vec F S1x4096 .f32
  | 0, hn => (k0_pay7 (iblk V c 0 ⟨0, hn⟩) (iblk V c 1 ⟨0, hn⟩) k0_pay4, k0_pay1 (k0_pay8 (iblk V c 0 ⟨0, hn⟩) (iblk V c 1 ⟨0, hn⟩) k0_pay5))
  | n + 1, hn =>
    if (n + 1) % 16 = 0 then
      (k0_pay7 (iblk V c 0 ⟨n + 1, hn⟩) (iblk V c 1 ⟨n + 1, hn⟩) k0_pay4, k0_pay1 (k0_pay8 (iblk V c 0 ⟨n + 1, hn⟩) (iblk V c 1 ⟨n + 1, hn⟩) k0_pay5))
    else
      (k0_pay7 (iblk V c 0 ⟨n + 1, hn⟩) (iblk V c 1 ⟨n + 1, hn⟩) (sums c n (Nat.lt_of_succ_lt hn)).1,
       k0_pay1 (k0_pay8 (iblk V c 0 ⟨n + 1, hn⟩) (iblk V c 1 ⟨n + 1, hn⟩) (sums c n (Nat.lt_of_succ_lt hn)).2))

theorem sums_first (c : Dev nD) (t : Fin cfg0.N) (h0 : t.val % 16 = 0) :
    sums V c t.val t.isLt = (k0_pay7 (iblk V c 0 t) (iblk V c 1 t) k0_pay4, k0_pay1 (k0_pay8 (iblk V c 0 t) (iblk V c 1 t) k0_pay5)) := by
  obtain ⟨n, hn⟩ := t
  cases n with
  | zero => rfl
  | succ n => exact if_pos h0
theorem sums_next (c : Dev nD) (t : Fin cfg0.N) (h0 : ¬t.val % 16 = 0) :
    sums V c t.val t.isLt = (k0_pay7 (iblk V c 0 t) (iblk V c 1 t) (sums V c (t.val - 1) (Nat.lt_of_le_of_lt (Nat.sub_le _ _) t.isLt)).1,
      k0_pay1 (k0_pay8 (iblk V c 0 t) (iblk V c 1 t) (sums V c (t.val - 1) (Nat.lt_of_le_of_lt (Nat.sub_le _ _) t.isLt)).2)) := by
  obtain ⟨n, hn⟩ := t
  cases n with
  | zero => exact absurd (Nat.zero_mod _) h0
  | succ n => exact if_neg h0

/-- The core's scoped buffers that pass 1 never touches (pass 2's staging buffers and scratch), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's invariant spelt out: the two scratch buffers and the untouched ones at anything, the generator register. -/
theorem PhiA_eq (c : Dev nD) :
    (Pipeline.ΦA spec0 c : sProp 𝕄)
      = iprop(iprop((∃ d, owns (c : Thread nD τ) sc6 fullShare d) ∗ (∃ d, owns (c : Thread nD τ) sc7 fullShare d) ∗ others c) ∗ (∃ r, prngReg c r)) := by
  unfold Pipeline.ΦA others; rw [scopedRest0_eq]; simp only [sc6, sc7, owns_whole]; try rfl

/-- The region invariant before position `n`: before the first, the class's; afterwards the two scratch buffers at
    the running sums the position before left. -/
def Phi (c : Dev nD) : (n : ℕ) → n ≤ cfg0.N → sProp 𝕄
  | 0, _ => Pipeline.ΦA spec0 c
  | n + 1, hn => iprop(iprop(owns (c : Thread nD τ) sc6 fullShare (sums V c n hn).1 ∗ owns (c : Thread nD τ) sc7 fullShare (sums V c n hn).2 ∗ others c) ∗ (∃ r, prngReg c r))

theorem Phi_zero (c : Dev nD) (n : ℕ) (h : n ≤ cfg0.N) (hz : n = 0) : Phi V c n h = Pipeline.ΦA spec0 c := by subst hz; rfl
theorem Phi_succ (c : Dev nD) (n : ℕ) (hn : n < cfg0.N) :
    Phi V c (n + 1) hn = iprop(iprop(owns (c : Thread nD τ) sc6 fullShare (sums V c n hn).1 ∗ owns (c : Thread nD τ) sc7 fullShare (sums V c n hn).2 ∗ others c) ∗ (∃ r, prngReg c r)) := rfl
theorem Phi_pos (c : Dev nD) (n : ℕ) (h : n ≤ cfg0.N) (hz : n ≠ 0) :
    Phi V c n h = iprop(iprop(owns (c : Thread nD τ) sc6 fullShare (sums V c (n - 1) (by omega)).1 ∗ owns (c : Thread nD τ) sc7 fullShare (sums V c (n - 1) (by omega)).2 ∗ others c) ∗ (∃ r, prngReg c r)) := by
  cases n with
  | zero => exact absurd rfl hz
  | succ n => rfl

/-- Pass 1's proof data on core `c`: the arrays as found; each input's buffer at its block; each output's buffer, at
    step 15, at the running sum just computed; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay2 (sums V c t.val t.isLt).1
    | ⟨3, _⟩ => k0_pay3 (sums V c t.val t.isLt).2
  Φ t := Phi V c t.val (Nat.le_of_lt_succ t.isLt)
  q _ := fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = Phi V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = k0_pay2 (sums V c t.val t.isLt).1 := by dsimp only [dat]
theorem after3 (c : Dev nD) (t : Fin cfg0.N) : (dat V c).after 3 t = k0_pay3 (sums V c t.val t.isLt).2 := by dsimp only [dat]
theorem before0 (c : Dev nD) (t : Fin cfg0.N) (d) : (dat V c).before 0 t d = iblk V c 0 t := before_in0_of V (dat V c) (A_eq V c 0) (after0 V c) t d
theorem before1 (c : Dev nD) (t : Fin cfg0.N) (d) : (dat V c).before 1 t d = iblk V c 1 t := before_in1_of V (dat V c) (A_eq V c 1) (after1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))
/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: by the step's case (0, 15, or between), that case's run; the invariant hands over the two
    running sums at what the point before left (at anything at step 0) and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live_in0 t], after0]
  rw [show (dat V c).leavesExact 1 t = owns (c : Thread nD τ) (ms1 t) fullShare ((dat V c).after 1 t) from by
    unfold Dat.leavesExact; rw [live_in1 t], after1]
  by_cases h0 : t.val % 16 = 0
  · have h1 : ¬t.val % 16 = 15 := by omega
    rw [Dat.leavesExact_idle (dat V c) 2 t (idle_out2 t (fun h => h1 ((atLast_iff t).mp h))) (noFlush_out2 t (fun h => h1 ((atLast_iff t).mp h))),
      Dat.leavesExact_idle (dat V c) 3 t (idle_out3 t (fun h => h1 ((atLast_iff t).mp h))) (noFlush_out3 t (fun h => h1 ((atLast_iff t).mp h)))]
    rw [sums_first V c t h0]
    by_cases hz : t.val = 0
    · rw [Phi_castSucc V c t, Phi_zero V c _ _ hz, PhiA_eq]
      iintro ⟨⟨⟨HS6, HS7, Hoth⟩, Hg⟩, Ho, ⟨%d0, H0⟩, ⟨%d1, H1⟩, ⟨%d2, H2⟩, ⟨%d3, H3⟩⟩
      iapply (run_first c (grid0.coords t) _ _ _ _ _ _ _ _ _ _ _ _ ((atFirst_iff t).mpr h0) (fun h => h1 ((atLast_iff t).mp h)) (iblk V c 0 t) (iblk V c 1 t) _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexists _; iexact H2
      iexists _; iexact H3
    · rw [Phi_castSucc V c t, Phi_pos V c _ _ hz]
      iintro ⟨⟨⟨HS6, HS7, Hoth⟩, Hg⟩, Ho, ⟨%d0, H0⟩, ⟨%d1, H1⟩, ⟨%d2, H2⟩, ⟨%d3, H3⟩⟩
      iapply (run_first c (grid0.coords t) _ _ _ _ _ _ _ _ _ _ _ _ ((atFirst_iff t).mpr h0) (fun h => h1 ((atLast_iff t).mp h)) (iblk V c 0 t) (iblk V c 1 t) _ _ Set.univ _)
      isplitl [H0]; · iexact H0
      isplitl [H1]; · iexact H1
      isplitl [H2]; · iexact H2
      isplitl [H3]; · iexact H3
      isplitl [HS6]; · iexists _; iexact HS6
      isplitl [HS7]; · iexists _; iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    rw [sums_next V c t h0]
    rw [Phi_castSucc V c t, Phi_pos V c _ _ hz]
    by_cases h1 : t.val % 16 = 15
    · rw [show (dat V c).leavesExact 2 t = owns (c : Thread nD τ) (ms2 t) fullShare ((dat V c).after 2 t) from by
        unfold Dat.leavesExact; rw [live_out2 t ((atLast_iff t).mpr h1)], after2]
      rw [show (dat V c).leavesExact 3 t = owns (c : Thread nD τ) (ms3 t) fullShare ((dat V c).after 3 t) from by
        unfold Dat.leavesExact; rw [live_out3 t ((atLast_iff t).mpr h1)], after3]
      rw [sums_next V c t h0]
      iintro ⟨⟨⟨HS6, HS7, Hoth⟩, Hg⟩, Ho, ⟨%d0, H0⟩, ⟨%d1, H1⟩, ⟨%d2, H2⟩, ⟨%d3, H3⟩⟩
      iapply (run_last c (grid0.coords t) _ _ _ _ _ _ _ _ _ _ _ _ (fun h => h0 ((atFirst_iff t).mp h)) ((atLast_iff t).mpr h1) (iblk V c 0 t) (iblk V c 1 t) _ _ Set.univ _)
      isplitl [H0]; · iexact H0
      isplitl [H1]; · iexact H1
      isplitl [H2]; · iexists _; iexact H2
      isplitl [H3]; · iexists _; iexact H3
      isplitl [HS6]; · iexact HS6
      isplitl [HS7]; · iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexact H2
      iexact H3
    · rw [Dat.leavesExact_idle (dat V c) 2 t (idle_out2 t (fun h => h1 ((atLast_iff t).mp h))) (noFlush_out2 t (fun h => h1 ((atLast_iff t).mp h))),
        Dat.leavesExact_idle (dat V c) 3 t (idle_out3 t (fun h => h1 ((atLast_iff t).mp h))) (noFlush_out3 t (fun h => h1 ((atLast_iff t).mp h)))]
      iintro ⟨⟨⟨HS6, HS7, Hoth⟩, Hg⟩, Ho, ⟨%d0, H0⟩, ⟨%d1, H1⟩, ⟨%d2, H2⟩, ⟨%d3, H3⟩⟩
      iapply (run_middle c (grid0.coords t) _ _ _ _ _ _ _ _ _ _ _ _ (fun h => h0 ((atFirst_iff t).mp h)) (fun h => h1 ((atLast_iff t).mp h)) (iblk V c 0 t) (iblk V c 1 t) _ _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point; -/
theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _
/-- and after the last point the invariant gives it back, the sums' contents forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N_0; omega), PhiA_eq]
  iintro ⟨⟨HS6, HS7, Hoth⟩, Hg⟩
  isplitr [Hg]
  · isplitl [HS6]; · iexists _; iexact HS6
    isplitl [HS7]; · iexists _; iexact HS7
    iexact Hoth
  iexact Hg

/-- The class's invariant from what a region's entry hands over (the generator register, tables that are none, the scoped
    rest), and back to what its exit takes. -/
theorem rest_in (c : Dev nD) (P : sProp 𝕄) :
    iprop((∃ r, prngReg c r) ∗ P ∗ Pipeline.scopedRest (Ix := Unit) (Name := ℕ) (U := UR sig nD τ) (Lvl := ℕ) (Val := Elt F) spec0 c) ⊢ (Pipeline.ΦA spec0 c : sProp 𝕄) := by
  unfold Pipeline.ΦA
  iintro ⟨Hp, -, Hr⟩
  isplitl [Hr]; · iexact Hr
  iexact Hp
theorem rest_out (c : Dev nD) :
    (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

end Cert.Kernel.Pass1
end
-- ==== Proof.KPass2Facts.lean ====
import proofs.«168828_j76141180223719_2_alg».proof.Proof.Gen.Kernel.Launch
import proofs.«168828_j76141180223719_2_alg».proof.Proof.LibWholeStore
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of pass 2's body, over the grid (2 × 16, as pass 1's) -/

/-- "this is step 0": the condition of the clearing branch. -/
abbrev atFirst (i : grid1.Coords) : Prop := (Scalar.cmpi .ne (Scalar.extui (Scalar.cmpi .eq (BitVec.ofNat 32 (i 1).val) 0#32)) 0#32) = 1#1
/-- "this is step 15": the condition of the writing-out branch. -/
abbrev atLast (i : grid1.Coords) : Prop := k1_cond2 i = 1#1

theorem atFirst_iff : ∀ t : Fin cfg1.N, atFirst (grid1.coords t) ↔ t.val % 16 = 0 :=
  (by decide +kernel : ∀ t : Fin grid1.N, atFirst (grid1.coords t) ↔ t.val % 16 = 0)
theorem atLast_iff : ∀ t : Fin cfg1.N, atLast (grid1.coords t) ↔ t.val % 16 = 15 :=
  (by decide +kernel : ∀ t : Fin grid1.N, atLast (grid1.coords t) ↔ t.val % 16 = 15)

/-- The inputs are never idle; the output is idle, and not written back, except at step 15. -/
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem idle_out3 : ∀ t : Fin cfg1.N, ¬atLast (grid1.coords t) → cfg1.idle 3 (grid1.coords t) = true := by decide +kernel
theorem noFlush_out3 : ∀ t : Fin cfg1.N, ¬atLast (grid1.coords t) → (cfg1.win 3).flush t = false := by decide +kernel
theorem live_out3 : ∀ t : Fin cfg1.N, atLast (grid1.coords t) → cfg1.idle 3 (grid1.coords t) = false := by decide +kernel

theorem zeros2 : (![0, 0] : Fin 2 → Nat) = fun _ => 0 := by funext a; fin_cases a <;> rfl
theorem zeros3 : (![0, 0, 0] : Fin 3 → Nat) = fun _ => 0 := by funext a; fin_cases a <;> rfl

end Cert.Kernel.Pass2
end
-- ==== Proof.KPass2Middle.lean ====
import proofs.«168828_j76141180223719_2_alg».proof.Proof.KPass2Facts
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run in each of its three cases

On whole staging memrefs: the joined tile `x0`, the memory keys `x1` and the total column sums `x2` stay; the running
matrix goes from `s` (from zero at step 0, whatever the buffer held) to `k1_pay3 x0 x1 x2 s`; the output buffer is
untouched except at step 15, where it receives the matrix just computed. -/

set_option maxHeartbeats 4000000 in
/-- A middle step (neither 0 nor 15). -/
theorem run_middle (c : Dev nD) (i : grid1.Coords) (arg2 : Memref sig .tc .vmem S256x128 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096x128 .f32) (harg5 : arg5.IsWhole) (arg6 : Memref sig .tc .vmem S4096x128 .f32) (harg6 : arg6.IsWhole) (hc0 : ¬atFirst i) (hc1 : ¬atLast i)
    (x0 : Vec F S256x128 .f32) (x1 : Vec F S4096x64 .f32) (x2 : Vec F S1x4096 .f32) (xi5 : Vec F S1x4096x128 .f32) (s : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare (k1_pay3 x0 x1 x2 s)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H5]
  · iexists _; isplitr; · ipureintro; rfl
    iexact H5
  iexists _; isplitr
  swap; · iexact H6
  ipureintro; sl_unfold_words
  rw [View.read_writes_unit_zero arg6.view f6 zeros2 inb_S4096x128_S4096x128_0_0]
  rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readAt_unit_zero arg6.view f6 zeros2 inb_S4096x128_S4096x128_0_0]

end Cert.Kernel.Pass2
end
-- ==== Proof.KPass2First.lean ====
import proofs.«168828_j76141180223719_2_alg».proof.Proof.KPass2Facts
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 0: the matrix is cleared first, so the scratch may hold anything. -/
theorem run_first (c : Dev nD) (i : grid1.Coords) (arg2 : Memref sig .tc .vmem S256x128 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096x128 .f32) (harg5 : arg5.IsWhole) (arg6 : Memref sig .tc .vmem S4096x128 .f32) (harg6 : arg6.IsWhole) (hc0 : atFirst i) (hc1 : ¬atLast i)
    (x0 : Vec F S256x128 .f32) (x1 : Vec F S4096x64 .f32) (x2 : Vec F S1x4096 .f32) (xi5 : Vec F S1x4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi5 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare (k1_pay3 x0 x1 x2 k1_pay2)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f5, %hf5, H5⟩, ⟨%d6, %f6, -, H6⟩, Hk⟩
  subst hf0; subst hf1; subst hf2; subst hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H5]
  · iexists _; isplitr; · ipureintro; rfl
    iexact H5
  iexists _; isplitr
  swap; · iexact H6
  ipureintro; sl_unfold_words
  rw [View.read_writes_cons_unit_zero arg6.view f6 zeros2 inb_S4096x128_S4096x128_0_0]
  rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readCov_unit_zero arg6.view zeros2 inb_S4096x128_S4096x128_0_0]

end Cert.Kernel.Pass2
end
-- ==== Proof.KPass2Last.lean ====
import proofs.«168828_j76141180223719_2_alg».proof.Proof.KPass2Facts
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 15: after the update the matrix is written to the output buffer (which may hold anything). -/
theorem run_last (c : Dev nD) (i : grid1.Coords) (arg2 : Memref sig .tc .vmem S256x128 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096x128 .f32) (harg5 : arg5.IsWhole) (arg6 : Memref sig .tc .vmem S4096x128 .f32) (harg6 : arg6.IsWhole) (hc0 : ¬atFirst i) (hc1 : atLast i)
    (x0 : Vec F S256x128 .f32) (x1 : Vec F S4096x64 .f32) (x2 : Vec F S1x4096 .f32) (s : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k1_pay1 (k1_pay3 x0 x1 x2 s)) ∗ owns (c : Thread nD τ) arg6 fullShare (k1_pay3 x0 x1 x2 s)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H5]
  · iexists _; isplitr
    swap; · iexact H5
    ipureintro; sl_unfold_words
    rw [View.read_writes_unit_zero arg5.view f5 zeros3 inb_S1x4096x128_S1x4096x128_0_0_0, View.readCov_unit_zero arg6.view zeros2 inb_S4096x128_S4096x128_0_0]
    rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readAt_unit_zero arg6.view f6 zeros2 inb_S4096x128_S4096x128_0_0]
  iexists _; isplitr
  swap; · iexact H6
  ipureintro; sl_unfold_words
  rw [View.read_writes_unit_zero arg6.view f6 zeros2 inb_S4096x128_S4096x128_0_0]
  rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readAt_unit_zero arg6.view f6 zeros2 inb_S4096x128_S4096x128_0_0]

end Cert.Kernel.Pass2
end
-- ==== Proof.KPass2Data.lean ====
import proofs.«168828_j76141180223719_2_alg».proof.Proof.KPass2Middle
import proofs.«168828_j76141180223719_2_alg».proof.Proof.KPass2First
import proofs.«168828_j76141180223719_2_alg».proof.Proof.KPass2Last
import proofs.«168828_j76141180223719_2_alg».proof.Proof.Gen.Kernel.Skeleton
import proofs.«168828_j76141180223719_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass 2 as a pipeline: what its buffers hold point by point

`V` is what the core's unscoped buffers hold when the region is entered. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's buffer holds its block at every point, fetched there or not: the joined tile, the memory keys, the
    total column sums. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The scratch operand (the running matrix), as a whole memref. -/
abbrev sc : Memref sig .tc .vmem S4096x128 .f32 := Memref.whole cc1_scratch0
abbrev ms0 (t : Fin cfg1.N) : Memref sig .tc .vmem S256x128 .f32 := win1_0.stage (cfg1.slots t 0)
abbrev ms1 (t : Fin cfg1.N) : Memref sig .tc .vmem S4096x64 .f32 := win1_1.stage (cfg1.slots t 1)
abbrev ms2 (t : Fin cfg1.N) : Memref sig .tc .vmem S1x4096 .f32 := win1_2.stage (cfg1.slots t 2)
abbrev ms3 (t : Fin cfg1.N) : Memref sig .tc .vmem S1x4096x128 .f32 := win1_3.stage (cfg1.slots t 3)

/-- THE ACCUMULATION: the running matrix after the body at position `n` — from zero at each core's step 0
    (positions 0 and 16), else from what the position before left. -/
def acc (c : Dev nD) : (n : ℕ) → n < cfg1.N → Vec F S4096x128 .f32
  | 0, hn => k1_pay3 (iblk V c 0 ⟨0, hn⟩) (iblk V c 1 ⟨0, hn⟩) (iblk V c 2 ⟨0, hn⟩) k1_pay2
  | n + 1, hn =>
    if (n + 1) % 16 = 0 then k1_pay3 (iblk V c 0 ⟨n + 1, hn⟩) (iblk V c 1 ⟨n + 1, hn⟩) (iblk V c 2 ⟨n + 1, hn⟩) k1_pay2
    else k1_pay3 (iblk V c 0 ⟨n + 1, hn⟩) (iblk V c 1 ⟨n + 1, hn⟩) (iblk V c 2 ⟨n + 1, hn⟩) (acc c n (Nat.lt_of_succ_lt hn))

theorem acc_first (c : Dev nD) (t : Fin cfg1.N) (h0 : t.val % 16 = 0) :
    acc V c t.val t.isLt = k1_pay3 (iblk V c 0 t) (iblk V c 1 t) (iblk V c 2 t) k1_pay2 := by
  obtain ⟨n, hn⟩ := t
  cases n with
  | zero => rfl
  | succ n => exact if_pos h0
theorem acc_next (c : Dev nD) (t : Fin cfg1.N) (h0 : ¬t.val % 16 = 0) :
    acc V c t.val t.isLt = k1_pay3 (iblk V c 0 t) (iblk V c 1 t) (iblk V c 2 t) (acc V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers that pass 2 never touches (pass 1's staging buffers and scratch), each at some contents. -/
def others (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class's invariant spelt out: the untouched buffers and the scratch at anything, the generator register. -/
theorem PhiA_eq (c : Dev nD) :
    (Pipeline.ΦA spec1 c : sProp 𝕄) = iprop(others c iprop(∃ d, owns (c : Thread nD τ) sc fullShare d) ∗ (∃ r, prngReg c r)) := by
  unfold Pipeline.ΦA others; rw [scopedRest1_eq]; simp only [sc, owns_whole]; try rfl

/-- The region invariant before position `n`: before the first, the class's; afterwards the scratch at the running
    matrix the position before left. -/
def Phi (c : Dev nD) : (n : ℕ) → n ≤ cfg1.N → sProp 𝕄
  | 0, _ => Pipeline.ΦA spec1 c
  | n + 1, hn => iprop(others c (owns (c : Thread nD τ) sc fullShare (acc V c n hn)) ∗ (∃ r, prngReg c r))

theorem Phi_zero (c : Dev nD) (n : ℕ) (h : n ≤ cfg1.N) (hz : n = 0) : Phi V c n h = Pipeline.ΦA spec1 c := by subst hz; rfl
theorem Phi_succ (c : Dev nD) (n : ℕ) (hn : n < cfg1.N) :
    Phi V c (n + 1) hn = iprop(others c (owns (c : Thread nD τ) sc fullShare (acc V c n hn)) ∗ (∃ r, prngReg c r)) := rfl
theorem Phi_pos (c : Dev nD) (n : ℕ) (h : n ≤ cfg1.N) (hz : n ≠ 0) :
    Phi V c n h = iprop(others c (owns (c : Thread nD τ) sc fullShare (acc V c (n - 1) (by omega))) ∗ (∃ r, prngReg c r)) := by
  cases n with
  | zero => exact absurd rfl hz
  | succ n => rfl

/-- Pass 2's proof data on core `c`: the arrays as found; each input's buffer at its block; the output's buffer, at
    step 15, at the running matrix just computed; the invariant above; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay1 (acc V c t.val t.isLt)
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = k1_pay1 (acc V c t.val t.isLt) := by dsimp only [dat]
theorem before0 (c : Dev nD) (t : Fin cfg1.N) (d) : (dat V c).before 0 t d = iblk V c 0 t := before_in0_of V (dat V c) (A_eq V c 0) (after0 V c) t d
theorem before1 (c : Dev nD) (t : Fin cfg1.N) (d) : (dat V c).before 1 t d = iblk V c 1 t := before_in1_of V (dat V c) (A_eq V c 1) (after1 V c) t d
theorem before2 (c : Dev nD) (t : Fin cfg1.N) (d) : (dat V c).before 2 t d = iblk V c 2 t := before_in2_of V (dat V c) (A_eq V c 2) (after2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))
/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: by the step's case (0, 15, or between), that case's run; the invariant hands over the
    running matrix at what the point before left (at anything at step 0) and takes it back at this point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live_in0 t], after0]
  rw [show (dat V c).leavesExact 1 t = owns (c : Thread nD τ) (ms1 t) fullShare ((dat V c).after 1 t) from by
    unfold Dat.leavesExact; rw [live_in1 t], after1]
  rw [show (dat V c).leavesExact 2 t = owns (c : Thread nD τ) (ms2 t) fullShare ((dat V c).after 2 t) from by
    unfold Dat.leavesExact; rw [live_in2 t], after2]
  by_cases h0 : t.val % 16 = 0
  · have h1 : ¬t.val % 16 = 15 := by omega
    rw [Dat.leavesExact_idle (dat V c) 3 t (idle_out3 t (fun h => h1 ((atLast_iff t).mp h))) (noFlush_out3 t (fun h => h1 ((atLast_iff t).mp h)))]
    rw [acc_first V c t h0]
    by_cases hz : t.val = 0
    · rw [Phi_castSucc V c t, Phi_zero V c _ _ hz, PhiA_eq]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_first c (grid1.coords t) _ _ _ _ _ _ _ _ _ _ ((atFirst_iff t).mpr h0) (fun h => h1 ((atLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_first c (grid1.coords t) _ _ _ _ _ _ _ _ _ _ ((atFirst_iff t).mpr h0) (fun h => h1 ((atLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc_next V c t h0]
    rw [Phi_castSucc V c t, Phi_pos V c _ _ hz]
    by_cases h1 : t.val % 16 = 15
    · rw [show (dat V c).leavesExact 3 t = owns (c : Thread nD τ) (ms3 t) fullShare ((dat V c).after 3 t) from by
        unfold Dat.leavesExact; rw [live_out3 t ((atLast_iff t).mpr h1)], after3]
      rw [acc_next V c t h0]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_last c (grid1.coords t) _ _ _ _ _ _ _ _ _ _ (fun h => h0 ((atFirst_iff t).mp h)) ((atLast_iff t).mpr h1) (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexact H3
    · rw [Dat.leavesExact_idle (dat V c) 3 t (idle_out3 t (fun h => h1 ((atLast_iff t).mp h))) (noFlush_out3 t (fun h => h1 ((atLast_iff t).mp h)))]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_middle c (grid1.coords t) _ _ _ _ _ _ _ _ _ _ (fun h => h0 ((atFirst_iff t).mp h)) (fun h => h1 ((atLast_iff t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point; -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _
/-- and after the last point the invariant gives it back, the matrix's contents forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 32 := N_1; omega), PhiA_eq]
  unfold others
  iintro ⟨⟨Hb1, Hb2, Hb3, Hb4, Hb5, Hb6, Hb7, Hb8, Hb9, HS⟩, Hg⟩
  isplitr [Hg]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    iexists _; iexact HS
  iexact Hg

/-- The class's invariant from what a region's entry hands over (the generator register, tables that are none, the scoped
    rest), and back to what its exit takes. -/
theorem rest_in (c : Dev nD) (P : sProp 𝕄) :
    iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp
theorem rest_out (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

end Cert.Kernel.Pass2
end
-- ==== Proof.KWhole.lean ====
/-
  The whole program: pass 1, the host's sums over the two cores and the joining of Q and O, pass 2, the host's epilogue.

  Between two items core c's unscoped buffers are held whole at a valuation: W0 the launch contents; W1 those with pass 1's
  arrays at what its pipeline leaves; W2 after the first host stretch; W3 with pass 2's arrays at what its pipeline leaves;
  W4 after the epilogue. Each pass is a kernel region entered from and left at these states; the run ends with every
  unscoped buffer at W4, from which the argument arrays are read back as launched (no item writes one).
-/
import proofs.«168828_j76141180223719_2_alg».proof.Proof.KPass1Data
import proofs.«168828_j76141180223719_2_alg».proof.Proof.KPass2Data
import proofs.«168828_j76141180223719_2_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Whole

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's buffers at launch. -/
abbrev W0 : Dev nD → Valuation τ sig (Elt F) := fun c b => m ((c : Dev nD), b)
abbrev U0 : (c : Dev nD) → (b : Ref sig .tc) → Buf (Elt F) ((c : Thread nD τ).loc b) := fun c b => W0 m c b
/-- At pass 1's exit: its arrays at what the pipeline leaves, every other buffer as entered. -/
def W1 (c : Dev nD) : Valuation τ sig (Elt F) :=
  Pipeline.withArrays spec0 c (W0 m c) fun w => (Pass1.dat (U0 m) c).arrAt w cfg0.N
theorem W1_arr (c : Dev nD) (w : Fin cfg0.W) :
    W1 m c (Proc.devRef .tc (Pipeline.arrRef spec0 w)) = (Pass1.dat (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (Pass1.dat (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After the first host stretch (pass 2's entry). -/
abbrev W2 : Dev nD → Valuation τ sig (Elt F) := fun c => StableHlo.after hostOps1 (W1 m c)
abbrev U2 : (c : Dev nD) → (b : Ref sig .tc) → Buf (Elt F) ((c : Thread nD τ).loc b) := fun c b => W2 m c b
/-- At pass 2's exit. -/
def W3 (c : Dev nD) : Valuation τ sig (Elt F) :=
  Pipeline.withArrays spec1 c (W2 m c) fun w => (Pass2.dat (U2 m) c).arrAt w cfg1.N
theorem W3_arr (c : Dev nD) (w : Fin cfg1.W) :
    W3 m c (Proc.devRef .tc (Pipeline.arrRef spec1 w)) = (Pass2.dat (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (Pass2.dat (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)
/-- After the epilogue (the program's end). -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((Pass1.dat (U0 m) c).arrAt_in 0 rfl _).trans (Pass1.A_eq (U0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 1).trans (((Pass2.dat (U2 m) c).arrAt_in 1 rfl _).trans (Pass2.A_eq (U2 m) c 1))
    _ = W1 m c (Proc.devRef .tc main_arg2) := StableHlo.after_of_writes_sub hostOps1 _ hostOps1_writes (by decide)
    _ = W0 m c (Proc.devRef .tc main_arg2) := (W1_arr m c 1).trans (((Pass1.dat (U0 m) c).arrAt_in 1 rfl _).trans (Pass1.A_eq (U0 m) c 1))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-! ## The proof data family and the thread state -/

/-- Both passes' proof data, each at its region's entry contents. -/
def pdats : (p : Fin 2) → (c : Dev nD) → Dat τ (Elt F) Unit ℕ (UR sig nD τ) ℕ (Pipeline.pin (pcfgs (F := F)) adm p) c
  | ⟨0, _⟩ => fun c => Pass1.dat (U0 m) c
  | ⟨1, _⟩ => fun c => Pass2.dat (U2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two passes as kernel regions -/

set_option backward.isDefEq.respectTransparency.types false in
/-- Pass 1 over the thread state: entered from every unscoped buffer at W0, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (Pass1.rest_in c _).trans (Pass1.hin (U0 m) c)
  hout c := by
    rw [Pipeline.ownSems0_none]
    exact (Pass1.hout (U0 m) c).trans (Pass1.rest_out c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (Pass2.rest_in c _).trans (Pass2.hin (U2 m) c)
  hout c := by
    rw [Pipeline.ownSems0_none]
    exact (Pass2.hout (U2 m) c).trans (Pass2.rest_out c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev items : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (items m) := (main_chain c).trans (by chain_rfl)

set_option backward.isDefEq.respectTransparency.types false in
/-- THE RUN: from any memory with zero counters every weakly fair execution of @main terminates, nothing faulting, and
    every unscoped buffer of every core ends at W4. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Whole
end
-- ==== Proof.Pass1Facts.lean ====
import proofs.«168828_j76141180223719_2_alg».proof.Proof.Gen.KernelIdeal.Launch
import proofs.«168828_j76141180223719_2_alg».proof.Proof.LibWholeStore
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of pass 1's body, over the grid

The grid is 2 × 16: point `t` is step `t mod 16` of core `t / 16`. The body clears its two running sums at step 0 and
writes them out at step 15. -/

/-- "this is step 0": the condition of the clearing branch. -/
abbrev atFirst (i : grid0.Coords) : Prop := (Scalar.cmpi .ne (Scalar.extui (Scalar.cmpi .eq (BitVec.ofNat 32 (i 1).val) 0#32)) 0#32) = 1#1
/-- "this is step 15": the condition of the writing-out branch. -/
abbrev atLast (i : grid0.Coords) : Prop := k0_cond2 i = 1#1

theorem atFirst_iff : ∀ t : Fin cfg0.N, atFirst (grid0.coords t) ↔ t.val % 16 = 0 :=
  (by decide +kernel : ∀ t : Fin grid0.N, atFirst (grid0.coords t) ↔ t.val % 16 = 0)
theorem atLast_iff : ∀ t : Fin cfg0.N, atLast (grid0.coords t) ↔ t.val % 16 = 15 :=
  (by decide +kernel : ∀ t : Fin grid0.N, atLast (grid0.coords t) ↔ t.val % 16 = 15)

/-- The inputs are never idle; the two outputs are idle, and not written back, except at step 15. -/
theorem live_in0 : ∀ t : Fin cfg0.N, cfg0.idle 0 (grid0.coords t) = false := by decide +kernel
theorem live_in1 : ∀ t : Fin cfg0.N, cfg0.idle 1 (grid0.coords t) = false := by decide +kernel
theorem idle_out2 : ∀ t : Fin cfg0.N, ¬atLast (grid0.coords t) → cfg0.idle 2 (grid0.coords t) = true := by decide +kernel
theorem idle_out3 : ∀ t : Fin cfg0.N, ¬atLast (grid0.coords t) → cfg0.idle 3 (grid0.coords t) = true := by decide +kernel
theorem noFlush_out2 : ∀ t : Fin cfg0.N, ¬atLast (grid0.coords t) → (cfg0.win 2).flush t = false := by decide +kernel
theorem noFlush_out3 : ∀ t : Fin cfg0.N, ¬atLast (grid0.coords t) → (cfg0.win 3).flush t = false := by decide +kernel
theorem live_out2 : ∀ t : Fin cfg0.N, atLast (grid0.coords t) → cfg0.idle 2 (grid0.coords t) = false := by decide +kernel
theorem live_out3 : ∀ t : Fin cfg0.N, atLast (grid0.coords t) → cfg0.idle 3 (grid0.coords t) = false := by decide +kernel

theorem zeros2 : (![0, 0] : Fin 2 → Nat) = fun _ => 0 := by funext a; fin_cases a <;> rfl
theorem zeros3 : (![0, 0, 0] : Fin 3 → Nat) = fun _ => 0 := by funext a; fin_cases a <;> rfl

end Cert.KernelIdeal.Pass1
end
-- ==== Proof.Pass1Middle.lean ====
import proofs.«168828_j76141180223719_2_alg».proof.Proof.Pass1Facts
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run in each of its three cases

On whole staging memrefs: the tile `x0` and the memory keys `x1` stay; the two running sums go from `s6`, `s7` (from
zero at step 0, whatever the buffers held) to `k0_pay7 x0 x1 s6` and `k0_pay1 (k0_pay8 x0 x1 s7)`; the two output
buffers are untouched except at step 15, where they receive the sums just computed. -/

set_option maxHeartbeats 4000000 in
/-- A middle step (neither 0 nor 15). -/
theorem run_middle (c : Dev nD) (i : grid0.Coords) (arg2 : Memref sig .tc .vmem S256x64 .f32) (harg2 : arg2.IsWhole) (arg3 : Memref sig .tc .vmem S4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬atFirst i) (hc1 : ¬atLast i)
    (x0 : Vec F S256x64 .f32) (x1 : Vec F S4096x64 .f32) (xi4 xi5 : Vec F S1x1x4096 .f32) (s6 s7 : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare xi4 ∗ owns (c : Thread nD τ) arg5 fullShare xi5 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare xi4 ∗ owns (c : Thread nD τ) arg5 fullShare xi5
            ∗ owns (c : Thread nD τ) arg6 fullShare (k0_pay7 x0 x1 s6) ∗ owns (c : Thread nD τ) arg7 fullShare (k0_pay1 (k0_pay8 x0 x1 s7))) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0; subst hf1; subst hf4; subst hf5; subst hf6; subst hf7
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H4]
  · iexists _; isplitr; · ipureintro; rfl
    iexact H4
  isplitl [H5]
  · iexists _; isplitr; · ipureintro; rfl
    iexact H5
  isplitl [H6]
  · iexists _; isplitr
    swap; · iexact H6
    ipureintro
    rw [View.read_writes_unit_zero arg6.view f6 zeros2 inb_S1x4096_S1x4096_0_0]
    rw [View.readAt_unit_zero arg2.view f0 zeros2 inb_S256x64_S256x64_0_0, View.readAt_unit_zero arg3.view f1 zeros2 inb_S4096x64_S4096x64_0_0,
      View.readAt_unit_zero arg6.view f6 zeros2 inb_S1x4096_S1x4096_0_0]
  iexists _; isplitr
  swap; · iexact H7
  ipureintro; sl_unfold_words
  rw [View.read_writes_unit_zero arg7.view f7 zeros2 inb_S1x4096_S1x4096_0_0]
  rw [View.readAt_unit_zero arg2.view f0 zeros2 inb_S256x64_S256x64_0_0, View.readAt_unit_zero arg3.view f1 zeros2 inb_S4096x64_S4096x64_0_0,
    View.readAt_unit_zero arg7.view f7 zeros2 inb_S1x4096_S1x4096_0_0]

end Cert.KernelIdeal.Pass1
end
-- ==== Proof.Pass1First.lean ====
import proofs.«168828_j76141180223719_2_alg».proof.Proof.Pass1Facts
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 0: the sums are cleared first, so the scratch may hold anything. -/
theorem run_first (c : Dev nD) (i : grid0.Coords) (arg2 : Memref sig .tc .vmem S256x64 .f32) (harg2 : arg2.IsWhole) (arg3 : Memref sig .tc .vmem S4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : atFirst i) (hc1 : ¬atLast i)
    (x0 : Vec F S256x64 .f32) (x1 : Vec F S4096x64 .f32) (xi4 xi5 : Vec F S1x1x4096 .f32) (E : Set ℕ) (K : PUnit → sProp 𝕄) :
    iprop(owns (c : Thread nD τ) arg2 fullShare x0 ∗ owns (c : Thread nD τ) arg3 fullShare x1 ∗ owns (c : Thread nD τ) arg4 fullShare xi4 ∗ owns (c : Thread nD τ) arg5 fullShare xi5 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi4 ∗ owns (c : Thread nD τ) arg5 fullShare xi5
            ∗ owns (c : Thread nD τ) arg6 fullShare (k0_pay7 x0 x1 k0_pay4) ∗ owns (c : Thread nD τ) arg7 fullShare (k0_pay1 (k0_pay8 x0 x1 k0_pay5))) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f4, %hf4, H4⟩, ⟨%f5, %hf5, H5⟩, ⟨%d6, %f6, -, H6⟩, ⟨%d7, %f7, -, H7⟩, Hk⟩
  subst hf0; subst hf1; subst hf4; subst hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H4]
  · iexists _; isplitr; · ipureintro; rfl
    iexact H4
  isplitl [H5]
  · iexists _; isplitr; · ipureintro; rfl
    iexact H5
  isplitl [H6]
  · iexists _; isplitr
    swap; · iexact H6
    ipureintro; sl_unfold_words
    rw [View.read_writes_cons_unit_zero arg6.view f6 zeros2 inb_S1x4096_S1x4096_0_0]
    rw [View.readAt_unit_zero arg2.view f0 zeros2 inb_S256x64_S256x64_0_0, View.readAt_unit_zero arg3.view f1 zeros2 inb_S4096x64_S4096x64_0_0, View.readCov_unit_zero arg6.view zeros2 inb_S1x4096_S1x4096_0_0]
  iexists _; isplitr
  swap; · iexact H7
  ipureintro; sl_unfold_words
  rw [View.read_writes_cons_unit_zero arg7.view f7 zeros2 inb_S1x4096_S1x4096_0_0]
  rw [View.readAt_unit_zero arg2.view f0 zeros2 inb_S256x64_S256x64_0_0, View.readAt_unit_zero arg3.view f1 zeros2 inb_S4096x64_S4096x64_0_0, View.readCov_unit_zero arg7.view zeros2 inb_S1x4096_S1x4096_0_0]

end Cert.KernelIdeal.Pass1
end
-- ==== Proof.Pass1Last.lean ====
import proofs.«168828_j76141180223719_2_alg».proof.Proof.Pass1Facts
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 15: after the update the two sums are written to the output buffers (which may hold anything). -/
theorem run_last (c : Dev nD) (i : grid0.Coords) (arg2 : Memref sig .tc .vmem S256x64 .f32) (harg2 : arg2.IsWhole) (arg3 : Memref sig .tc .vmem S4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬atFirst i) (hc1 : atLast i)
    (x0 : Vec F S256x64 .f32) (x1 : Vec F S4096x64 .f32) (s6 s7 : Vec F S1x4096 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare (k0_pay2 (k0_pay7 x0 x1 s6)) ∗ owns (c : Thread nD τ) arg5 fullShare (k0_pay3 (k0_pay1 (k0_pay8 x0 x1 s7)))
            ∗ owns (c : Thread nD τ) arg6 fullShare (k0_pay7 x0 x1 s6) ∗ owns (c : Thread nD τ) arg7 fullShare (k0_pay1 (k0_pay8 x0 x1 s7))) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%d4, %f4, -, H4⟩, ⟨%d5, %f5, -, H5⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H4]
  · iexists _; isplitr
    swap; · iexact H4
    ipureintro; sl_unfold_words
    rw [View.read_writes_unit_zero arg4.view f4 zeros3 inb_S1x1x4096_S1x1x4096_0_0_0, View.readCov_unit_zero arg6.view zeros2 inb_S1x4096_S1x4096_0_0]
    rw [View.readAt_unit_zero arg2.view f0 zeros2 inb_S256x64_S256x64_0_0, View.readAt_unit_zero arg3.view f1 zeros2 inb_S4096x64_S4096x64_0_0, View.readAt_unit_zero arg6.view f6 zeros2 inb_S1x4096_S1x4096_0_0]
  isplitl [H5]
  · iexists _; isplitr
    swap; · iexact H5
    ipureintro; sl_unfold_words
    rw [View.read_writes_unit_zero arg5.view f5 zeros3 inb_S1x1x4096_S1x1x4096_0_0_0, View.readCov_unit_zero arg7.view zeros2 inb_S1x4096_S1x4096_0_0]
    rw [View.readAt_unit_zero arg2.view f0 zeros2 inb_S256x64_S256x64_0_0, View.readAt_unit_zero arg3.view f1 zeros2 inb_S4096x64_S4096x64_0_0, View.readAt_unit_zero arg7.view f7 zeros2 inb_S1x4096_S1x4096_0_0]
  isplitl [H6]
  · iexists _; isplitr
    swap; · iexact H6
    ipureintro; sl_unfold_words
    rw [View.read_writes_unit_zero arg6.view f6 zeros2 inb_S1x4096_S1x4096_0_0]
    rw [View.readAt_unit_zero arg2.view f0 zeros2 inb_S256x64_S256x64_0_0, View.readAt_unit_zero arg3.view f1 zeros2 inb_S4096x64_S4096x64_0_0, View.readAt_unit_zero arg6.view f6 zeros2 inb_S1x4096_S1x4096_0_0]
  iexists _; isplitr
  swap; · iexact H7
  ipureintro; sl_unfold_words
  rw [View.read_writes_unit_zero arg7.view f7 zeros2 inb_S1x4096_S1x4096_0_0]
  rw [View.readAt_unit_zero arg2.view f0 zeros2 inb_S256x64_S256x64_0_0, View.readAt_unit_zero arg3.view f1 zeros2 inb_S4096x64_S4096x64_0_0, View.readAt_unit_zero arg7.view f7 zeros2 inb_S1x4096_S1x4096_0_0]

end Cert.KernelIdeal.Pass1
end
-- ==== Proof.Pass1Data.lean ====
import proofs.«168828_j76141180223719_2_alg».proof.Proof.Pass1Middle
import proofs.«168828_j76141180223719_2_alg».proof.Proof.Pass1First
import proofs.«168828_j76141180223719_2_alg».proof.Proof.Pass1Last
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass 1 as a pipeline: what its buffers hold point by point

`V` is what the core's unscoped buffers hold when the region is entered. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The context tile's buffer holds the point's tile, for any proof data over `V` whose body leaves it in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The memory keys' buffer holds the whole key array at every point (fetched once, never moved). -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The two scratch operands (the running sums), as whole memrefs. -/
abbrev sc6 : Memref sig .tc .vmem S1x4096 .f32 := Memref.whole cc0_scratch0
abbrev sc7 : Memref sig .tc .vmem S1x4096 .f32 := Memref.whole cc0_scratch1
abbrev ms0 (t : Fin cfg0.N) : Memref sig .tc .vmem S256x64 .f32 := win0_0.stage (cfg0.slots t 0)
abbrev ms1 (t : Fin cfg0.N) : Memref sig .tc .vmem S4096x64 .f32 := win0_1.stage (cfg0.slots t 1)
abbrev ms2 (t : Fin cfg0.N) : Memref sig .tc .vmem S1x1x4096 .f32 := win0_2.stage (cfg0.slots t 2)
abbrev ms3 (t : Fin cfg0.N) : Memref sig .tc .vmem S1x1x4096 .f32 := win0_3.stage (cfg0.slots t 3)

/-- THE ACCUMULATION: the two running sums after the body at position `n` — from zero at each core's step 0
    (positions 0 and 16), else from what the position before left. -/
def sums (c : Dev nD) : (n : ℕ) → n < cfg0.N → Vec F S1x4096 .f32 × Vec F S1x4096 .f32
  | 0, hn => (k0_pay7 (iblk V c 0 ⟨0, hn⟩) (iblk V c 1 ⟨0, hn⟩) k0_pay4, k0_pay1 (k0_pay8 (iblk V c 0 ⟨0, hn⟩) (iblk V c 1 ⟨0, hn⟩) k0_pay5))
  | n + 1, hn =>
    if (n + 1) % 16 = 0 then
      (k0_pay7 (iblk V c 0 ⟨n + 1, hn⟩) (iblk V c 1 ⟨n + 1, hn⟩) k0_pay4, k0_pay1 (k0_pay8 (iblk V c 0 ⟨n + 1, hn⟩) (iblk V c 1 ⟨n + 1, hn⟩) k0_pay5))
    else
      (k0_pay7 (iblk V c 0 ⟨n + 1, hn⟩) (iblk V c 1 ⟨n + 1, hn⟩) (sums c n (Nat.lt_of_succ_lt hn)).1,
       k0_pay1 (k0_pay8 (iblk V c 0 ⟨n + 1, hn⟩) (iblk V c 1 ⟨n + 1, hn⟩) (sums c n (Nat.lt_of_succ_lt hn)).2))

theorem sums_first (c : Dev nD) (t : Fin cfg0.N) (h0 : t.val % 16 = 0) :
    sums V c t.val t.isLt = (k0_pay7 (iblk V c 0 t) (iblk V c 1 t) k0_pay4, k0_pay1 (k0_pay8 (iblk V c 0 t) (iblk V c 1 t) k0_pay5)) := by
  obtain ⟨n, hn⟩ := t
  cases n with
  | zero => rfl
  | succ n => exact if_pos h0
theorem sums_next (c : Dev nD) (t : Fin cfg0.N) (h0 : ¬t.val % 16 = 0) :
    sums V c t.val t.isLt = (k0_pay7 (iblk V c 0 t) (iblk V c 1 t) (sums V c (t.val - 1) (Nat.lt_of_le_of_lt (Nat.sub_le _ _) t.isLt)).1,
      k0_pay1 (k0_pay8 (iblk V c 0 t) (iblk V c 1 t) (sums V c (t.val - 1) (Nat.lt_of_le_of_lt (Nat.sub_le _ _) t.isLt)).2)) := by
  obtain ⟨n, hn⟩ := t
  cases n with
  | zero => exact absurd (Nat.zero_mod _) h0
  | succ n => exact if_neg h0

/-- The core's scoped buffers that pass 1 never touches (pass 2's staging buffers and scratch), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's invariant spelt out: the two scratch buffers and the untouched ones at anything, the generator register. -/
theorem PhiA_eq (c : Dev nD) :
    (Pipeline.ΦA spec0 c : sProp 𝕄)
      = iprop(iprop((∃ d, owns (c : Thread nD τ) sc6 fullShare d) ∗ (∃ d, owns (c : Thread nD τ) sc7 fullShare d) ∗ others c) ∗ (∃ r, prngReg c r)) := by
  unfold Pipeline.ΦA others; rw [scopedRest0_eq]; simp only [sc6, sc7, owns_whole]; try rfl

/-- The region invariant before position `n`: before the first, the class's; afterwards the two scratch buffers at
    the running sums the position before left. -/
def Phi (c : Dev nD) : (n : ℕ) → n ≤ cfg0.N → sProp 𝕄
  | 0, _ => Pipeline.ΦA spec0 c
  | n + 1, hn => iprop(iprop(owns (c : Thread nD τ) sc6 fullShare (sums V c n hn).1 ∗ owns (c : Thread nD τ) sc7 fullShare (sums V c n hn).2 ∗ others c) ∗ (∃ r, prngReg c r))

theorem Phi_zero (c : Dev nD) (n : ℕ) (h : n ≤ cfg0.N) (hz : n = 0) : Phi V c n h = Pipeline.ΦA spec0 c := by subst hz; rfl
theorem Phi_succ (c : Dev nD) (n : ℕ) (hn : n < cfg0.N) :
    Phi V c (n + 1) hn = iprop(iprop(owns (c : Thread nD τ) sc6 fullShare (sums V c n hn).1 ∗ owns (c : Thread nD τ) sc7 fullShare (sums V c n hn).2 ∗ others c) ∗ (∃ r, prngReg c r)) := rfl
theorem Phi_pos (c : Dev nD) (n : ℕ) (h : n ≤ cfg0.N) (hz : n ≠ 0) :
    Phi V c n h = iprop(iprop(owns (c : Thread nD τ) sc6 fullShare (sums V c (n - 1) (by omega)).1 ∗ owns (c : Thread nD τ) sc7 fullShare (sums V c (n - 1) (by omega)).2 ∗ others c) ∗ (∃ r, prngReg c r)) := by
  cases n with
  | zero => exact absurd rfl hz
  | succ n => rfl

/-- Pass 1's proof data on core `c`: the arrays as found; each input's buffer at its block; each output's buffer, at
    step 15, at the running sum just computed; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay2 (sums V c t.val t.isLt).1
    | ⟨3, _⟩ => k0_pay3 (sums V c t.val t.isLt).2
  Φ t := Phi V c t.val (Nat.le_of_lt_succ t.isLt)
  q _ := fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = Phi V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = k0_pay2 (sums V c t.val t.isLt).1 := by dsimp only [dat]
theorem after3 (c : Dev nD) (t : Fin cfg0.N) : (dat V c).after 3 t = k0_pay3 (sums V c t.val t.isLt).2 := by dsimp only [dat]
theorem before0 (c : Dev nD) (t : Fin cfg0.N) (d) : (dat V c).before 0 t d = iblk V c 0 t := before_in0_of V (dat V c) (A_eq V c 0) (after0 V c) t d
theorem before1 (c : Dev nD) (t : Fin cfg0.N) (d) : (dat V c).before 1 t d = iblk V c 1 t := before_in1_of V (dat V c) (A_eq V c 1) (after1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))
/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: by the step's case (0, 15, or between), that case's run; the invariant hands over the two
    running sums at what the point before left (at anything at step 0) and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live_in0 t], after0]
  rw [show (dat V c).leavesExact 1 t = owns (c : Thread nD τ) (ms1 t) fullShare ((dat V c).after 1 t) from by
    unfold Dat.leavesExact; rw [live_in1 t], after1]
  by_cases h0 : t.val % 16 = 0
  · have h1 : ¬t.val % 16 = 15 := by omega
    rw [Dat.leavesExact_idle (dat V c) 2 t (idle_out2 t (fun h => h1 ((atLast_iff t).mp h))) (noFlush_out2 t (fun h => h1 ((atLast_iff t).mp h))),
      Dat.leavesExact_idle (dat V c) 3 t (idle_out3 t (fun h => h1 ((atLast_iff t).mp h))) (noFlush_out3 t (fun h => h1 ((atLast_iff t).mp h)))]
    rw [sums_first V c t h0]
    by_cases hz : t.val = 0
    · rw [Phi_castSucc V c t, Phi_zero V c _ _ hz, PhiA_eq]
      iintro ⟨⟨⟨HS6, HS7, Hoth⟩, Hg⟩, Ho, ⟨%d0, H0⟩, ⟨%d1, H1⟩, ⟨%d2, H2⟩, ⟨%d3, H3⟩⟩
      iapply (run_first c (grid0.coords t) _ _ _ _ _ _ _ _ _ _ _ _ ((atFirst_iff t).mpr h0) (fun h => h1 ((atLast_iff t).mp h)) (iblk V c 0 t) (iblk V c 1 t) _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexists _; iexact H2
      iexists _; iexact H3
    · rw [Phi_castSucc V c t, Phi_pos V c _ _ hz]
      iintro ⟨⟨⟨HS6, HS7, Hoth⟩, Hg⟩, Ho, ⟨%d0, H0⟩, ⟨%d1, H1⟩, ⟨%d2, H2⟩, ⟨%d3, H3⟩⟩
      iapply (run_first c (grid0.coords t) _ _ _ _ _ _ _ _ _ _ _ _ ((atFirst_iff t).mpr h0) (fun h => h1 ((atLast_iff t).mp h)) (iblk V c 0 t) (iblk V c 1 t) _ _ Set.univ _)
      isplitl [H0]; · iexact H0
      isplitl [H1]; · iexact H1
      isplitl [H2]; · iexact H2
      isplitl [H3]; · iexact H3
      isplitl [HS6]; · iexists _; iexact HS6
      isplitl [HS7]; · iexists _; iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    rw [sums_next V c t h0]
    rw [Phi_castSucc V c t, Phi_pos V c _ _ hz]
    by_cases h1 : t.val % 16 = 15
    · rw [show (dat V c).leavesExact 2 t = owns (c : Thread nD τ) (ms2 t) fullShare ((dat V c).after 2 t) from by
        unfold Dat.leavesExact; rw [live_out2 t ((atLast_iff t).mpr h1)], after2]
      rw [show (dat V c).leavesExact 3 t = owns (c : Thread nD τ) (ms3 t) fullShare ((dat V c).after 3 t) from by
        unfold Dat.leavesExact; rw [live_out3 t ((atLast_iff t).mpr h1)], after3]
      rw [sums_next V c t h0]
      iintro ⟨⟨⟨HS6, HS7, Hoth⟩, Hg⟩, Ho, ⟨%d0, H0⟩, ⟨%d1, H1⟩, ⟨%d2, H2⟩, ⟨%d3, H3⟩⟩
      iapply (run_last c (grid0.coords t) _ _ _ _ _ _ _ _ _ _ _ _ (fun h => h0 ((atFirst_iff t).mp h)) ((atLast_iff t).mpr h1) (iblk V c 0 t) (iblk V c 1 t) _ _ Set.univ _)
      isplitl [H0]; · iexact H0
      isplitl [H1]; · iexact H1
      isplitl [H2]; · iexists _; iexact H2
      isplitl [H3]; · iexists _; iexact H3
      isplitl [HS6]; · iexact HS6
      isplitl [HS7]; · iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexact H2
      iexact H3
    · rw [Dat.leavesExact_idle (dat V c) 2 t (idle_out2 t (fun h => h1 ((atLast_iff t).mp h))) (noFlush_out2 t (fun h => h1 ((atLast_iff t).mp h))),
        Dat.leavesExact_idle (dat V c) 3 t (idle_out3 t (fun h => h1 ((atLast_iff t).mp h))) (noFlush_out3 t (fun h => h1 ((atLast_iff t).mp h)))]
      iintro ⟨⟨⟨HS6, HS7, Hoth⟩, Hg⟩, Ho, ⟨%d0, H0⟩, ⟨%d1, H1⟩, ⟨%d2, H2⟩, ⟨%d3, H3⟩⟩
      iapply (run_middle c (grid0.coords t) _ _ _ _ _ _ _ _ _ _ _ _ (fun h => h0 ((atFirst_iff t).mp h)) (fun h => h1 ((atLast_iff t).mp h)) (iblk V c 0 t) (iblk V c 1 t) _ _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [HS6 HS7 Hoth Hg]
      · isplitr [Hg]
        · isplitl [HS6]; · iexact HS6
          isplitl [HS7]; · iexact HS7
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point; -/
theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _
/-- and after the last point the invariant gives it back, the sums' contents forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N_0; omega), PhiA_eq]
  iintro ⟨⟨HS6, HS7, Hoth⟩, Hg⟩
  isplitr [Hg]
  · isplitl [HS6]; · iexists _; iexact HS6
    isplitl [HS7]; · iexists _; iexact HS7
    iexact Hoth
  iexact Hg

/-- The class's invariant from what a region's entry hands over (the generator register, tables that are none, the scoped
    rest), and back to what its exit takes. -/
theorem rest_in (c : Dev nD) (P : sProp 𝕄) :
    iprop((∃ r, prngReg c r) ∗ P ∗ Pipeline.scopedRest (Ix := Unit) (Name := ℕ) (U := UR sig nD τ) (Lvl := ℕ) (Val := Elt F) spec0 c) ⊢ (Pipeline.ΦA spec0 c : sProp 𝕄) := by
  unfold Pipeline.ΦA
  iintro ⟨Hp, -, Hr⟩
  isplitl [Hr]; · iexact Hr
  iexact Hp
theorem rest_out (c : Dev nD) :
    (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

end Cert.KernelIdeal.Pass1
end
-- ==== Proof.Pass2Facts.lean ====
import proofs.«168828_j76141180223719_2_alg».proof.Proof.Gen.KernelIdeal.Launch
import proofs.«168828_j76141180223719_2_alg».proof.Proof.LibWholeStore
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of pass 2's body, over the grid (2 × 16, as pass 1's) -/

/-- "this is step 0": the condition of the clearing branch. -/
abbrev atFirst (i : grid1.Coords) : Prop := (Scalar.cmpi .ne (Scalar.extui (Scalar.cmpi .eq (BitVec.ofNat 32 (i 1).val) 0#32)) 0#32) = 1#1
/-- "this is step 15": the condition of the writing-out branch. -/
abbrev atLast (i : grid1.Coords) : Prop := k1_cond2 i = 1#1

theorem atFirst_iff : ∀ t : Fin cfg1.N, atFirst (grid1.coords t) ↔ t.val % 16 = 0 :=
  (by decide +kernel : ∀ t : Fin grid1.N, atFirst (grid1.coords t) ↔ t.val % 16 = 0)
theorem atLast_iff : ∀ t : Fin cfg1.N, atLast (grid1.coords t) ↔ t.val % 16 = 15 :=
  (by decide +kernel : ∀ t : Fin grid1.N, atLast (grid1.coords t) ↔ t.val % 16 = 15)

/-- The inputs are never idle; the output is idle, and not written back, except at step 15. -/
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem idle_out3 : ∀ t : Fin cfg1.N, ¬atLast (grid1.coords t) → cfg1.idle 3 (grid1.coords t) = true := by decide +kernel
theorem noFlush_out3 : ∀ t : Fin cfg1.N, ¬atLast (grid1.coords t) → (cfg1.win 3).flush t = false := by decide +kernel
theorem live_out3 : ∀ t : Fin cfg1.N, atLast (grid1.coords t) → cfg1.idle 3 (grid1.coords t) = false := by decide +kernel

theorem zeros2 : (![0, 0] : Fin 2 → Nat) = fun _ => 0 := by funext a; fin_cases a <;> rfl
theorem zeros3 : (![0, 0, 0] : Fin 3 → Nat) = fun _ => 0 := by funext a; fin_cases a <;> rfl

end Cert.KernelIdeal.Pass2
end
-- ==== Proof.Pass2Middle.lean ====
import proofs.«168828_j76141180223719_2_alg».proof.Proof.Pass2Facts
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run in each of its three cases

On whole staging memrefs: the joined tile `x0`, the memory keys `x1` and the total column sums `x2` stay; the running
matrix goes from `s` (from zero at step 0, whatever the buffer held) to `k1_pay3 x0 x1 x2 s`; the output buffer is
untouched except at step 15, where it receives the matrix just computed. -/

set_option maxHeartbeats 4000000 in
/-- A middle step (neither 0 nor 15). -/
theorem run_middle (c : Dev nD) (i : grid1.Coords) (arg2 : Memref sig .tc .vmem S256x128 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096x128 .f32) (harg5 : arg5.IsWhole) (arg6 : Memref sig .tc .vmem S4096x128 .f32) (harg6 : arg6.IsWhole) (hc0 : ¬atFirst i) (hc1 : ¬atLast i)
    (x0 : Vec F S256x128 .f32) (x1 : Vec F S4096x64 .f32) (x2 : Vec F S1x4096 .f32) (xi5 : Vec F S1x4096x128 .f32) (s : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare (k1_pay3 x0 x1 x2 s)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H5]
  · iexists _; isplitr; · ipureintro; rfl
    iexact H5
  iexists _; isplitr
  swap; · iexact H6
  ipureintro; sl_unfold_words
  rw [View.read_writes_unit_zero arg6.view f6 zeros2 inb_S4096x128_S4096x128_0_0]
  rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readAt_unit_zero arg6.view f6 zeros2 inb_S4096x128_S4096x128_0_0]

end Cert.KernelIdeal.Pass2
end
-- ==== Proof.Pass2First.lean ====
import proofs.«168828_j76141180223719_2_alg».proof.Proof.Pass2Facts
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 0: the matrix is cleared first, so the scratch may hold anything. -/
theorem run_first (c : Dev nD) (i : grid1.Coords) (arg2 : Memref sig .tc .vmem S256x128 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096x128 .f32) (harg5 : arg5.IsWhole) (arg6 : Memref sig .tc .vmem S4096x128 .f32) (harg6 : arg6.IsWhole) (hc0 : atFirst i) (hc1 : ¬atLast i)
    (x0 : Vec F S256x128 .f32) (x1 : Vec F S4096x64 .f32) (x2 : Vec F S1x4096 .f32) (xi5 : Vec F S1x4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi5 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare (k1_pay3 x0 x1 x2 k1_pay2)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f5, %hf5, H5⟩, ⟨%d6, %f6, -, H6⟩, Hk⟩
  subst hf0; subst hf1; subst hf2; subst hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H5]
  · iexists _; isplitr; · ipureintro; rfl
    iexact H5
  iexists _; isplitr
  swap; · iexact H6
  ipureintro; sl_unfold_words
  rw [View.read_writes_cons_unit_zero arg6.view f6 zeros2 inb_S4096x128_S4096x128_0_0]
  rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readCov_unit_zero arg6.view zeros2 inb_S4096x128_S4096x128_0_0]

end Cert.KernelIdeal.Pass2
end
-- ==== Proof.Pass2Last.lean ====
import proofs.«168828_j76141180223719_2_alg».proof.Proof.Pass2Facts
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 15: after the update the matrix is written to the output buffer (which may hold anything). -/
theorem run_last (c : Dev nD) (i : grid1.Coords) (arg2 : Memref sig .tc .vmem S256x128 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096x128 .f32) (harg5 : arg5.IsWhole) (arg6 : Memref sig .tc .vmem S4096x128 .f32) (harg6 : arg6.IsWhole) (hc0 : ¬atFirst i) (hc1 : atLast i)
    (x0 : Vec F S256x128 .f32) (x1 : Vec F S4096x64 .f32) (x2 : Vec F S1x4096 .f32) (s : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k1_pay1 (k1_pay3 x0 x1 x2 s)) ∗ owns (c : Thread nD τ) arg6 fullShare (k1_pay3 x0 x1 x2 s)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H5]
  · iexists _; isplitr
    swap; · iexact H5
    ipureintro; sl_unfold_words
    rw [View.read_writes_unit_zero arg5.view f5 zeros3 inb_S1x4096x128_S1x4096x128_0_0_0, View.readCov_unit_zero arg6.view zeros2 inb_S4096x128_S4096x128_0_0]
    rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readAt_unit_zero arg6.view f6 zeros2 inb_S4096x128_S4096x128_0_0]
  iexists _; isplitr
  swap; · iexact H6
  ipureintro; sl_unfold_words
  rw [View.read_writes_unit_zero arg6.view f6 zeros2 inb_S4096x128_S4096x128_0_0]
  rw [View.readAt_unit_zero arg2.view f0 zeros2 inb_S256x128_S256x128_0_0, View.readAt_unit_zero arg3.view f1 zeros2 inb_S4096x64_S4096x64_0_0, View.readAt_unit_zero arg4.view f2 zeros2 inb_S1x4096_S1x4096_0_0, View.readAt_unit_zero arg6.view f6 zeros2 inb_S4096x128_S4096x128_0_0]

end Cert.KernelIdeal.Pass2
end
-- ==== Proof.Pass2Data.lean ====
import proofs.«168828_j76141180223719_2_alg».proof.Proof.Pass2Middle
import proofs.«168828_j76141180223719_2_alg».proof.Proof.Pass2First
import proofs.«168828_j76141180223719_2_alg».proof.Proof.Pass2Last
import proofs.«168828_j76141180223719_2_alg».proof.Proof.Gen.KernelIdeal.Skeleton
import proofs.«168828_j76141180223719_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pass 2 as a pipeline: what its buffers hold point by point

`V` is what the core's unscoped buffers hold when the region is entered. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's buffer holds its block at every point, fetched there or not: the joined tile, the memory keys, the
    total column sums. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The scratch operand (the running matrix), as a whole memref. -/
abbrev sc : Memref sig .tc .vmem S4096x128 .f32 := Memref.whole cc1_scratch0
abbrev ms0 (t : Fin cfg1.N) : Memref sig .tc .vmem S256x128 .f32 := win1_0.stage (cfg1.slots t 0)
abbrev ms1 (t : Fin cfg1.N) : Memref sig .tc .vmem S4096x64 .f32 := win1_1.stage (cfg1.slots t 1)
abbrev ms2 (t : Fin cfg1.N) : Memref sig .tc .vmem S1x4096 .f32 := win1_2.stage (cfg1.slots t 2)
abbrev ms3 (t : Fin cfg1.N) : Memref sig .tc .vmem S1x4096x128 .f32 := win1_3.stage (cfg1.slots t 3)

/-- THE ACCUMULATION: the running matrix after the body at position `n` — from zero at each core's step 0
    (positions 0 and 16), else from what the position before left. -/
def acc (c : Dev nD) : (n : ℕ) → n < cfg1.N → Vec F S4096x128 .f32
  | 0, hn => k1_pay3 (iblk V c 0 ⟨0, hn⟩) (iblk V c 1 ⟨0, hn⟩) (iblk V c 2 ⟨0, hn⟩) k1_pay2
  | n + 1, hn =>
    if (n + 1) % 16 = 0 then k1_pay3 (iblk V c 0 ⟨n + 1, hn⟩) (iblk V c 1 ⟨n + 1, hn⟩) (iblk V c 2 ⟨n + 1, hn⟩) k1_pay2
    else k1_pay3 (iblk V c 0 ⟨n + 1, hn⟩) (iblk V c 1 ⟨n + 1, hn⟩) (iblk V c 2 ⟨n + 1, hn⟩) (acc c n (Nat.lt_of_succ_lt hn))

theorem acc_first (c : Dev nD) (t : Fin cfg1.N) (h0 : t.val % 16 = 0) :
    acc V c t.val t.isLt = k1_pay3 (iblk V c 0 t) (iblk V c 1 t) (iblk V c 2 t) k1_pay2 := by
  obtain ⟨n, hn⟩ := t
  cases n with
  | zero => rfl
  | succ n => exact if_pos h0
theorem acc_next (c : Dev nD) (t : Fin cfg1.N) (h0 : ¬t.val % 16 = 0) :
    acc V c t.val t.isLt = k1_pay3 (iblk V c 0 t) (iblk V c 1 t) (iblk V c 2 t) (acc V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers that pass 2 never touches (pass 1's staging buffers and scratch), each at some contents. -/
def others (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class's invariant spelt out: the untouched buffers and the scratch at anything, the generator register. -/
theorem PhiA_eq (c : Dev nD) :
    (Pipeline.ΦA spec1 c : sProp 𝕄) = iprop(others c iprop(∃ d, owns (c : Thread nD τ) sc fullShare d) ∗ (∃ r, prngReg c r)) := by
  unfold Pipeline.ΦA others; rw [scopedRest1_eq]; simp only [sc, owns_whole]; try rfl

/-- The region invariant before position `n`: before the first, the class's; afterwards the scratch at the running
    matrix the position before left. -/
def Phi (c : Dev nD) : (n : ℕ) → n ≤ cfg1.N → sProp 𝕄
  | 0, _ => Pipeline.ΦA spec1 c
  | n + 1, hn => iprop(others c (owns (c : Thread nD τ) sc fullShare (acc V c n hn)) ∗ (∃ r, prngReg c r))

theorem Phi_zero (c : Dev nD) (n : ℕ) (h : n ≤ cfg1.N) (hz : n = 0) : Phi V c n h = Pipeline.ΦA spec1 c := by subst hz; rfl
theorem Phi_succ (c : Dev nD) (n : ℕ) (hn : n < cfg1.N) :
    Phi V c (n + 1) hn = iprop(others c (owns (c : Thread nD τ) sc fullShare (acc V c n hn)) ∗ (∃ r, prngReg c r)) := rfl
theorem Phi_pos (c : Dev nD) (n : ℕ) (h : n ≤ cfg1.N) (hz : n ≠ 0) :
    Phi V c n h = iprop(others c (owns (c : Thread nD τ) sc fullShare (acc V c (n - 1) (by omega))) ∗ (∃ r, prngReg c r)) := by
  cases n with
  | zero => exact absurd rfl hz
  | succ n => rfl

/-- Pass 2's proof data on core `c`: the arrays as found; each input's buffer at its block; the output's buffer, at
    step 15, at the running matrix just computed; the invariant above; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay1 (acc V c t.val t.isLt)
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = k1_pay1 (acc V c t.val t.isLt) := by dsimp only [dat]
theorem before0 (c : Dev nD) (t : Fin cfg1.N) (d) : (dat V c).before 0 t d = iblk V c 0 t := before_in0_of V (dat V c) (A_eq V c 0) (after0 V c) t d
theorem before1 (c : Dev nD) (t : Fin cfg1.N) (d) : (dat V c).before 1 t d = iblk V c 1 t := before_in1_of V (dat V c) (A_eq V c 1) (after1 V c) t d
theorem before2 (c : Dev nD) (t : Fin cfg1.N) (d) : (dat V c).before 2 t d = iblk V c 2 t := before_in2_of V (dat V c) (A_eq V c 2) (after2 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))
/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: by the step's case (0, 15, or between), that case's run; the invariant hands over the
    running matrix at what the point before left (at anything at step 0) and takes it back at this point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live_in0 t], after0]
  rw [show (dat V c).leavesExact 1 t = owns (c : Thread nD τ) (ms1 t) fullShare ((dat V c).after 1 t) from by
    unfold Dat.leavesExact; rw [live_in1 t], after1]
  rw [show (dat V c).leavesExact 2 t = owns (c : Thread nD τ) (ms2 t) fullShare ((dat V c).after 2 t) from by
    unfold Dat.leavesExact; rw [live_in2 t], after2]
  by_cases h0 : t.val % 16 = 0
  · have h1 : ¬t.val % 16 = 15 := by omega
    rw [Dat.leavesExact_idle (dat V c) 3 t (idle_out3 t (fun h => h1 ((atLast_iff t).mp h))) (noFlush_out3 t (fun h => h1 ((atLast_iff t).mp h)))]
    rw [acc_first V c t h0]
    by_cases hz : t.val = 0
    · rw [Phi_castSucc V c t, Phi_zero V c _ _ hz, PhiA_eq]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_first c (grid1.coords t) _ _ _ _ _ _ _ _ _ _ ((atFirst_iff t).mpr h0) (fun h => h1 ((atLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_first c (grid1.coords t) _ _ _ _ _ _ _ _ _ _ ((atFirst_iff t).mpr h0) (fun h => h1 ((atLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc_next V c t h0]
    rw [Phi_castSucc V c t, Phi_pos V c _ _ hz]
    by_cases h1 : t.val % 16 = 15
    · rw [show (dat V c).leavesExact 3 t = owns (c : Thread nD τ) (ms3 t) fullShare ((dat V c).after 3 t) from by
        unfold Dat.leavesExact; rw [live_out3 t ((atLast_iff t).mpr h1)], after3]
      rw [acc_next V c t h0]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_last c (grid1.coords t) _ _ _ _ _ _ _ _ _ _ (fun h => h0 ((atFirst_iff t).mp h)) ((atLast_iff t).mpr h1) (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexact H3
    · rw [Dat.leavesExact_idle (dat V c) 3 t (idle_out3 t (fun h => h1 ((atLast_iff t).mp h))) (noFlush_out3 t (fun h => h1 ((atLast_iff t).mp h)))]
      unfold others
      iintro ⟨⟨⟨Hb1, Hb2, Hb3, Hb4, Hb5, Hb6, Hb7, Hb8, Hb9, HS⟩, Hg⟩, Ho, ⟨%d0, H0⟩, ⟨%d1, H1⟩, ⟨%d2, H2⟩, ⟨%d3, H3⟩⟩
      iapply (run_middle c (grid1.coords t) _ _ _ _ _ _ _ _ _ _ (fun h => h0 ((atFirst_iff t).mp h)) (fun h => h1 ((atLast_iff t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb1 Hb2 Hb3 Hb4 Hb5 Hb6 Hb7 Hb8 Hb9 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point; -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _
/-- and after the last point the invariant gives it back, the matrix's contents forgotten. -/
theorem hout (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 32 := N_1; omega), PhiA_eq]
  unfold others
  iintro ⟨⟨Hb1, Hb2, Hb3, Hb4, Hb5, Hb6, Hb7, Hb8, Hb9, HS⟩, Hg⟩
  isplitr [Hg]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    iexists _; iexact HS
  iexact Hg

/-- The class's invariant from what a region's entry hands over (the generator register, tables that are none, the scoped
    rest), and back to what its exit takes. -/
theorem rest_in (c : Dev nD) (P : sProp 𝕄) :
    iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp
theorem rest_out (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

end Cert.KernelIdeal.Pass2
end
-- ==== Proof.Whole.lean ====
/-
  The whole program: pass 1, the host's sums over the two cores and the joining of Q and O, pass 2, the host's epilogue.

  Between two items core c's unscoped buffers are held whole at a valuation: W0 the launch contents; W1 those with pass 1's
  arrays at what its pipeline leaves; W2 after the first host stretch; W3 with pass 2's arrays at what its pipeline leaves;
  W4 after the epilogue. Each pass is a kernel region entered from and left at these states; the run ends with every
  unscoped buffer at W4, from which the argument arrays are read back as launched (no item writes one).
-/
import proofs.«168828_j76141180223719_2_alg».proof.Proof.Pass1Data
import proofs.«168828_j76141180223719_2_alg».proof.Proof.Pass2Data
import proofs.«168828_j76141180223719_2_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Whole

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's buffers at launch. -/
abbrev W0 : Dev nD → Valuation τ sig (Elt F) := fun c b => m ((c : Dev nD), b)
abbrev U0 : (c : Dev nD) → (b : Ref sig .tc) → Buf (Elt F) ((c : Thread nD τ).loc b) := fun c b => W0 m c b
/-- At pass 1's exit: its arrays at what the pipeline leaves, every other buffer as entered. -/
def W1 (c : Dev nD) : Valuation τ sig (Elt F) :=
  Pipeline.withArrays spec0 c (W0 m c) fun w => (Pass1.dat (U0 m) c).arrAt w cfg0.N
theorem W1_arr (c : Dev nD) (w : Fin cfg0.W) :
    W1 m c (Proc.devRef .tc (Pipeline.arrRef spec0 w)) = (Pass1.dat (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (Pass1.dat (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After the first host stretch (pass 2's entry). -/
abbrev W2 : Dev nD → Valuation τ sig (Elt F) := fun c => StableHlo.after hostOps1 (W1 m c)
abbrev U2 : (c : Dev nD) → (b : Ref sig .tc) → Buf (Elt F) ((c : Thread nD τ).loc b) := fun c b => W2 m c b
/-- At pass 2's exit. -/
def W3 (c : Dev nD) : Valuation τ sig (Elt F) :=
  Pipeline.withArrays spec1 c (W2 m c) fun w => (Pass2.dat (U2 m) c).arrAt w cfg1.N
theorem W3_arr (c : Dev nD) (w : Fin cfg1.W) :
    W3 m c (Proc.devRef .tc (Pipeline.arrRef spec1 w)) = (Pass2.dat (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (Pass2.dat (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)
/-- After the epilogue (the program's end). -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := (W1_arr m c 0).trans (((Pass1.dat (U0 m) c).arrAt_in 0 rfl _).trans (Pass1.A_eq (U0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 1).trans (((Pass2.dat (U2 m) c).arrAt_in 1 rfl _).trans (Pass2.A_eq (U2 m) c 1))
    _ = W1 m c (Proc.devRef .tc main_arg2) := StableHlo.after_of_writes_sub hostOps1 _ hostOps1_writes (by decide)
    _ = W0 m c (Proc.devRef .tc main_arg2) := (W1_arr m c 1).trans (((Pass1.dat (U0 m) c).arrAt_in 1 rfl _).trans (Pass1.A_eq (U0 m) c 1))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-! ## The proof data family and the thread state -/

/-- Both passes' proof data, each at its region's entry contents. -/
def pdats : (p : Fin 2) → (c : Dev nD) → Dat τ (Elt F) Unit ℕ (UR sig nD τ) ℕ (Pipeline.pin (pcfgs (F := F)) adm p) c
  | ⟨0, _⟩ => fun c => Pass1.dat (U0 m) c
  | ⟨1, _⟩ => fun c => Pass2.dat (U2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two passes as kernel regions -/

set_option backward.isDefEq.respectTransparency.types false in
/-- Pass 1 over the thread state: entered from every unscoped buffer at W0, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (Pass1.rest_in c _).trans (Pass1.hin (U0 m) c)
  hout c := by
    rw [Pipeline.ownSems0_none]
    exact (Pass1.hout (U0 m) c).trans (Pass1.rest_out c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (Pass2.rest_in c _).trans (Pass2.hin (U2 m) c)
  hout c := by
    rw [Pipeline.ownSems0_none]
    exact (Pass2.hout (U2 m) c).trans (Pass2.rest_out c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev items : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (items m) := (main_chain c).trans (by chain_rfl)

set_option backward.isDefEq.respectTransparency.types false in
/-- THE RUN: from any memory with zero counters every weakly fair execution of @main terminates, nothing faulting, and
    every unscoped buffer of every core ends at W4. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Whole
end
-- ==== Proof.Passes.lean ====
/-
  What the two-pass kernel computes, as pure functions of its argument arrays (at any float instance).

  The context axis (8192 rows) is cut into 32 tiles of 256 rows; core `c` (of 2) takes tiles `16·c … 16·c + 15`,
  one per step. Pass 1 keeps, per core, two running row vectors over the 4096 memory slots: the column sums of
  `exp(S1)` and of `S1`, where `S1` is the row softmax of `Q·Kmᵀ` on the tile; each starts from zero at step 0 and
  is written out after step 15. The host adds the two cores' vectors. Pass 2 recomputes `S1` on each tile, divides
  `exp(S1)` by the total column sums, and accumulates `Dcᵀ·[Q|O]` (a 4096×128 matrix per core) in the same way; the
  host adds the two cores' matrices, splits the columns into the `Q` half and the `O` half, and scales
  `(target − memory)` row by row with `½·(Σ S1)/8192`.
-/
import proofs.«168828_j76141180223719_2_alg».proof.Proof.Gen.KernelIdeal.Skeleton
import Idealize.ShloMosaic.Lib.ValueIdx

noncomputable section

namespace Cert.KernelIdeal.Passes

open Idealize.ShloMosaic Idealize.ShloMosaic.ValueIdx Cert.KernelIdeal Cert.KernelIdeal.Gen

variable {F : FTy → Type} [FloatOps F]

/-- Tile `b` (of 32) of an array of 8192 rows and `n` columns: its rows `256·b … 256·b + 255`. -/
def tile {n : Nat} (X : Vec F ⟨2, ![8192, n]⟩ .f32) (b : Fin 32) : Vec F ⟨2, ![256, n]⟩ .f32 :=
  fun y => X (ix2 (⟨b.val * 256 + (y 0).val, by have h0 := idx2_lt0 y; have hb := b.isLt; omega⟩ : Fin 8192) (y 1))

/-- The tile core `c` takes at step `j` (`16·c + j`; the remainder only makes the function total in `j`). -/
def tileOf (c : Fin 2) (j : Nat) : Fin 32 := ⟨(c.val * 16 + j) % 32, Nat.mod_lt _ (by decide)⟩

/-- Core `c`'s running column sums of `exp(S1)` after steps `0 … j`. -/
def expSums (Q : Vec F S8192x64 .f32) (Km : Vec F S4096x64 .f32) (c : Fin 2) : Nat → Vec F S1x4096 .f32
  | 0 => k0_pay7 (tile Q (tileOf c 0)) Km k0_pay4
  | j + 1 => k0_pay7 (tile Q (tileOf c (j + 1))) Km (expSums Q Km c j)

/-- Core `c`'s running column sums of `S1` after steps `0 … j`. -/
def s1Sums (Q : Vec F S8192x64 .f32) (Km : Vec F S4096x64 .f32) (c : Fin 2) : Nat → Vec F S1x4096 .f32
  | 0 => k0_pay1 (k0_pay8 (tile Q (tileOf c 0)) Km k0_pay5)
  | j + 1 => k0_pay1 (k0_pay8 (tile Q (tileOf c (j + 1))) Km (s1Sums Q Km c j))

/-- Pass 1's first result: per core, the column sums of `exp(S1)` over that core's 4096 rows. -/
def expSumsPerCore (Q : Vec F S8192x64 .f32) (Km : Vec F S4096x64 .f32) : Vec F S2x1x4096 .f32 :=
  fun i => k0_pay2 (expSums Q Km (i 0) 15) (ix3 (0 : Fin 1) (i 1) (i 2))

/-- Pass 1's second result: per core, the column sums of `S1`. -/
def s1SumsPerCore (Q : Vec F S8192x64 .f32) (Km : Vec F S4096x64 .f32) : Vec F S2x1x4096 .f32 :=
  fun i => k0_pay3 (s1Sums Q Km (i 0) 15) (ix3 (0 : Fin 1) (i 1) (i 2))

/-- The host's sum over the two cores of a per-core row vector. -/
def addCores (X : Vec F S2x1x4096 .f32) : Vec F S1x4096 .f32 :=
  Host.reduceAdd X (constant S_ .f32 0x00000000#32) reducesTo_S2x1x4096_S1x4096_d0 h_S_

/-- `[Q | O]`: the two arrays side by side, 128 columns. -/
def joined (Q O : Vec F S8192x64 .f32) : Vec F S8192x128 .f32 :=
  concatenate S8192x128 1 [⟨S8192x64, Q⟩, ⟨S8192x64, O⟩] concatenates_S8192x64_S8192x64_S8192x128_d1

/-- Core `c`'s running `Dcᵀ·[Q|O]` after steps `0 … j`, given the total column sums `cs`. -/
def targetSums (QO : Vec F S8192x128 .f32) (Km : Vec F S4096x64 .f32) (cs : Vec F S1x4096 .f32) (c : Fin 2) : Nat → Vec F S4096x128 .f32
  | 0 => k1_pay3 (tile QO (tileOf c 0)) Km cs k1_pay2
  | j + 1 => k1_pay3 (tile QO (tileOf c (j + 1))) Km cs (targetSums QO Km cs c j)

/-- Pass 2's result: per core, `Dcᵀ·[Q|O]` over that core's rows. -/
def targetsPerCore (QO : Vec F S8192x128 .f32) (Km : Vec F S4096x64 .f32) (cs : Vec F S1x4096 .f32) : Vec F S2x4096x128 .f32 :=
  fun i => k1_pay1 (targetSums QO Km cs (i 0) 15) (ix3 (0 : Fin 1) (i 1) (i 2))

/-- The host's epilogue: add the cores' matrices, split the `Q` and `O` halves, and scale `target − memory` by
    `½·(Σ S1)/8192` row by row; the two gradients stacked. -/
def epilogue (T : Vec F S2x4096x128 .f32) (s1tot : Vec F S1x4096 .f32) (Km Vm : Vec F S4096x64 .f32) : Vec F S2x4096x64 .f32 :=
  let v5 : Vec F S4096x128 .f32 := Host.reduceAdd T (constant S_ .f32 0x00000000#32) reducesTo_S2x4096x128_S4096x128_d0 h_S_
  let v6 : Vec F S4096x64 .f32 := extractStridedSlice S4096x64 ![0, 0] v5 slices_S4096x128_S4096x64_0_0
  let v7 : Vec F S4096x64 .f32 := extractStridedSlice S4096x64 ![0, 64] v5 slices_S4096x128_S4096x64_0_64
  let v8 : Vec F S4096 .f32 := shapeCast S4096 s1tot shapeCasts_S1x4096_S4096
  let v9 : Vec F S4096 .f32 := broadcastInDim S4096 ![] bcast_S_S4096 (constant S_ .f32 0x46000000#32)
  let v10 : Vec F S4096 .f32 := Host.divf v8 v9
  let v11 : Vec F S4096 .f32 := broadcastInDim S4096 ![] bcast_S_S4096 (constant S_ .f32 0x3F000000#32)
  let v12 : Vec F S4096 .f32 := mulf v11 v10
  let v13 : Vec F S4096x1 .f32 := broadcastInDim S4096x1 ![0] bcast_S4096_S4096x1_0 v12
  let v14 : Vec F S4096x64 .f32 := subf v6 Km
  let v15 : Vec F S4096x64 .f32 := broadcastInDim S4096x64 ![0, 1] bcast_S4096x1_S4096x64_0_1 v13
  let v16 : Vec F S4096x64 .f32 := mulf v15 v14
  let v17 : Vec F S4096x1 .f32 := broadcastInDim S4096x1 ![0] bcast_S4096_S4096x1_0 v12
  let v18 : Vec F S4096x64 .f32 := subf v7 Vm
  let v19 : Vec F S4096x64 .f32 := broadcastInDim S4096x64 ![0, 1] bcast_S4096x1_S4096x64_0_1 v17
  let v20 : Vec F S4096x64 .f32 := mulf v19 v18
  let v21 : Vec F S1x4096x64 .f32 := broadcastInDim S1x4096x64 ![1, 2] bcast_S4096x64_S1x4096x64_1_2 v16
  let v22 : Vec F S1x4096x64 .f32 := broadcastInDim S1x4096x64 ![1, 2] bcast_S4096x64_S1x4096x64_1_2 v20
  concatenate S2x4096x64 0 [⟨S1x4096x64, v21⟩, ⟨S1x4096x64, v22⟩] concatenates_S1x4096x64_S1x4096x64_S2x4096x64_d0

/-- The whole program's result as a function of its four arguments. -/
def result (Q O : Vec F S8192x64 .f32) (Km Vm : Vec F S4096x64 .f32) : Vec F S2x4096x64 .f32 :=
  epilogue (targetsPerCore (joined Q O) Km (addCores (expSumsPerCore Q Km))) (addCores (s1SumsPerCore Q Km)) Km Vm

end Cert.KernelIdeal.Passes

end
-- ==== Proof.ArrHost.lean ====
/-
  The host's operations between and after the two passes, as functions of the buffers they read.

  Between the passes the host adds the two cores' row vectors (twice: the sums of `exp(S1)` and of `S1`) and joins the
  context and the outputs side by side; after pass 2 it runs the epilogue. Each result buffer, after the stretch, holds
  the corresponding pure function of what the stretch found in the buffers it reads.
-/
import proofs.«168828_j76141180223719_2_alg».proof.Proof.Passes
import proofs.«168828_j76141180223719_2_alg».proof.Proof.Gen.KernelIdeal.Launch
import Idealize.ShloMosaic.Lib.StableHlo.Run

noncomputable section

namespace Cert.KernelIdeal.Arrays

open Cert.KernelIdeal Cert.KernelIdeal.Gen Idealize.ShloMosaic Idealize.ShloMosaic.TcCoe Idealize.ShloMosaic.StableHlo

variable {F : FTy → Type} [FloatOps F]

/-- After the first host stretch the total of `exp(S1)` is the sum over the cores of pass 1's first result. -/
theorem host1_v1 (W : Valuation τ sig (Elt F)) :
    StableHlo.after hostOps1 W (Proc.devRef .tc main_v1) = Passes.addCores (W (Proc.devRef .tc main_v0_0)) := by
  after_results
  rfl

/-- After the first host stretch the total of `S1` is the sum over the cores of pass 1's second result. -/
theorem host1_v2 (W : Valuation τ sig (Elt F)) :
    StableHlo.after hostOps1 W (Proc.devRef .tc main_v2) = Passes.addCores (W (Proc.devRef .tc main_v0_1)) := by
  after_results
  rfl

/-- After the first host stretch the joined array is the context and the outputs side by side. -/
theorem host1_v3 (W : Valuation τ sig (Elt F)) :
    StableHlo.after hostOps1 W (Proc.devRef .tc main_v3)
      = Passes.joined (W (Proc.devRef .tc main_arg0)) (W (Proc.devRef .tc main_arg1)) := by
  after_results
  rfl

set_option maxHeartbeats 1600000 in
/-- After the epilogue the result buffer is the epilogue's function of pass 2's result, the total of `S1`, and the two
    memories. -/
theorem host2_v23 (W : Valuation τ sig (Elt F)) :
    StableHlo.after hostOps2 W (Proc.devRef .tc main_v23)
      = Passes.epilogue (W (Proc.devRef .tc main_v4)) (W (Proc.devRef .tc main_v2)) (W (Proc.devRef .tc main_arg2))
          (W (Proc.devRef .tc main_arg3)) := by
  after_results_simp
  rfl

end Cert.KernelIdeal.Arrays

end
-- ==== Proof.ArrBlocks1.lean ====
/-
  Pass 1's windows, read at a grid point.

  The grid's 32 points are (core, step) in row-major order: point `t` is core `t / 16` at step `t % 16`. The context's
  window moves with the point (block `t` of 256 rows); the memory keys' window is the whole array at every point; each
  output window's block is the row vector of core `t / 16`. So the context's block at `t` is tile `t`, the keys' block
  is the keys, a per-core array read through the output's block at `t` is core `t / 16`'s row vector, and every index
  of a per-core array lies in the block of its core's last point.
-/
import proofs.«168828_j76141180223719_2_alg».proof.Proof.Passes
import proofs.«168828_j76141180223719_2_alg».proof.Proof.Gen.KernelIdeal.Points
import proofs.«168828_j76141180223719_2_alg».proof.Proof.Gen.KernelIdeal.Launch
import Idealize.ShloMosaic.Lib.Pipeline.Value
import Idealize.ShloMosaic.Lib.ValueLayout

noncomputable section

namespace Cert.KernelIdeal.Arrays

open Cert.KernelIdeal Cert.KernelIdeal.Gen Idealize.ShloMosaic Idealize.ShloMosaic.TcCoe Idealize.ShloMosaic.ValueIdx
open Idealize.SL.Sem

variable {F : FTy → Type} [FloatOps F]

/-- The printed index maps of pass 1, decided over the grid. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- The context's block at point `t` is tile `t`. -/
theorem read_block0_0 (X : Vec F S8192x64 .f32) (t : Fin cfg0.N) (b : Fin 32) (hb : b.val = t.val) :
    (((cfg0.win 0).blk t).view.read (Elt F) X : Vec F S256x64 .f32) = Passes.tile X b := by
  obtain ⟨e0, e1, -⟩ := idx_facts0 t
  funext x
  rw [View.read_apply]
  show X _ = X _
  congr 1
  funext a
  apply Fin.ext
  match a with
  | ⟨0, _⟩ => show win0_0.index t (0 : Fin 2) * 256 + 1 * (x 0).val = b.val * 256 + (x 0).val; rw [e0, hb]; omega
  | ⟨1, _⟩ => show win0_0.index t (1 : Fin 2) * 64 + 1 * (x 1).val = (x 1).val; rw [e1]; omega

/-- The memory keys' block at every point is the whole array. -/
theorem read_block0_1 (X : Vec F S4096x64 .f32) (t : Fin cfg0.N) :
    (((cfg0.win 1).blk t).view.read (Elt F) X : Vec F S4096x64 .f32) = X := by
  obtain ⟨-, -, e2, e3, -⟩ := idx_facts0 t
  funext x
  rw [View.read_apply]
  show X _ = X _
  congr 1
  funext a
  apply Fin.ext
  match a with
  | ⟨0, _⟩ => show win0_1.index t (0 : Fin 2) * 4096 + 1 * (x 0).val = (x 0).val; rw [e2]; omega
  | ⟨1, _⟩ => show win0_1.index t (1 : Fin 2) * 64 + 1 * (x 1).val = (x 1).val; rw [e3]; omega

/-- A per-core array read through output window 2's block at point `t` is core `t / 16`'s part. -/
theorem read_block0_2 (E : Fin 2 → Vec F S1x1x4096 .f32) (t : Fin cfg0.N) (k : Fin 2) (hk : k.val = t.val / 16) :
    (((cfg0.win 2).blk t).view.read (Elt F) (fun i : S2x1x4096.Idx => E (i 0) (ix3 (0 : Fin 1) (i 1) (i 2))) : Vec F S1x1x4096 .f32)
      = E k := by
  obtain ⟨-, -, -, -, e4, e5, e6, e7, e8, e9⟩ := idx_facts0 t
  have hcongr : ∀ (a : Fin 2) (y y' : S1x1x4096.Idx), a = k → y = y' → E a y = E k y' := by
    intro a y y' ha hy; rw [ha, hy]
  funext j
  rw [View.read_apply]
  refine hcongr _ _ _ (Fin.ext ?_) (funext fun a => Fin.ext ?_)
  · show win0_2.index t (0 : Fin 3) * 1 + 1 * (j 0).val = k.val
    have hj : (j 0).val < 1 := (j 0).isLt
    rw [e4, hk]; omega
  · match a with
    | ⟨0, _⟩ => show (0 : ℕ) = (j 0).val; have hj : (j 0).val < 1 := (j 0).isLt; omega
    | ⟨1, _⟩ => show win0_2.index t (1 : Fin 3) * 1 + 1 * (j 1).val = (j 1).val; rw [e5]; omega
    | ⟨2, _⟩ => show win0_2.index t (2 : Fin 3) * 4096 + 1 * (j 2).val = (j 2).val; rw [e6]; omega

/-- Every index of output window 2's array lies in the block of its core's last point. -/
theorem cover0_2 (i : S2x1x4096.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 4096 := (i 2).isLt
  have hN : cfg0.N = 32 := N_0
  let t : Fin cfg0.N := ⟨16 * (i 0).val + 15, by rw [hN]; omega⟩
  obtain ⟨-, -, -, -, e4, e5, e6, e7, e8, e9⟩ := idx_facts0 t
  have htv : t.val = 16 * (i 0).val + 15 := rfl
  refine ⟨t, (flush0_2 t).mpr (by rw [htv]; omega), ?_⟩
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e4, htv]; omega
  | ⟨1, _⟩ =>
    show win0_2.index t (1 : Fin 3) * 1 ≤ (i 1).val ∧ (i 1).val < win0_2.index t (1 : Fin 3) * 1 + 1
    rw [e5]; omega
  | ⟨2, _⟩ =>
    show win0_2.index t (2 : Fin 3) * 4096 ≤ (i 2).val ∧ (i 2).val < win0_2.index t (2 : Fin 3) * 4096 + 4096
    rw [e6]; omega

/-- A per-core array read through output window 3's block at point `t` is core `t / 16`'s part. -/
theorem read_block0_3 (E : Fin 2 → Vec F S1x1x4096 .f32) (t : Fin cfg0.N) (k : Fin 2) (hk : k.val = t.val / 16) :
    (((cfg0.win 3).blk t).view.read (Elt F) (fun i : S2x1x4096.Idx => E (i 0) (ix3 (0 : Fin 1) (i 1) (i 2))) : Vec F S1x1x4096 .f32)
      = E k := by
  obtain ⟨-, -, -, -, e4, e5, e6, e7, e8, e9⟩ := idx_facts0 t
  have hcongr : ∀ (a : Fin 2) (y y' : S1x1x4096.Idx), a = k → y = y' → E a y = E k y' := by
    intro a y y' ha hy; rw [ha, hy]
  funext j
  rw [View.read_apply]
  refine hcongr _ _ _ (Fin.ext ?_) (funext fun a => Fin.ext ?_)
  · show win0_3.index t (0 : Fin 3) * 1 + 1 * (j 0).val = k.val
    have hj : (j 0).val < 1 := (j 0).isLt
    rw [e7, hk]; omega
  · match a with
    | ⟨0, _⟩ => show (0 : ℕ) = (j 0).val; have hj : (j 0).val < 1 := (j 0).isLt; omega
    | ⟨1, _⟩ => show win0_3.index t (1 : Fin 3) * 1 + 1 * (j 1).val = (j 1).val; rw [e8]; omega
    | ⟨2, _⟩ => show win0_3.index t (2 : Fin 3) * 4096 + 1 * (j 2).val = (j 2).val; rw [e9]; omega

/-- Every index of output window 3's array lies in the block of its core's last point. -/
theorem cover0_3 (i : S2x1x4096.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 4096 := (i 2).isLt
  have hN : cfg0.N = 32 := N_0
  let t : Fin cfg0.N := ⟨16 * (i 0).val + 15, by rw [hN]; omega⟩
  obtain ⟨-, -, -, -, e4, e5, e6, e7, e8, e9⟩ := idx_facts0 t
  have htv : t.val = 16 * (i 0).val + 15 := rfl
  refine ⟨t, (flush0_3 t).mpr (by rw [htv]; omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e7, htv]; omega
  | ⟨1, _⟩ =>
    show win0_3.index t (1 : Fin 3) * 1 ≤ (i 1).val ∧ (i 1).val < win0_3.index t (1 : Fin 3) * 1 + 1
    rw [e8]; omega
  | ⟨2, _⟩ =>
    show win0_3.index t (2 : Fin 3) * 4096 ≤ (i 2).val ∧ (i 2).val < win0_3.index t (2 : Fin 3) * 4096 + 4096
    rw [e9]; omega

end Cert.KernelIdeal.Arrays

end
-- ==== Proof.ArrPass1.lean ====
/-
  Pass 1's two result arrays are the per-core running sums after each core's last step.

  The running sums the pipeline's proof data carries, at position 16·k + j of the grid, are core k's running sums after
  step j: at a core's first step they start from zero, at every other step from the position before; and the
  blocks read at that position are tile 16·k + j of the context and the whole key array. At each core's last step
  the sums are written back as that core's row of the result, and the two rows are the whole result.
-/
import proofs.«168828_j76141180223719_2_alg».proof.Proof.Pass1Data
import proofs.«168828_j76141180223719_2_alg».proof.Proof.ArrBlocks1

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- The context's block at point `t` is tile `t` of the context as the region finds it. -/
theorem p1_iblk0 (c : Dev nD) (t : Fin cfg0.N) (b : Fin 32) (hb : b.val = t.val) :
    (Pass1.iblk V c 0 t : Vec F S256x64 .f32) = Passes.tile (n := 64) (V c main_arg0) b := by
  unfold Pass1.iblk
  exact read_block0_0 (V c main_arg0) t b hb

/-- The keys' block at every point is the key array as the region finds it. -/
theorem p1_iblk1 (c : Dev nD) (t : Fin cfg0.N) : (Pass1.iblk V c 1 t : Vec F S4096x64 .f32) = V c main_arg2 := by
  unfold Pass1.iblk
  exact read_block0_1 (V c main_arg2) t

/-- The carried sums at position `16·k + j` are core `k`'s running sums after step `j`. -/
theorem p1_sums (c : Dev nD) (k : Fin 2) : ∀ (j : ℕ), j ≤ 15 → ∀ (n : ℕ) (hn : n < cfg0.N), n = 16 * k.val + j →
    Pass1.sums V c n hn
      = (Passes.expSums (V c main_arg0) (V c main_arg2) k j, Passes.s1Sums (V c main_arg0) (V c main_arg2) k j)
  | 0, _, n, hn, e => by
    have hk := k.isLt
    have h0 : (⟨n, hn⟩ : Fin cfg0.N).val % 16 = 0 := by show n % 16 = 0; omega
    have hb : (Passes.tileOf k 0).val = (⟨n, hn⟩ : Fin cfg0.N).val := by show (k.val * 16 + 0) % 32 = n; omega
    refine (Pass1.sums_first V c ⟨n, hn⟩ h0).trans ?_
    rw [p1_iblk0 V c ⟨n, hn⟩ (Passes.tileOf k 0) hb, p1_iblk1 V c ⟨n, hn⟩]
    rfl
  | j + 1, hj, n, hn, e => by
    have hk := k.isLt
    have h0 : ¬(⟨n, hn⟩ : Fin cfg0.N).val % 16 = 0 := by show ¬n % 16 = 0; omega
    have hb : (Passes.tileOf k (j + 1)).val = (⟨n, hn⟩ : Fin cfg0.N).val := by show (k.val * 16 + (j + 1)) % 32 = n; omega
    have ih := p1_sums c k j (by omega) ((⟨n, hn⟩ : Fin cfg0.N).val - 1)
      (Nat.lt_of_le_of_lt (Nat.sub_le _ _) (⟨n, hn⟩ : Fin cfg0.N).isLt) (by show n - 1 = 16 * k.val + j; omega)
    refine (Pass1.sums_next V c ⟨n, hn⟩ h0).trans ?_
    rw [p1_iblk0 V c ⟨n, hn⟩ (Passes.tileOf k (j + 1)) hb, p1_iblk1 V c ⟨n, hn⟩, ih]
    rfl

/-- What a core's last point writes back to the first result is that core's row of the per-core sums of `exp(S1)`. -/
theorem p1_flushed2 (c : Dev nD) (t : Fin cfg0.N) (hf : (cfg0.win 2).flush t = true) :
    (Pass1.dat V c).flushed 2 t
      = ((cfg0.win 2).blk t).view.read (Elt F) (Passes.expSumsPerCore (V c main_arg0) (V c main_arg2)) := by
  have h15 : t.val % 16 = 15 := (flush0_2 t).mp hf
  have hN : t.val < 32 := lt_of_lt_of_eq t.isLt N_0
  show (cfg0.win 2).cut (grid0.coords t) ((Pass1.dat V c).after 2 t) = _
  rw [Pass1.after2, p1_sums V c ⟨t.val / 16, by omega⟩ 15 (le_refl _) t.val t.isLt (by show t.val = 16 * (t.val / 16) + 15; omega)]
  exact (read_block0_2 (fun k' => k0_pay2 (Passes.expSums (V c main_arg0) (V c main_arg2) k' 15)) t ⟨t.val / 16, by omega⟩ rfl).symm

/-- What a core's last point writes back to the second result is that core's row of the per-core sums of `S1`. -/
theorem p1_flushed3 (c : Dev nD) (t : Fin cfg0.N) (hf : (cfg0.win 3).flush t = true) :
    (Pass1.dat V c).flushed 3 t
      = ((cfg0.win 3).blk t).view.read (Elt F) (Passes.s1SumsPerCore (V c main_arg0) (V c main_arg2)) := by
  have h15 : t.val % 16 = 15 := (flush0_3 t).mp hf
  have hN : t.val < 32 := lt_of_lt_of_eq t.isLt N_0
  show (cfg0.win 3).cut (grid0.coords t) ((Pass1.dat V c).after 3 t) = _
  rw [Pass1.after3, p1_sums V c ⟨t.val / 16, by omega⟩ 15 (le_refl _) t.val t.isLt (by show t.val = 16 * (t.val / 16) + 15; omega)]
  exact (read_block0_3 (fun k' => k0_pay3 (Passes.s1Sums (V c main_arg0) (V c main_arg2) k' 15)) t ⟨t.val / 16, by omega⟩ rfl).symm

/-- Pass 1's first result array, after the region. -/
theorem pass1_exp (c : Dev nD) :
    (Pass1.dat V c).arrAt 2 cfg0.N = Passes.expSumsPerCore (V c main_arg0) (V c main_arg2) :=
  (Pass1.dat V c).arrAt_eq_of_cover 2 _ (fun t hf => p1_flushed2 V c t hf) cover0_2

/-- Pass 1's second result array, after the region. -/
theorem pass1_s1 (c : Dev nD) :
    (Pass1.dat V c).arrAt 3 cfg0.N = Passes.s1SumsPerCore (V c main_arg0) (V c main_arg2) :=
  (Pass1.dat V c).arrAt_eq_of_cover 3 _ (fun t hf => p1_flushed3 V c t hf) cover0_3

end Cert.KernelIdeal.Arrays

end
-- ==== Proof.ArrBlocks2.lean ====
/-
  Pass 2's windows, read at a grid point.

  The grid is pass 1's: point `t` is core `t / 16` at step `t % 16`. The joined array's window moves with the point
  (block `t` of 256 rows, 128 columns); the memory keys' and the total column sums' windows are whole arrays at every
  point; the output window's block is the 4096×128 matrix of core `t / 16`.
-/
import proofs.«168828_j76141180223719_2_alg».proof.Proof.Passes
import proofs.«168828_j76141180223719_2_alg».proof.Proof.Gen.KernelIdeal.Points
import proofs.«168828_j76141180223719_2_alg».proof.Proof.Gen.KernelIdeal.Launch
import Idealize.ShloMosaic.Lib.Pipeline.Value
import Idealize.ShloMosaic.Lib.ValueLayout

noncomputable section

namespace Cert.KernelIdeal.Arrays

open Cert.KernelIdeal Cert.KernelIdeal.Gen Idealize.ShloMosaic Idealize.ShloMosaic.TcCoe Idealize.ShloMosaic.ValueIdx
open Idealize.SL.Sem

variable {F : FTy → Type} [FloatOps F]

/-- The printed index maps of pass 2, decided over the grid. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 16 ∧ win1_3.index t (1 : Fin 3) = 0 ∧ win1_3.index t (2 : Fin 3) = 0 :=
  (by decide +kernel : ∀ t : Fin grid1.N, _)

/-- The joined array's block at point `t` is tile `t`. -/
theorem read_block1_0 (X : Vec F S8192x128 .f32) (t : Fin cfg1.N) (b : Fin 32) (hb : b.val = t.val) :
    (((cfg1.win 0).blk t).view.read (Elt F) X : Vec F S256x128 .f32) = Passes.tile X b := by
  obtain ⟨e0, e1, -⟩ := idx_facts1 t
  funext x
  rw [View.read_apply]
  show X _ = X _
  congr 1
  funext a
  apply Fin.ext
  match a with
  | ⟨0, _⟩ => show win1_0.index t (0 : Fin 2) * 256 + 1 * (x 0).val = b.val * 256 + (x 0).val; rw [e0, hb]; omega
  | ⟨1, _⟩ => show win1_0.index t (1 : Fin 2) * 128 + 1 * (x 1).val = (x 1).val; rw [e1]; omega

/-- The memory keys' block at every point is the whole array. -/
theorem read_block1_1 (X : Vec F S4096x64 .f32) (t : Fin cfg1.N) :
    (((cfg1.win 1).blk t).view.read (Elt F) X : Vec F S4096x64 .f32) = X := by
  obtain ⟨-, -, e2, e3, -⟩ := idx_facts1 t
  funext x
  rw [View.read_apply]
  show X _ = X _
  congr 1
  funext a
  apply Fin.ext
  match a with
  | ⟨0, _⟩ => show win1_1.index t (0 : Fin 2) * 4096 + 1 * (x 0).val = (x 0).val; rw [e2]; omega
  | ⟨1, _⟩ => show win1_1.index t (1 : Fin 2) * 64 + 1 * (x 1).val = (x 1).val; rw [e3]; omega

/-- The total column sums' block at every point is the whole row vector. -/
theorem read_block1_2 (X : Vec F S1x4096 .f32) (t : Fin cfg1.N) :
    (((cfg1.win 2).blk t).view.read (Elt F) X : Vec F S1x4096 .f32) = X := by
  obtain ⟨-, -, -, -, e4, e5, -⟩ := idx_facts1 t
  funext x
  rw [View.read_apply]
  show X _ = X _
  congr 1
  funext a
  apply Fin.ext
  match a with
  | ⟨0, _⟩ => show win1_2.index t (0 : Fin 2) * 1 + 1 * (x 0).val = (x 0).val; rw [e4]; omega
  | ⟨1, _⟩ => show win1_2.index t (1 : Fin 2) * 4096 + 1 * (x 1).val = (x 1).val; rw [e5]; omega

/-- A per-core array read through the output window's block at point `t` is core `t / 16`'s part. -/
theorem read_block1_3 (E : Fin 2 → Vec F S1x4096x128 .f32) (t : Fin cfg1.N) (k : Fin 2) (hk : k.val = t.val / 16) :
    (((cfg1.win 3).blk t).view.read (Elt F) (fun i : S2x4096x128.Idx => E (i 0) (ix3 (0 : Fin 1) (i 1) (i 2))) : Vec F S1x4096x128 .f32)
      = E k := by
  obtain ⟨-, -, -, -, -, -, e6, e7, e8⟩ := idx_facts1 t
  have hcongr : ∀ (a : Fin 2) (y y' : S1x4096x128.Idx), a = k → y = y' → E a y = E k y' := by
    intro a y y' ha hy; rw [ha, hy]
  funext j
  rw [View.read_apply]
  refine hcongr _ _ _ (Fin.ext ?_) (funext fun a => Fin.ext ?_)
  · show win1_3.index t (0 : Fin 3) * 1 + 1 * (j 0).val = k.val
    have hj : (j 0).val < 1 := (j 0).isLt
    rw [e6, hk]; omega
  · match a with
    | ⟨0, _⟩ => show (0 : ℕ) = (j 0).val; have hj : (j 0).val < 1 := (j 0).isLt; omega
    | ⟨1, _⟩ => show win1_3.index t (1 : Fin 3) * 4096 + 1 * (j 1).val = (j 1).val; rw [e7]; omega
    | ⟨2, _⟩ => show win1_3.index t (2 : Fin 3) * 128 + 1 * (j 2).val = (j 2).val; rw [e8]; omega

/-- Every index of the output window's array lies in the block of its core's last point. -/
theorem cover1_3 (i : S2x4096x128.Idx) :
    ∃ t : Fin cfg1.N, (cfg1.win 3).flush t = true ∧ i ∈ ((cfg1.win 3).blk t).view.set := by
  have hi0 : (i 0).val < 2 := (i 0).isLt
  have hi1 : (i 1).val < 4096 := (i 1).isLt
  have hi2 : (i 2).val < 128 := (i 2).isLt
  have hN : cfg1.N = 32 := N_1
  let t : Fin cfg1.N := ⟨16 * (i 0).val + 15, by rw [hN]; omega⟩
  obtain ⟨-, -, -, -, -, -, e6, e7, e8⟩ := idx_facts1 t
  have htv : t.val = 16 * (i 0).val + 15 := rfl
  refine ⟨t, (flush1_3 t).mpr (by rw [htv]; omega), ?_⟩
  show i ∈ ((View.whole main_v4).slice (win1_3.rect t)).set
  rw [View.set_slice_whole, Rect.mem_set_unit]
  intro a
  match a with
  | ⟨0, _⟩ =>
    show win1_3.index t (0 : Fin 3) * 1 ≤ (i 0).val ∧ (i 0).val < win1_3.index t (0 : Fin 3) * 1 + 1
    rw [e6, htv]; omega
  | ⟨1, _⟩ =>
    show win1_3.index t (1 : Fin 3) * 4096 ≤ (i 1).val ∧ (i 1).val < win1_3.index t (1 : Fin 3) * 4096 + 4096
    rw [e7]; omega
  | ⟨2, _⟩ =>
    show win1_3.index t (2 : Fin 3) * 128 ≤ (i 2).val ∧ (i 2).val < win1_3.index t (2 : Fin 3) * 128 + 128
    rw [e8]; omega

end Cert.KernelIdeal.Arrays

end
-- ==== Proof.ArrPass2.lean ====
/-
  Pass 2's result array is the per-core running matrix after each core's last step.

  The running matrix the pipeline's proof data carries, at position 16·k + j of the grid, is core k's running matrix
  after step j; the blocks read at that position are tile 16·k + j of the joined array, the whole key array and the
  whole row of total column sums. At each core's last step the matrix is written back as that core's part of the
  result, and the two parts are the whole result.
-/
import proofs.«168828_j76141180223719_2_alg».proof.Proof.Pass2Data
import proofs.«168828_j76141180223719_2_alg».proof.Proof.ArrBlocks2

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- The joined array's block at point `t` is tile `t` of the joined array as the region finds it. -/
theorem p2_iblk0 (c : Dev nD) (t : Fin cfg1.N) (b : Fin 32) (hb : b.val = t.val) :
    (Pass2.iblk V c 0 t : Vec F S256x128 .f32) = Passes.tile (n := 128) (V c main_v3) b := by
  unfold Pass2.iblk
  exact read_block1_0 (V c main_v3) t b hb

/-- The keys' block at every point is the key array as the region finds it. -/
theorem p2_iblk1 (c : Dev nD) (t : Fin cfg1.N) : (Pass2.iblk V c 1 t : Vec F S4096x64 .f32) = V c main_arg2 := by
  unfold Pass2.iblk
  exact read_block1_1 (V c main_arg2) t

/-- The total column sums' block at every point is the row vector as the region finds it. -/
theorem p2_iblk2 (c : Dev nD) (t : Fin cfg1.N) : (Pass2.iblk V c 2 t : Vec F S1x4096 .f32) = V c main_v1 := by
  unfold Pass2.iblk
  exact read_block1_2 (V c main_v1) t

/-- The carried matrix at position `16·k + j` is core `k`'s running matrix after step `j`. -/
theorem p2_acc (c : Dev nD) (k : Fin 2) : ∀ (j : ℕ), j ≤ 15 → ∀ (n : ℕ) (hn : n < cfg1.N), n = 16 * k.val + j →
    Pass2.acc V c n hn = Passes.targetSums (V c main_v3) (V c main_arg2) (V c main_v1) k j
  | 0, _, n, hn, e => by
    have hk := k.isLt
    have h0 : (⟨n, hn⟩ : Fin cfg1.N).val % 16 = 0 := by show n % 16 = 0; omega
    have hb : (Passes.tileOf k 0).val = (⟨n, hn⟩ : Fin cfg1.N).val := by show (k.val * 16 + 0) % 32 = n; omega
    refine (Pass2.acc_first V c ⟨n, hn⟩ h0).trans ?_
    rw [p2_iblk0 V c ⟨n, hn⟩ (Passes.tileOf k 0) hb, p2_iblk1 V c ⟨n, hn⟩, p2_iblk2 V c ⟨n, hn⟩]
    rfl
  | j + 1, hj, n, hn, e => by
    have hk := k.isLt
    have h0 : ¬(⟨n, hn⟩ : Fin cfg1.N).val % 16 = 0 := by show ¬n % 16 = 0; omega
    have hb : (Passes.tileOf k (j + 1)).val = (⟨n, hn⟩ : Fin cfg1.N).val := by show (k.val * 16 + (j + 1)) % 32 = n; omega
    have ih := p2_acc c k j (by omega) ((⟨n, hn⟩ : Fin cfg1.N).val - 1)
      (Nat.lt_of_le_of_lt (Nat.sub_le _ _) (⟨n, hn⟩ : Fin cfg1.N).isLt) (by show n - 1 = 16 * k.val + j; omega)
    refine (Pass2.acc_next V c ⟨n, hn⟩ h0).trans ?_
    rw [p2_iblk0 V c ⟨n, hn⟩ (Passes.tileOf k (j + 1)) hb, p2_iblk1 V c ⟨n, hn⟩, p2_iblk2 V c ⟨n, hn⟩, ih]
    rfl

/-- What a core's last point writes back is that core's part of the per-core matrices. -/
theorem p2_flushed3 (c : Dev nD) (t : Fin cfg1.N) (hf : (cfg1.win 3).flush t = true) :
    (Pass2.dat V c).flushed 3 t
      = ((cfg1.win 3).blk t).view.read (Elt F) (Passes.targetsPerCore (V c main_v3) (V c main_arg2) (V c main_v1)) := by
  have h15 : t.val % 16 = 15 := (flush1_3 t).mp hf
  have hN : t.val < 32 := lt_of_lt_of_eq t.isLt N_1
  show (cfg1.win 3).cut (grid1.coords t) ((Pass2.dat V c).after 3 t) = _
  rw [Pass2.after3, p2_acc V c ⟨t.val / 16, by omega⟩ 15 (le_refl _) t.val t.isLt (by show t.val = 16 * (t.val / 16) + 15; omega)]
  exact (read_block1_3 (fun k' => k1_pay1 (Passes.targetSums (V c main_v3) (V c main_arg2) (V c main_v1) k' 15)) t ⟨t.val / 16, by omega⟩ rfl).symm

/-- Pass 2's result array, after the region. -/
theorem pass2_targets (c : Dev nD) :
    (Pass2.dat V c).arrAt 3 cfg1.N = Passes.targetsPerCore (V c main_v3) (V c main_arg2) (V c main_v1) :=
  (Pass2.dat V c).arrAt_eq_of_cover 3 _ (fun t hf => p2_flushed3 V c t hf) cover1_3

end Cert.KernelIdeal.Arrays

end
-- ==== Proof.ArrResult.lean ====
/-
  The program's result buffer, at the end of the run, holds the passes' result of the launch contents of the four
  arguments.

  Item by item: pass 1 leaves the per-core sums in its two result arrays and touches nothing else; the first host
  stretch adds the cores and joins the context with the outputs; pass 2 leaves the per-core matrices in its result
  array; the epilogue computes the result from them, the total of `S1` and the two memories. No item writes an
  argument, so each argument read along the way is the launch's.
-/
import proofs.«168828_j76141180223719_2_alg».proof.Proof.Whole
import proofs.«168828_j76141180223719_2_alg».proof.Proof.ArrHost
import proofs.«168828_j76141180223719_2_alg».proof.Proof.ArrPass1
import proofs.«168828_j76141180223719_2_alg».proof.Proof.ArrPass2

noncomputable section

namespace Cert.KernelIdeal.Arrays

open Cert.KernelIdeal Cert.KernelIdeal.Gen Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-! ## After pass 1 -/

theorem w1_arg0 (c : Dev nD) : Whole.W1 m c (Proc.devRef .tc main_arg0) = m ((c : Thread nD τ).loc main_arg0) :=
  (Whole.W1_arr m c 0).trans (((Pass1.dat (Whole.U0 m) c).arrAt_in 0 rfl _).trans (Pass1.A_eq (Whole.U0 m) c 0))
theorem w1_arg1 (c : Dev nD) : Whole.W1 m c (Proc.devRef .tc main_arg1) = m ((c : Thread nD τ).loc main_arg1) :=
  Whole.W1_of_ne m c main_arg1 (by decide)
theorem w1_arg2 (c : Dev nD) : Whole.W1 m c (Proc.devRef .tc main_arg2) = m ((c : Thread nD τ).loc main_arg2) :=
  (Whole.W1_arr m c 1).trans (((Pass1.dat (Whole.U0 m) c).arrAt_in 1 rfl _).trans (Pass1.A_eq (Whole.U0 m) c 1))
theorem w1_arg3 (c : Dev nD) : Whole.W1 m c (Proc.devRef .tc main_arg3) = m ((c : Thread nD τ).loc main_arg3) :=
  Whole.W1_of_ne m c main_arg3 (by decide)
theorem w1_v0_0 (c : Dev nD) : Whole.W1 m c (Proc.devRef .tc main_v0_0)
    = Passes.expSumsPerCore (m ((c : Thread nD τ).loc main_arg0)) (m ((c : Thread nD τ).loc main_arg2)) :=
  (Whole.W1_arr m c 2).trans (pass1_exp (Whole.U0 m) c)
theorem w1_v0_1 (c : Dev nD) : Whole.W1 m c (Proc.devRef .tc main_v0_1)
    = Passes.s1SumsPerCore (m ((c : Thread nD τ).loc main_arg0)) (m ((c : Thread nD τ).loc main_arg2)) :=
  (Whole.W1_arr m c 3).trans (pass1_s1 (Whole.U0 m) c)

/-! ## After the first host stretch -/

theorem w2_v1 (c : Dev nD) : Whole.W2 m c (Proc.devRef .tc main_v1)
    = Passes.addCores (Passes.expSumsPerCore (m ((c : Thread nD τ).loc main_arg0)) (m ((c : Thread nD τ).loc main_arg2))) :=
  (host1_v1 (Whole.W1 m c)).trans (congrArg Passes.addCores (w1_v0_0 m c))
theorem w2_v2 (c : Dev nD) : Whole.W2 m c (Proc.devRef .tc main_v2)
    = Passes.addCores (Passes.s1SumsPerCore (m ((c : Thread nD τ).loc main_arg0)) (m ((c : Thread nD τ).loc main_arg2))) :=
  (host1_v2 (Whole.W1 m c)).trans (congrArg Passes.addCores (w1_v0_1 m c))
theorem w2_v3 (c : Dev nD) : Whole.W2 m c (Proc.devRef .tc main_v3)
    = Passes.joined (m ((c : Thread nD τ).loc main_arg0)) (m ((c : Thread nD τ).loc main_arg1)) := by
  rw [show Whole.W2 m c (Proc.devRef .tc main_v3) = _ from host1_v3 (Whole.W1 m c), w1_arg0, w1_arg1]
theorem w2_arg2 (c : Dev nD) : Whole.W2 m c (Proc.devRef .tc main_arg2) = m ((c : Thread nD τ).loc main_arg2) :=
  (StableHlo.after_of_writes_sub hostOps1 _ hostOps1_writes (by decide)).trans (w1_arg2 m c)
theorem w2_arg3 (c : Dev nD) : Whole.W2 m c (Proc.devRef .tc main_arg3) = m ((c : Thread nD τ).loc main_arg3) :=
  (StableHlo.after_of_writes_sub hostOps1 _ hostOps1_writes (by decide)).trans (w1_arg3 m c)

/-! ## After pass 2 -/

theorem w3_v4 (c : Dev nD) : Whole.W3 m c (Proc.devRef .tc main_v4)
    = Passes.targetsPerCore (Passes.joined (m ((c : Thread nD τ).loc main_arg0)) (m ((c : Thread nD τ).loc main_arg1)))
        (m ((c : Thread nD τ).loc main_arg2))
        (Passes.addCores (Passes.expSumsPerCore (m ((c : Thread nD τ).loc main_arg0)) (m ((c : Thread nD τ).loc main_arg2)))) := by
  refine (Whole.W3_arr m c 3).trans ((pass2_targets (Whole.U2 m) c).trans ?_)
  show Passes.targetsPerCore (Whole.W2 m c (Proc.devRef .tc main_v3)) (Whole.W2 m c (Proc.devRef .tc main_arg2))
    (Whole.W2 m c (Proc.devRef .tc main_v1)) = _
  rw [w2_v3, w2_arg2, w2_v1]
theorem w3_v2 (c : Dev nD) : Whole.W3 m c (Proc.devRef .tc main_v2)
    = Passes.addCores (Passes.s1SumsPerCore (m ((c : Thread nD τ).loc main_arg0)) (m ((c : Thread nD τ).loc main_arg2))) :=
  (Whole.W3_of_ne m c main_v2 (by decide)).trans (w2_v2 m c)
theorem w3_arg2 (c : Dev nD) : Whole.W3 m c (Proc.devRef .tc main_arg2) = m ((c : Thread nD τ).loc main_arg2) :=
  (Whole.W3_arr m c 1).trans ((((Pass2.dat (Whole.U2 m) c).arrAt_in 1 rfl _).trans (Pass2.A_eq (Whole.U2 m) c 1)).trans (w2_arg2 m c))
theorem w3_arg3 (c : Dev nD) : Whole.W3 m c (Proc.devRef .tc main_arg3) = m ((c : Thread nD τ).loc main_arg3) :=
  (Whole.W3_of_ne m c main_arg3 (by decide)).trans (w2_arg3 m c)

/-! ## At the end -/

/-- The result buffer after the run is the passes' result of the arguments as launched. -/
theorem result_at_end (c : Dev nD) :
    Whole.W4 m c (Proc.devRef .tc main_v23)
      = Passes.result (m ((c : Thread nD τ).loc main_arg0)) (m ((c : Thread nD τ).loc main_arg1))
          (m ((c : Thread nD τ).loc main_arg2)) (m ((c : Thread nD τ).loc main_arg3)) := by
  rw [show Whole.W4 m c (Proc.devRef .tc main_v23) = _ from host2_v23 (Whole.W3 m c), w3_v4, w3_v2, w3_arg2, w3_arg3]
  rfl

end Cert.KernelIdeal.Arrays

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.PassLaws.lean ====
/-
  The laws on real numbers behind the kernel's tiles.

  * The maximum of finitely many real numbers, taken in the extended reals from the least element, is a real number.
  * A softmax is unchanged by a common shift of its arguments: exp(a i − t) / Σⱼ exp(a j − t) = exp(a i) / Σⱼ exp(a j).
  * So the shifted softmax computed on the extended reals from real scores — subtract the row's maximum, exponentiate,
    divide by the row's sum — is the coercion of the plain softmax of the scores.
-/
import Idealize.ShloMosaic.PureOps.Ideal
import proofs.«168828_j76141180223719_2_alg».proof.Proof.LibERealSum

noncomputable section

open scoped BigOperators

namespace Cert.KernelIdeal.PassValue

open Idealize.ShloMosaic Cert.Lib.ERealSum

/-- The maximum, from the least element, of finitely many (at least one) real numbers is a real number. -/
theorem fold_max_real {ι : Type*} (s : Finset ι) (g : ι → ℝ) (hs : s.Nonempty) :
    ∃ t : ℝ, s.fold max (⊥ : EReal) (fun k => (g k : EReal)) = (t : EReal) := by
  induction hs using Finset.Nonempty.cons_induction with
  | singleton a => exact ⟨g a, by rw [Finset.fold_singleton]; exact max_bot_right _⟩
  | cons a s ha hs ih =>
    obtain ⟨t, ht⟩ := ih
    exact ⟨max (g a) t, by rw [Finset.fold_cons, ht]; exact (EReal.coe_strictMono.monotone.map_max).symm⟩

/-- The quotient of two real numbers, the divisor not zero, on the extended reals. -/
theorem div_coe_coe (a y : ℝ) (hy : y ≠ 0) : Ideal.div (a : EReal) (y : EReal) = ((a / y : ℝ) : EReal) := by
  rw [Ideal.div_coe hy, ← EReal.coe_mul, mul_one_div]

/-- A softmax does not see a common shift of its arguments. -/
theorem softmax_shift_real {ι : Type*} [Fintype ι] (a : ι → ℝ) (t : ℝ) (i : ι) :
    Real.exp (a i - t) / ∑ j, Real.exp (a j - t) = Real.exp (a i) / ∑ j, Real.exp (a j) := by
  simp only [Real.exp_sub]
  rw [← Finset.sum_div, div_div_div_cancel_right₀ (Real.exp_pos t).ne']

/-- The shifted softmax of real scores computed on the extended reals is the plain softmax of the scores. -/
theorem softmax_ereal {ι : Type*} [Fintype ι] [Nonempty ι] (a : ι → ℝ) (i : ι) :
    Ideal.div (Ideal.exp ((a i : EReal) - Finset.univ.fold max (⊥ : EReal) fun k => (a k : EReal)))
        (∑ j, Ideal.exp ((a j : EReal) - Finset.univ.fold max (⊥ : EReal) fun k => (a k : EReal)))
      = ((Real.exp (a i) / ∑ j, Real.exp (a j) : ℝ) : EReal) := by
  obtain ⟨t, ht⟩ := fold_max_real Finset.univ a Finset.univ_nonempty
  rw [ht]
  simp only [← EReal.coe_sub, Ideal.exp_coe, ← coe_sum]
  rw [div_coe_coe _ _ (Finset.sum_pos (fun j _ => Real.exp_pos _) Finset.univ_nonempty).ne']
  exact congrArg _ (softmax_shift_real a t i)

/-- A sum of exponentials over a nonempty finite index type is not zero. -/
theorem sum_exp_ne_zero {ι : Type*} [Fintype ι] [Nonempty ι] (a : ι → ℝ) : (∑ j, Real.exp (a j)) ≠ 0 :=
  (Finset.sum_pos (fun j _ => Real.exp_pos _) Finset.univ_nonempty).ne'

end Cert.KernelIdeal.PassValue

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.LibMeanLaw.lean ====
/-
  The mean of a neighbourhood, written two ways, on the extended reals.

  A node's aggregated message `a` is divided by `c = max cnt 1`, the number of incoming edges clamped below by one.
  One program multiplies `a` by the reciprocal `1 / c`, the other divides `a` by `c`. Off zero the quotient of the
  extended reals is the product with the inverse, and `c ≥ 1` is never zero — whether `cnt` is a real number or
  an infinity — so `1 / c = c⁻¹` and both programs compute `a · c⁻¹`. Nothing is asked of `a` or of `cnt`.
-/
import Idealize.ShloMosaic.PureOps.Ideal
import proofs.«168828_j76141180223719_2_alg».proof.Proof.LibFiniteEntry

noncomputable section

namespace Cert.Lib.MeanLaw

open Idealize.ShloMosaic

/-- The f32 word `0x3F800000` is the real number one. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h]; rfl

/-- Multiplying by the reciprocal of a number at least one is dividing by it. -/
theorem mul_recip_eq_div (a c : EReal) (hc : (1 : EReal) ≤ c) : a * Ideal.div 1 c = Ideal.div a c := by
  have h0 : c ≠ 0 := fun e => by
    rw [e] at hc
    exact absurd hc (by norm_num)
  unfold Ideal.div
  rw [if_neg h0, if_neg h0, one_mul]

/-- The same with the clamp spelt out and the one written as its f32 word: `a · (1 / max cnt 1) = a / max cnt 1`. -/
theorem mul_recip_max (a cnt : EReal) :
    a * Ideal.div (Ideal.ofBits .f32 0x3F800000#32) (max cnt (Ideal.ofBits .f32 0x3F800000#32))
      = Ideal.div a (max cnt (Ideal.ofBits .f32 0x3F800000#32)) := by
  rw [ofBits_one]
  exact mul_recip_eq_div a (max cnt 1) (le_max_right cnt 1)

end Cert.Lib.MeanLaw

end
-- ==== Proof.LibFoldBlocks.lean ====
/-
  Maxima and minima taken block by block.

  A maximum from the least element over a finite index set that is a product of blocks — here the columns
  `Fin n` cut into `A` runs of `B` consecutive columns, `n = A · B` — is the maximum over the blocks of each block's
  own maximum; dually for a minimum from the greatest element. A running value that starts at the least element and
  at step `k` becomes the larger of itself and block `k`'s maximum holds, after step `k`, the maximum of the blocks
  `0 … k`, and after the last step the maximum over everything. Nothing here depends on what is maximised.

  On the extended reals the least and greatest elements are the words `0xFF800000` and `0x7F800000` read as floats.
-/
import Mathlib.Order.Fin.Basic
import Mathlib.Data.Finset.Lattice.Fold
import Mathlib.Data.Fintype.Prod
import Mathlib.Logic.Equiv.Fin.Basic
import Idealize.ShloMosaic.PureOps.Ideal
import proofs.«168828_j76141180223719_2_alg».proof.Proof.LibMeanLaw

namespace Cert.FoldBlocks

open Finset

/-! ## The columns as blocks -/

/-- Column `b + B · a` of `n = A · B` columns is column `b` of block `a`. -/
def blockEquiv {A B n : ℕ} (h : A * B = n) : Fin A × Fin B ≃ Fin n := finProdFinEquiv.trans (finCongr h)

theorem blockEquiv_val {A B n : ℕ} (h : A * B = n) (a : Fin A) (b : Fin B) :
    (blockEquiv h (a, b)).val = b.val + B * a.val := rfl

/-! ## Folds of `max` and `min` are suprema and infima -/

section Lattice

variable {α : Type*} [LinearOrder α]

theorem fold_max_eq_sup [OrderBot α] {ι : Type*} (s : Finset ι) (f : ι → α) : s.fold max ⊥ f = s.sup f := rfl

theorem fold_min_eq_inf [OrderTop α] {ι : Type*} (s : Finset ι) (f : ι → α) : s.fold min ⊤ f = s.inf f := rfl

/-- A supremum over everything, taken block by block. -/
theorem sup_univ_blocks [OrderBot α] {ι κ γ : Type*} [Fintype ι] [Fintype κ] [Fintype γ] (e : ι × κ ≃ γ) (f : γ → α) :
    (univ : Finset γ).sup f = (univ : Finset ι).sup fun a => (univ : Finset κ).sup fun b => f (e (a, b)) := by
  rw [← Finset.map_univ_equiv e, Finset.sup_map, ← Finset.univ_product_univ, Finset.sup_product_left]
  rfl

/-- An infimum over everything, taken block by block. -/
theorem inf_univ_blocks [OrderTop α] {ι κ γ : Type*} [Fintype ι] [Fintype κ] [Fintype γ] (e : ι × κ ≃ γ) (f : γ → α) :
    (univ : Finset γ).inf f = (univ : Finset ι).inf fun a => (univ : Finset κ).inf fun b => f (e (a, b)) := by
  rw [← Finset.map_univ_equiv e, Finset.inf_map, ← Finset.univ_product_univ, Finset.inf_product_left]
  rfl

/-- The fold of `max` from the least element over everything is the fold over the blocks of each block's fold. -/
theorem fold_max_blocks [OrderBot α] {ι κ γ : Type*} [Fintype ι] [Fintype κ] [Fintype γ] (e : ι × κ ≃ γ) (f : γ → α) :
    (univ : Finset γ).fold max ⊥ f
      = (univ : Finset ι).fold max ⊥ fun a => (univ : Finset κ).fold max ⊥ fun b => f (e (a, b)) :=
  sup_univ_blocks e f

/-- The fold of `min` from the greatest element likewise. -/
theorem fold_min_blocks [OrderTop α] {ι κ γ : Type*} [Fintype ι] [Fintype κ] [Fintype γ] (e : ι × κ ≃ γ) (f : γ → α) :
    (univ : Finset γ).fold min ⊤ f
      = (univ : Finset ι).fold min ⊤ fun a => (univ : Finset κ).fold min ⊤ fun b => f (e (a, b)) :=
  inf_univ_blocks e f

/-! ## The blocks done so far -/

/-- The blocks `0 … k`. -/
def upto (A k : ℕ) : Finset (Fin A) := univ.filter fun a => a.val ≤ k

theorem upto_zero {A : ℕ} (h : 0 < A) : upto A 0 = {⟨0, h⟩} := by
  ext a; simp only [upto, mem_filter, mem_univ, true_and, mem_singleton, Fin.ext_iff]; omega

theorem upto_succ {A : ℕ} (k : ℕ) (h : k + 1 < A) : upto A (k + 1) = insert ⟨k + 1, h⟩ (upto A k) := by
  ext a; simp only [upto, mem_filter, mem_univ, true_and, mem_insert, Fin.ext_iff]; omega

theorem upto_last {A : ℕ} (k : ℕ) (h : A ≤ k + 1) : upto A k = univ := by
  ext a; simp only [upto, mem_filter, mem_univ, true_and, iff_true]; have := a.isLt; omega

/-- After the first step the running maximum, started at the least element, is block 0's. -/
theorem sup_upto_zero [OrderBot α] {A : ℕ} (h : 0 < A) (blk : Fin A → α) :
    max ⊥ (blk ⟨0, h⟩) = (upto A 0).sup blk := by
  rw [upto_zero h, Finset.sup_singleton]; exact bot_sup_eq _

/-- A further step takes in the next block. -/
theorem sup_upto_succ [OrderBot α] {A : ℕ} (k : ℕ) (h : k + 1 < A) (blk : Fin A → α) :
    max ((upto A k).sup blk) (blk ⟨k + 1, h⟩) = (upto A (k + 1)).sup blk := by
  rw [upto_succ k h, Finset.sup_insert]; exact sup_comm _ _

/-- After the first step the running minimum, started at the greatest element, is block 0's. -/
theorem inf_upto_zero [OrderTop α] {A : ℕ} (h : 0 < A) (blk : Fin A → α) :
    min ⊤ (blk ⟨0, h⟩) = (upto A 0).inf blk := by
  rw [upto_zero h, Finset.inf_singleton]; exact top_inf_eq _

/-- A further step takes in the next block. -/
theorem inf_upto_succ [OrderTop α] {A : ℕ} (k : ℕ) (h : k + 1 < A) (blk : Fin A → α) :
    min ((upto A k).inf blk) (blk ⟨k + 1, h⟩) = (upto A (k + 1)).inf blk := by
  rw [upto_succ k h, Finset.inf_insert]; exact inf_comm _ _

/-- After the last step the running maximum of the blocks' maxima is the maximum over all `n = A · B` columns. -/
theorem sup_upto_last_blocks [OrderBot α] {A B n : ℕ} (hn : A * B = n) (k : ℕ) (h : A ≤ k + 1) (f : Fin n → α) :
    (upto A k).sup (fun a => (univ : Finset (Fin B)).fold max ⊥ fun b => f (blockEquiv hn (a, b)))
      = (univ : Finset (Fin n)).fold max ⊥ f := by
  rw [upto_last k h]; exact (fold_max_blocks (blockEquiv hn) f).symm

/-- … and the running minimum of the blocks' minima the minimum over all columns. -/
theorem inf_upto_last_blocks [OrderTop α] {A B n : ℕ} (hn : A * B = n) (k : ℕ) (h : A ≤ k + 1) (f : Fin n → α) :
    (upto A k).inf (fun a => (univ : Finset (Fin B)).fold min ⊤ fun b => f (blockEquiv hn (a, b)))
      = (univ : Finset (Fin n)).fold min ⊤ f := by
  rw [upto_last k h]; exact (fold_min_blocks (blockEquiv hn) f).symm

end Lattice

/-! ## The two infinities as floats -/

open Idealize.ShloMosaic

theorem negInf_eq_bot : Ideal.ofBits .f32 0xFF800000#32 = (⊥ : EReal) := by simp [Ideal.ofBits, Ideal.ieee]

theorem posInf_eq_top : Ideal.ofBits .f32 0x7F800000#32 = (⊤ : EReal) := by simp [Ideal.ofBits, Ideal.ieee]

end Cert.FoldBlocks
-- ==== Proof.Literals.lean ====
/-
  The float words the two programs use, as extended reals.
-/
import proofs.«168828_j76141180223719_2_alg».proof.Proof.LibFoldBlocks
import Idealize.ShloMosaic.PureOps.Ideal.Laws

noncomputable section

namespace Cert.Literals

open Idealize.ShloMosaic

/-- The f32 word `0x00000000` is the number 0. -/
theorem ofBits_zero : Ideal.ofBits .f32 0x00000000#32 = (0 : EReal) := Ideal.ofBits_zero_f32

/-- The f32 word `0x3F800000` is the number 1. -/
theorem ofBits_one : Ideal.ofBits .f32 0x3F800000#32 = (1 : EReal) := Cert.Lib.MeanLaw.ofBits_one

/-- The f32 word `0xFF800000` is −∞, the least extended real. -/
theorem ofBits_negInf : Ideal.ofBits .f32 0xFF800000#32 = (⊥ : EReal) := Cert.FoldBlocks.negInf_eq_bot

/-- The f32 word `0x7F800000` is +∞, the greatest extended real. -/
theorem ofBits_posInf : Ideal.ofBits .f32 0x7F800000#32 = (⊤ : EReal) := Cert.FoldBlocks.posInf_eq_top

/-- The f32 word `0x46000000` is the number 8192. -/
theorem ofBits_8192 : Ideal.ofBits .f32 0x46000000#32 = ((8192 : ℝ) : EReal) := by
  simp [Ideal.ofBits, Ideal.ieee, -EReal.coe_mul]; norm_num

/-- The f32 word `0x3F000000` is the number 1/2. -/
theorem ofBits_half : Ideal.ofBits .f32 0x3F000000#32 = ((1 / 2 : ℝ) : EReal) := by
  simp [Ideal.ofBits, Ideal.ieee, -EReal.coe_mul]; norm_num

end Cert.Literals

end
-- ==== Proof.PassTile.lean ====
/-
  One tile of 256 context rows: its row softmax, read at an entry.

  The tile's scores are the products of its rows with the memory slots (the change of float format is the identity on
  the extended reals, and the matrix product into a zero accumulator is the sum over the 64 features), times one. The
  row softmax subtracts each row's maximum, exponentiates, and divides by the row's sum. When the tile and the memory
  are real matrices every score is real, the row's maximum is real, and the shift cancels: the entry `(p, m)` is the
  plain softmax, over the memory slots, of row `p`'s scores, at slot `m`.
-/
import proofs.«168828_j76141180223719_2_alg».proof.Proof.Passes
import proofs.«168828_j76141180223719_2_alg».proof.Proof.PassLaws
import proofs.«168828_j76141180223719_2_alg».proof.Proof.LibKeepdims
import proofs.«168828_j76141180223719_2_alg».proof.Proof.Literals
import Idealize.ShloMosaic.Lib.ValueLayout
import Idealize.ShloMosaic.PureOps.Ideal.Laws

noncomputable section

open scoped BigOperators

namespace Cert.KernelIdeal.PassValue

open Idealize.ShloMosaic Idealize.ShloMosaic.ValueIdx Idealize.ShloMosaic.ValueKeepdims Cert.KernelIdeal Cert.KernelIdeal.Gen
open Cert.Lib.ERealSum

section AnyInstance

variable {F : FTy → Type} [FloatOps F]

/-- The tile's scores: its rows against the memory slots, times one. -/
def scores (X : Vec F S256x64 .f32) (K : Vec F S4096x64 .f32) : FVec F S256x4096 .f32 :=
  mulf (matmul dot_S256x64_S64x4096_S256x4096_1_0_0_1_n_n none (truncf .bf16 X bitsLt_bf16_f32)
      (transpose S64x4096 [1, 0] (truncf .bf16 K bitsLt_bf16_f32) transposes_S4096x64_p1_0_S64x4096)
      (constant S256x4096 .f32 0x00000000#32))
    (broadcast S256x4096 (Scalar.ofBits .f32 0x3F800000#32))

/-- Each row's maximum, spread along the row. -/
def rowMaxB (Z : FVec F S256x4096 .f32) : FVec F S256x4096 .f32 :=
  broadcastTo S256x4096 (shapeCast S256x1 (multiReduction .maximumf [1] S256 Z 0xFF800000#32 reduces_S256x4096_S256 (.inl rfl) rfl)
    shapeCasts_S256_S256x1) broadcasts_S256x1_S256x4096

/-- Each row's sum, spread along the row. -/
def rowSumB (E : FVec F S256x4096 .f32) : FVec F S256x4096 .f32 :=
  broadcastTo S256x4096 (shapeCast S256x1 (multiReduction .add [1] S256 E 0x00000000#32 reduces_S256x4096_S256 (.inl rfl) rfl)
    shapeCasts_S256_S256x1) broadcasts_S256x1_S256x4096

/-- The exponentials of the entries less their row's maximum. -/
def shifted (Z : FVec F S256x4096 .f32) : FVec F S256x4096 .f32 := exp (subf Z (rowMaxB Z))

/-- The row softmax as the kernel computes it. -/
def rowSoftmaxOp (Z : FVec F S256x4096 .f32) : FVec F S256x4096 .f32 := divf (shifted Z) (rowSumB (shifted Z))

/-- The kernel's tile payload is the row softmax of the tile's scores. -/
theorem k0_pay6_eq (X : Vec F S256x64 .f32) (K : Vec F S4096x64 .f32) : k0_pay6 X K = rowSoftmaxOp (scores X K) := rfl

end AnyInstance

/-! ## The scores at an entry -/

theorem scoresDot_lhs0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl

theorem scoresDot_rhs1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- The score of row `p` and slot `m`: the sum over the features of the products, times the word of one. -/
theorem scores_apply (X : FVec Ideal S256x64 .f32) (K : FVec Ideal S4096x64 .f32) (p : Fin 256) (m : Fin 4096) :
    scores X K (ix2 p m) = (∑ k : Fin 64, X (ix2 p k) * K (ix2 m k)) * Ideal.ofBits .f32 0x3F800000#32 := by
  unfold scores
  show FloatOps.matmul dot_S256x64_S64x4096_S256x4096_1_0_0_1_n_n none _ _ (constant S256x4096 .f32 0x00000000#32) (ix2 p m) * _ = _
  rw [Ideal.matmul_constant_zero_apply, ← Equiv.sum_comp (contrEquiv1 dot_S256x64_S64x4096_S256x4096_1_0_0_1_n_n 64 rfl rfl).symm]
  refine congrArg (· * _) (Finset.sum_congr rfl fun k _ => ?_)
  have hk := contrEquiv1_symm_val dot_S256x64_S64x4096_S256x4096_1_0_0_1_n_n 64 rfl rfl k
  have el : dot_S256x64_S64x4096_S256x4096_1_0_0_1_n_n.lhsIdx (ix2 p m) ((contrEquiv1 dot_S256x64_S64x4096_S256x4096_1_0_0_1_n_n 64 rfl rfl).symm k) = ix2 p k := funext fun a => Fin.ext (by
    match a with
    | ⟨0, _⟩ => exact scoresDot_lhs0 _ _
    | ⟨1, _⟩ => exact (dot_S256x64_S64x4096_S256x4096_1_0_0_1_n_n.lhsIdx_val_of_single rfl _ _).trans hk)
  have er : dot_S256x64_S64x4096_S256x4096_1_0_0_1_n_n.rhsIdx (ix2 p m) ((contrEquiv1 dot_S256x64_S64x4096_S256x4096_1_0_0_1_n_n 64 rfl rfl).symm k) = ix2 k m := funext fun a => Fin.ext (by
    match a with
    | ⟨0, _⟩ => exact (dot_S256x64_S64x4096_S256x4096_1_0_0_1_n_n.rhsIdx_val_of_single rfl _ _).trans hk
    | ⟨1, _⟩ => exact scoresDot_rhs1 _ _)
  rw [el, er]
  exact congrArg (X (ix2 p k) * ·) (transpose_ix2_apply _ _ k m)

/-! ## The row softmax at an entry -/

/-- Row `p`'s maximum from the word of −∞. -/
def rowMax (Z : FVec Ideal S256x4096 .f32) (p : Fin 256) : EReal :=
  (Finset.univ : Finset (Fin 4096)).fold max (Ideal.ofBits .f32 0xFF800000#32) (fun k => Z (ix2 p k))

theorem rowMaxB_apply (Z : FVec Ideal S256x4096 .f32) (p : Fin 256) (j : Fin 4096) : rowMaxB Z (ix2 p j) = rowMax Z p :=
  (broadcastTo_a1_ab_apply _ _ p j).trans ((shapeCast_a_a1_apply _ _ p 0).trans (multiReduction_maximumf_row Z _ _ _ _ p))

theorem rowSumB_apply (E : FVec Ideal S256x4096 .f32) (p : Fin 256) (j : Fin 4096) :
    rowSumB E (ix2 p j) = ∑ k : Fin 4096, E (ix2 p k) :=
  (broadcastTo_a1_ab_apply _ _ p j).trans ((shapeCast_a_a1_apply _ _ p 0).trans (multiReduction_add_row E _ _ _ _ p))

theorem shifted_apply (Z : FVec Ideal S256x4096 .f32) (p : Fin 256) (j : Fin 4096) :
    shifted Z (ix2 p j) = Ideal.exp (Z (ix2 p j) - rowMax Z p) := by
  show Ideal.exp (Z (ix2 p j) - rowMaxB Z (ix2 p j)) = _
  rw [rowMaxB_apply]

theorem rowSoftmaxOp_apply (Z : FVec Ideal S256x4096 .f32) (p : Fin 256) (m : Fin 4096) :
    rowSoftmaxOp Z (ix2 p m)
      = Ideal.div (Ideal.exp (Z (ix2 p m) - rowMax Z p)) (∑ k : Fin 4096, Ideal.exp (Z (ix2 p k) - rowMax Z p)) := by
  show Ideal.div (shifted Z (ix2 p m)) (rowSumB (shifted Z) (ix2 p m)) = _
  rw [rowSumB_apply, shifted_apply]
  exact congrArg _ (Finset.sum_congr rfl fun k _ => shifted_apply Z p k)

/-! ## On real matrices -/

/-- The score of row `p` and slot `m` on real matrices. -/
theorem scores_real (X : FVec Ideal S256x64 .f32) (K : FVec Ideal S4096x64 .f32) (x : Fin 256 → Fin 64 → ℝ)
    (km : Fin 4096 → Fin 64 → ℝ) (hX : ∀ p k, X (ix2 p k) = ((x p k : ℝ) : EReal))
    (hK : ∀ m k, K (ix2 m k) = ((km m k : ℝ) : EReal)) (p : Fin 256) (m : Fin 4096) :
    scores (F := Ideal) X K (ix2 p m) = ((∑ k : Fin 64, x p k * km m k : ℝ) : EReal) := by
  rw [scores_apply, Cert.Literals.ofBits_one, mul_one, coe_sum]
  exact Finset.sum_congr rfl fun k _ => by rw [hX, hK, EReal.coe_mul]

/-- The tile payload on real matrices: at `(p, m)` the softmax over the slots of row `p`'s scores, at slot `m`. -/
theorem tileSoftmax_real (X : FVec Ideal S256x64 .f32) (K : FVec Ideal S4096x64 .f32) (x : Fin 256 → Fin 64 → ℝ)
    (km : Fin 4096 → Fin 64 → ℝ) (hX : ∀ p k, X (ix2 p k) = ((x p k : ℝ) : EReal))
    (hK : ∀ m k, K (ix2 m k) = ((km m k : ℝ) : EReal)) (p : Fin 256) (m : Fin 4096) :
    k0_pay6 (F := Ideal) X K (ix2 p m)
      = ((Real.exp (∑ k : Fin 64, x p k * km m k) / ∑ m' : Fin 4096, Real.exp (∑ k : Fin 64, x p k * km m' k) : ℝ) : EReal) := by
  rw [k0_pay6_eq, rowSoftmaxOp_apply]
  unfold rowMax
  simp only [scores_real X K x km hX hK p]
  rw [Cert.Literals.ofBits_negInf]
  exact softmax_ereal (fun j : Fin 4096 => ∑ k : Fin 64, x p k * km j k) m

end Cert.KernelIdeal.PassValue

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Spec.lean ====
/-
  The mathematical content of both programs, over real arrays.

  For a context `q` (8192×64), outputs `o` (8192×64) and memories `km`, `vm` (4096×64):
  `sim c m = Σ_k q c k · km m k`; `S1` is the softmax of `sim` along the memory axis; `Dc` is the softmax of `S1`
  along the context axis; the targets are `Dcᵀ·q` and `Dcᵀ·o`; the rate of slot `m` is half the mean of `S1` over
  the context axis; the result stacks `rate · (target − memory)` for `(q, km)` and `(o, vm)`.
  (A softmax is written without the usual shift by a maximum: on the reals the shift cancels.)
-/
import Idealize.ShloMosaic.PureOps.Ideal

noncomputable section

open scoped BigOperators

namespace Cert.Spec

open Idealize.ShloMosaic

variable (q o : Fin 8192 → Fin 64 → ℝ) (km vm : Fin 4096 → Fin 64 → ℝ)

/-- The similarity of context row `c` and memory slot `m`. -/
def sim (c : Fin 8192) (m : Fin 4096) : ℝ := ∑ k : Fin 64, q c k * km m k

/-- `S1`: the softmax of the similarities along the memory axis. -/
def rowSoftmax (c : Fin 8192) (m : Fin 4096) : ℝ := Real.exp (sim q km c m) / ∑ m' : Fin 4096, Real.exp (sim q km c m')

/-- The normalizer of the softmax of `S1` along the context axis. -/
def colExpSum (m : Fin 4096) : ℝ := ∑ c : Fin 8192, Real.exp (rowSoftmax q km c m)

/-- `Dc`: the softmax of `S1` along the context axis. -/
def colSoftmax (c : Fin 8192) (m : Fin 4096) : ℝ := Real.exp (rowSoftmax q km c m) / colExpSum q km m

/-- The adaptive rate of slot `m`: half the mean of `S1` over the context axis. -/
def rate (m : Fin 4096) : ℝ := (1 / 2) * ((∑ c : Fin 8192, rowSoftmax q km c m) / 8192)

/-- The result: `rate · (Dcᵀ·q − km)` at `s = 0`, `rate · (Dcᵀ·o − vm)` at `s = 1`. -/
def grad (s : Fin 2) (m : Fin 4096) (d : Fin 64) : ℝ :=
  rate q km m * ((∑ c : Fin 8192, colSoftmax q km c m * (if s = 0 then q c d else o c d)) - (if s = 0 then km m d else vm m d))

/-- A real matrix as an array of extended reals. -/
def lift2 {a b : Nat} (x : Fin a → Fin b → ℝ) : Vec Ideal ⟨2, ![a, b]⟩ .f32 := fun i => ((x (i 0) (i 1) : ℝ) : EReal)

/-- The result as an array of extended reals. -/
def gradArr : Vec Ideal ⟨3, ![2, 4096, 64]⟩ .f32 := fun i => ((grad q o km vm (i 0) (i 1) (i 2) : ℝ) : EReal)

end Cert.Spec

end
-- ==== Proof.PassOne.lean ====
/-
  Pass 1: the column sums of `exp(S1)` and of `S1` over all 8192 context rows.

  One step adds, to a running row vector over the memory slots, the column sums over the tile's 256 rows of `exp(S1)`
  (or of `S1`). A core starts from zero and takes its 16 tiles in turn, so after step `j` it holds the sums over the
  rows of its tiles `0 … j`; the host adds the two cores' vectors. The 2 × 16 tiles of 256 rows are the 8192 rows, each
  once, so the totals are the sums over every context row.
-/
import proofs.«168828_j76141180223719_2_alg».proof.Proof.PassTile
import proofs.«168828_j76141180223719_2_alg».proof.Proof.Literals
import proofs.«168828_j76141180223719_2_alg».proof.Proof.LibColumnSum
import proofs.«168828_j76141180223719_2_alg».proof.Proof.LibBlockSum
import proofs.«168828_j76141180223719_2_alg».proof.Proof.Spec

noncomputable section

open scoped BigOperators

namespace Cert.KernelIdeal.PassValue

open Idealize.ShloMosaic Idealize.ShloMosaic.ValueIdx Idealize.ShloMosaic.ValueKeepdims Cert.KernelIdeal Cert.KernelIdeal.Gen
open Cert.KernelIdeal.Passes Cert.Spec Cert.Lib.ERealSum

section AnyInstance

variable {F : FTy → Type} [FloatOps F]

/-- The column sums of a tile-shaped matrix, as a row vector. -/
def colSumRow (E : FVec F S256x4096 .f32) : FVec F S1x4096 .f32 :=
  shapeCast S1x4096 (multiReduction .add [0] S4096 E 0x00000000#32 reduces_S256x4096_S4096 (.inl rfl) rfl) shapeCasts_S4096_S1x4096

theorem k0_pay7_eq (X : Vec F S256x64 .f32) (K : Vec F S4096x64 .f32) (acc : Vec F S1x4096 .f32) :
    k0_pay7 X K acc = shapeCast S1x4096 (addf acc (colSumRow (exp (mulf (k0_pay6 X K)
      (broadcast S256x4096 (Scalar.ofBits .f32 0x3F800000#32)))))) shapeCasts_S1x4096_S1x4096 := rfl

theorem k0_pay8_eq (X : Vec F S256x64 .f32) (K : Vec F S4096x64 .f32) (acc : Vec F S1x4096 .f32) :
    k0_pay8 X K acc = addf acc (colSumRow (k0_pay6 X K)) := rfl

theorem k0_pay1_eq (v : FVec F S1x4096 .f32) : k0_pay1 v = v := shapeCast_self v _

theorem k0_pay4_eq : k0_pay4 (F := F) = broadcast S1x4096 (Scalar.ofBits .f32 0x00000000#32) := shapeCast_self _ _

theorem k0_pay5_eq : k0_pay5 (F := F) = broadcast S1x4096 (Scalar.ofBits .f32 0x00000000#32) := shapeCast_self _ _

end AnyInstance

/-! ## One step at an entry -/

theorem colSumRow_apply (E : FVec Ideal S256x4096 .f32) (u : Fin 1) (m : Fin 4096) :
    colSumRow E (ix2 u m) = ∑ p : Fin 256, E (ix2 p m) :=
  (shapeCast_a_1a_apply _ _ u m).trans (colSum_at E _ _ _ m)

theorem k0_pay7_apply (X : FVec Ideal S256x64 .f32) (K : FVec Ideal S4096x64 .f32) (acc : FVec Ideal S1x4096 .f32)
    (u : Fin 1) (m : Fin 4096) :
    k0_pay7 (F := Ideal) X K acc (ix2 u m)
      = acc (ix2 u m) + ∑ p : Fin 256, Ideal.exp (k0_pay6 (F := Ideal) X K (ix2 p m) * Ideal.ofBits .f32 0x3F800000#32) := by
  rw [k0_pay7_eq, shapeCast_self]
  show acc (ix2 u m) + colSumRow _ (ix2 u m) = _
  rw [colSumRow_apply]
  rfl

theorem k0_pay8_apply (X : FVec Ideal S256x64 .f32) (K : FVec Ideal S4096x64 .f32) (acc : FVec Ideal S1x4096 .f32)
    (u : Fin 1) (m : Fin 4096) :
    k0_pay8 (F := Ideal) X K acc (ix2 u m) = acc (ix2 u m) + ∑ p : Fin 256, k0_pay6 (F := Ideal) X K (ix2 p m) := by
  rw [k0_pay8_eq]
  show acc (ix2 u m) + colSumRow _ (ix2 u m) = _
  rw [colSumRow_apply]

/-! ## The tiles of real matrices -/

/-- Row `p` of tile `b`. -/
def rowAt (b : Fin 32) (p : Fin 256) : Fin 8192 := ⟨b.val * 256 + p.val, by have := b.isLt; have := p.isLt; omega⟩

theorem tile_lift2 {n : ℕ} (x : Fin 8192 → Fin n → ℝ) (b : Fin 32) (p : Fin 256) (k : Fin n) :
    tile (F := Ideal) (lift2 x) b (ix2 p k) = ((x (rowAt b p) k : ℝ) : EReal) := rfl

/-- The tile payload of tile `b` of a real context is `S1` on the tile's rows. -/
theorem tileS1 (q : Fin 8192 → Fin 64 → ℝ) (km : Fin 4096 → Fin 64 → ℝ) (b : Fin 32) (p : Fin 256) (m : Fin 4096) :
    k0_pay6 (F := Ideal) (tile (lift2 q) b) (lift2 km) (ix2 p m) = ((rowSoftmax q km (rowAt b p) m : ℝ) : EReal) :=
  tileSoftmax_real _ _ (fun p k => q (rowAt b p) k) km (fun p k => tile_lift2 q b p k) (fun _ _ => rfl) p m

/-- The sum of `f` over the rows of tile `b`. -/
def tileSum (f : Fin 8192 → ℝ) (b : Fin 32) : ℝ := ∑ p : Fin 256, f (rowAt b p)

/-- The sum of `f` over the rows of core `c`'s tiles `0 … j`. -/
def partialSum (f : Fin 8192 → ℝ) (c : Fin 2) (j : ℕ) : ℝ := ∑ t ∈ Finset.range (j + 1), tileSum f (tileOf c t)

theorem step_exp (q : Fin 8192 → Fin 64 → ℝ) (km : Fin 4096 → Fin 64 → ℝ) (b : Fin 32) (acc : FVec Ideal S1x4096 .f32)
    (u : Fin 1) (m : Fin 4096) :
    k0_pay7 (F := Ideal) (tile (lift2 q) b) (lift2 km) acc (ix2 u m)
      = acc (ix2 u m) + ((tileSum (fun r => Real.exp (rowSoftmax q km r m)) b : ℝ) : EReal) := by
  rw [k0_pay7_apply]
  refine congrArg (acc (ix2 u m) + ·) ?_
  unfold tileSum
  rw [coe_sum]
  exact Finset.sum_congr rfl fun p _ => by rw [tileS1, Cert.Literals.ofBits_one, mul_one, Ideal.exp_coe]

theorem step_s1 (q : Fin 8192 → Fin 64 → ℝ) (km : Fin 4096 → Fin 64 → ℝ) (b : Fin 32) (acc : FVec Ideal S1x4096 .f32)
    (u : Fin 1) (m : Fin 4096) :
    k0_pay8 (F := Ideal) (tile (lift2 q) b) (lift2 km) acc (ix2 u m)
      = acc (ix2 u m) + ((tileSum (fun r => rowSoftmax q km r m) b : ℝ) : EReal) := by
  rw [k0_pay8_apply]
  refine congrArg (acc (ix2 u m) + ·) ?_
  unfold tileSum
  rw [coe_sum]
  exact Finset.sum_congr rfl fun p _ => tileS1 q km b p m

/-! ## The running sums -/

theorem zeroRow_apply (i : S1x4096.Idx) : broadcast S1x4096 (Scalar.ofBits (F := Ideal) .f32 0x00000000#32) i = 0 :=
  Ideal.ofBits_zero_f32

theorem expSums_apply (q : Fin 8192 → Fin 64 → ℝ) (km : Fin 4096 → Fin 64 → ℝ) (c : Fin 2) (u : Fin 1) (m : Fin 4096) :
    ∀ j : ℕ, expSums (F := Ideal) (lift2 q) (lift2 km) c j (ix2 u m)
      = ((partialSum (fun r => Real.exp (rowSoftmax q km r m)) c j : ℝ) : EReal)
  | 0 => by
    show k0_pay7 (F := Ideal) (tile (lift2 q) (tileOf c 0)) (lift2 km) (k0_pay4 (F := Ideal)) (ix2 u m) = _
    rw [step_exp, k0_pay4_eq, zeroRow_apply, zero_add]
    unfold partialSum
    rw [Finset.sum_range_one]
  | j + 1 => by
    show k0_pay7 (F := Ideal) (tile (lift2 q) (tileOf c (j + 1))) (lift2 km) (expSums (lift2 q) (lift2 km) c j) (ix2 u m) = _
    rw [step_exp, expSums_apply q km c u m j, ← EReal.coe_add]
    unfold partialSum
    rw [Finset.sum_range_succ _ (j + 1)]

theorem s1Sums_apply (q : Fin 8192 → Fin 64 → ℝ) (km : Fin 4096 → Fin 64 → ℝ) (c : Fin 2) (u : Fin 1) (m : Fin 4096) :
    ∀ j : ℕ, s1Sums (F := Ideal) (lift2 q) (lift2 km) c j (ix2 u m)
      = ((partialSum (fun r => rowSoftmax q km r m) c j : ℝ) : EReal)
  | 0 => by
    show k0_pay1 (k0_pay8 (F := Ideal) (tile (lift2 q) (tileOf c 0)) (lift2 km) (k0_pay5 (F := Ideal))) (ix2 u m) = _
    rw [k0_pay1_eq, step_s1, k0_pay5_eq, zeroRow_apply, zero_add]
    unfold partialSum
    rw [Finset.sum_range_one]
  | j + 1 => by
    show k0_pay1 (k0_pay8 (F := Ideal) (tile (lift2 q) (tileOf c (j + 1))) (lift2 km) (s1Sums (lift2 q) (lift2 km) c j)) (ix2 u m) = _
    rw [k0_pay1_eq, step_s1, s1Sums_apply q km c u m j, ← EReal.coe_add]
    unfold partialSum
    rw [Finset.sum_range_succ _ (j + 1)]

/-! ## The two cores added, and the rows regrouped -/

theorem addCores_apply (X : FVec Ideal S2x1x4096 .f32) (u : Fin 1) (m : Fin 4096) :
    addCores (F := Ideal) X (ix2 u m) = ∑ c : Fin 2, X (ix3 c u m) := by
  unfold addCores
  simp only [Host.reduceAdd, Ideal.hostReduceAdd_def]
  rw [Ideal.hostReduceAdd_single reducesTo_S2x1x4096_S1x4096_d0 (by decide)]
  show Ideal.ofBits .f32 0x00000000#32 + _ = _
  rw [Ideal.ofBits_zero_f32, zero_add]
  exact Finset.sum_congr rfl fun k _ => congrArg X (funext fun a => Fin.ext (by
    match a with | ⟨0, _⟩ => rfl | ⟨1, _⟩ => rfl | ⟨2, _⟩ => rfl))

theorem tileOf_lt (c : Fin 2) (t : Fin 16) : tileOf c t.val = (Cert.Lib.BlockSum.at_ (K := 2) (n := 16) c t : Fin 32) :=
  Fin.ext (Nat.mod_eq_of_lt (by have := c.isLt; have := t.isLt; omega))

/-- The two cores' sixteen tiles of 256 rows are the 8192 rows. -/
theorem sum_all_rows (f : Fin 8192 → ℝ) : ∑ c : Fin 2, partialSum f c 15 = ∑ r, f r := by
  have h1 : ∑ r : Fin 8192, f r = ∑ s : Fin 32, ∑ p : Fin 256, f (rowAt s p) :=
    Cert.Lib.BlockSum.sum_blocks 32 256 (fun i => f i)
  have h2 : ∑ s : Fin 32, tileSum f s = ∑ c : Fin 2, ∑ t : Fin 16, tileSum f (Cert.Lib.BlockSum.at_ (K := 2) (n := 16) c t) :=
    Cert.Lib.BlockSum.sum_blocks 2 16 (fun i => tileSum f i)
  rw [h1]
  refine Eq.trans ?_ h2.symm
  refine Finset.sum_congr rfl fun c _ => ?_
  unfold partialSum
  rw [Finset.sum_range]
  exact Finset.sum_congr rfl fun t _ => by rw [tileOf_lt]

theorem perCoreExp_apply (Q : FVec Ideal S8192x64 .f32) (Km : FVec Ideal S4096x64 .f32) (c : Fin 2) (u : Fin 1) (m : Fin 4096) :
    expSumsPerCore (F := Ideal) Q Km (ix3 c u m) = expSums Q Km c 15 (ix2 u m) := by
  show shapeCast S1x1x4096 (expSums (F := Ideal) Q Km c 15) shapeCasts_S1x4096_S1x1x4096 (ix3 (0 : Fin 1) u m) = _
  exact shapeCast_ab_1ab_apply _ _ 0 u m

theorem perCoreS1_apply (Q : FVec Ideal S8192x64 .f32) (Km : FVec Ideal S4096x64 .f32) (c : Fin 2) (u : Fin 1) (m : Fin 4096) :
    s1SumsPerCore (F := Ideal) Q Km (ix3 c u m) = s1Sums Q Km c 15 (ix2 u m) := by
  show shapeCast S1x1x4096 (s1Sums (F := Ideal) Q Km c 15) shapeCasts_S1x4096_S1x1x4096 (ix3 (0 : Fin 1) u m) = _
  exact shapeCast_ab_1ab_apply _ _ 0 u m

/-- Pass 1's first total: the normalizer of the softmax along the context axis. -/
theorem colExpSum_total (q : Fin 8192 → Fin 64 → ℝ) (km : Fin 4096 → Fin 64 → ℝ) (u : Fin 1) (m : Fin 4096) :
    addCores (F := Ideal) (expSumsPerCore (lift2 q) (lift2 km)) (ix2 u m) = ((colExpSum q km m : ℝ) : EReal) := by
  rw [addCores_apply]
  simp only [perCoreExp_apply, expSums_apply]
  rw [← coe_sum, sum_all_rows]
  rfl

/-- Pass 1's second total: the sum of `S1` over the context axis. -/
theorem s1_total (q : Fin 8192 → Fin 64 → ℝ) (km : Fin 4096 → Fin 64 → ℝ) (u : Fin 1) (m : Fin 4096) :
    addCores (F := Ideal) (s1SumsPerCore (lift2 q) (lift2 km)) (ix2 u m)
      = ((∑ c : Fin 8192, rowSoftmax q km c m : ℝ) : EReal) := by
  rw [addCores_apply]
  simp only [perCoreS1_apply, s1Sums_apply]
  rw [← coe_sum, sum_all_rows]

end Cert.KernelIdeal.PassValue

end
-- ==== Proof.PassTwo.lean ====
/-
  Pass 2: `Dcᵀ·[Q|O]` over all 8192 context rows.

  The two argument arrays are joined side by side (128 columns: the context's features, then the outputs'). One step
  recomputes `S1` on a tile from its first 64 columns, divides `exp(S1)` by the total column sums `cs` of pass 1 —
  these are the weights `Dc` of the tile's rows —, and adds to a running 4096×128 matrix the product of the weights,
  transposed, with the tile: at `(m, d)` the sum over the tile's rows `p` of `Dc p m · [Q|O] p d`. A core starts from
  zero and takes its 16 tiles in turn; the host adds the two cores' matrices; the tiles are the 8192 rows, each once.
-/
import proofs.«168828_j76141180223719_2_alg».proof.Proof.PassOne

noncomputable section

open scoped BigOperators

namespace Cert.KernelIdeal.PassValue

open Idealize.ShloMosaic Idealize.ShloMosaic.ValueIdx Idealize.ShloMosaic.ValueKeepdims Cert.KernelIdeal Cert.KernelIdeal.Gen
open Cert.KernelIdeal.Passes Cert.Spec Cert.Lib.ERealSum

section AnyInstance

variable {F : FTy → Type} [FloatOps F]

/-- The first 64 columns of a 128-column tile. -/
def tileLeft (X : Vec F S256x128 .f32) : FVec F S256x64 .f32 :=
  extractStridedSlice S256x64 ![0, 0] (shapeCast S256x128 X shapeCasts_S256x128_S256x128) slices_S256x128_o0_0_S256x64

/-- The tile's weights: `exp(S1)` over the total column sums. -/
def weights (X : Vec F S256x128 .f32) (K : Vec F S4096x64 .f32) (cs : Vec F S1x4096 .f32) : FVec F S256x4096 .f32 :=
  divf (exp (mulf (k0_pay6 (tileLeft X) K) (broadcast S256x4096 (Scalar.ofBits .f32 0x3F800000#32))))
    (broadcastTo S256x4096 (shapeCast S1x4096 cs shapeCasts_S1x4096_S1x4096) broadcasts_S1x4096_S256x4096)

theorem k1_pay3_eq (X : Vec F S256x128 .f32) (K : Vec F S4096x64 .f32) (cs : Vec F S1x4096 .f32) (acc : Vec F S4096x128 .f32) :
    k1_pay3 X K cs acc = shapeCast S4096x128 (addf acc (matmul dot_S256x4096_S256x128_S4096x128_0_0_1_1_n_n none
      (truncf .bf16 (weights X K cs) bitsLt_bf16_f32)
      (truncf .bf16 (shapeCast S256x128 X shapeCasts_S256x128_S256x128) bitsLt_bf16_f32)
      (constant S4096x128 .f32 0x00000000#32))) shapeCasts_S4096x128_S4096x128 := rfl

theorem k1_pay2_eq : k1_pay2 (F := F) = broadcast S4096x128 (Scalar.ofBits .f32 0x00000000#32) := shapeCast_self _ _

end AnyInstance

/-! ## The joined array -/

/-- `[q | o]` on real matrices. -/
def joinR (q o : Fin 8192 → Fin 64 → ℝ) (r : Fin 8192) (d : Fin 128) : ℝ :=
  if h : d.val < 64 then q r ⟨d.val, h⟩ else o r ⟨d.val - 64, by have := d.isLt; omega⟩

/-- Column `d` of the first half, among the 128 joined columns. -/
def leftCol (d : Fin 64) : Fin 128 := ⟨d.val, by have := d.isLt; omega⟩

/-- Column `d` of the second half, among the 128 joined columns. -/
def rightCol (d : Fin 64) : Fin 128 := ⟨d.val + 64, by have := d.isLt; omega⟩

/-- The joined array at a column of its first half. -/
theorem joined_left (Q O : FVec Ideal S8192x64 .f32) (r : Fin 8192) (d : Fin 64) :
    joined (F := Ideal) Q O (ix2 r (leftCol d)) = Q (ix2 r d) := by
  unfold joined
  exact concatenate_pair_apply_left (t := S8192x128) 1 Q O concatenates_S8192x64_S8192x64_S8192x128_d1 (ix2 r (leftCol d)) rfl
    (ix2 r d) (fun b => by match b with | ⟨0, _⟩ => rfl | ⟨1, _⟩ => rfl)

/-- The joined array at a column of its second half. -/
theorem joined_right (Q O : FVec Ideal S8192x64 .f32) (r : Fin 8192) (d : Fin 64) :
    joined (F := Ideal) Q O (ix2 r (rightCol d)) = O (ix2 r d) := by
  unfold joined
  exact concatenate_pair_apply_right (t := S8192x128) 1 Q O concatenates_S8192x64_S8192x64_S8192x128_d1 (ix2 r (rightCol d)) rfl rfl
    (ix2 r d) (fun b hb => by match b with | ⟨0, _⟩ => rfl | ⟨1, _⟩ => exact absurd rfl hb) rfl

theorem joined_lift2 (q o : Fin 8192 → Fin 64 → ℝ) (r : Fin 8192) (d : Fin 128) :
    joined (F := Ideal) (lift2 q) (lift2 o) (ix2 r d) = ((joinR q o r d : ℝ) : EReal) := by
  unfold joinR
  by_cases h : d.val < 64
  · rw [dif_pos h]
    exact joined_left (lift2 q) (lift2 o) r ⟨d.val, h⟩
  · rw [dif_neg h]
    have hd : d = rightCol ⟨d.val - 64, by have := d.isLt; omega⟩ :=
      Fin.ext (by show d.val = d.val - 64 + 64; omega)
    exact (congrArg (fun e => joined (F := Ideal) (lift2 q) (lift2 o) (ix2 r e)) hd).trans
      (joined_right (lift2 q) (lift2 o) r ⟨d.val - 64, by have := d.isLt; omega⟩)

/-! ## One step at an entry -/

theorem targetDot_lhs1 (i : S4096x128.Idx) (q : dot_S256x4096_S256x128_S4096x128_0_0_1_1_n_n.contr.Idx) :
    (dot_S256x4096_S256x128_S4096x128_0_0_1_1_n_n.lhsIdx i q 1).val = (i 0).val := by
  unfold DotDims.lhsIdx
  rw [dif_neg (show ¬(1 : Fin S256x4096.rank) ∈ dot_S256x4096_S256x128_S4096x128_0_0_1_1_n_n.lhsBatch by decide), dif_pos (show (1 : Fin S256x4096.rank) ∈ dot_S256x4096_S256x128_S4096x128_0_0_1_1_n_n.lhsNonContracting by decide)]
  rfl

theorem targetDot_rhs1 (i : S4096x128.Idx) (q : dot_S256x4096_S256x128_S4096x128_0_0_1_1_n_n.contr.Idx) :
    (dot_S256x4096_S256x128_S4096x128_0_0_1_1_n_n.rhsIdx i q 1).val = (i 1).val := by
  unfold DotDims.rhsIdx
  rw [dif_neg (show ¬(1 : Fin S256x128.rank) ∈ dot_S256x4096_S256x128_S4096x128_0_0_1_1_n_n.rhsBatch by decide), dif_pos (show (1 : Fin S256x128.rank) ∈ dot_S256x4096_S256x128_S4096x128_0_0_1_1_n_n.rhsNonContracting by decide)]
  rfl

theorem tileLeft_apply (X : FVec Ideal S256x128 .f32) (p : Fin 256) (k : Fin 64) :
    tileLeft X (ix2 p k) = X (ix2 p (leftCol k)) := by
  unfold tileLeft
  rw [shapeCast_self]
  exact slice2_axis1_apply 0 X _ p k _ (Nat.zero_add _).symm

theorem weights_apply (X : FVec Ideal S256x128 .f32) (K : FVec Ideal S4096x64 .f32) (cs : FVec Ideal S1x4096 .f32)
    (p : Fin 256) (m : Fin 4096) :
    weights (F := Ideal) X K cs (ix2 p m)
      = Ideal.div (Ideal.exp (k0_pay6 (F := Ideal) (tileLeft (F := Ideal) X) K (ix2 p m) * Ideal.ofBits .f32 0x3F800000#32)) (cs (ix2 (0 : Fin 1) m)) := by
  unfold weights
  rw [shapeCast_self]
  show Ideal.div (Ideal.exp (_ * _)) (broadcastTo S256x4096 cs broadcasts_S1x4096_S256x4096 (ix2 p m)) = _
  rw [broadcastTo_1b_ab_apply]
  rfl

/-- One step of pass 2 at `(m, d)`: the running value plus the sum over the tile's rows of weight times entry. -/
theorem k1_pay3_apply (X : FVec Ideal S256x128 .f32) (K : FVec Ideal S4096x64 .f32) (cs : FVec Ideal S1x4096 .f32)
    (acc : FVec Ideal S4096x128 .f32) (m : Fin 4096) (d : Fin 128) :
    k1_pay3 (F := Ideal) X K cs acc (ix2 m d) = acc (ix2 m d) + ∑ p : Fin 256, weights (F := Ideal) X K cs (ix2 p m) * X (ix2 p d) := by
  rw [k1_pay3_eq, shapeCast_self, shapeCast_self]
  show acc (ix2 m d) + FloatOps.matmul dot_S256x4096_S256x128_S4096x128_0_0_1_1_n_n none _ _ (constant S4096x128 .f32 0x00000000#32) (ix2 m d) = _
  rw [Ideal.matmul_constant_zero_apply, ← Equiv.sum_comp (contrEquiv1 dot_S256x4096_S256x128_S4096x128_0_0_1_1_n_n 256 rfl rfl).symm]
  refine congrArg (acc (ix2 m d) + ·) (Finset.sum_congr rfl fun p _ => ?_)
  have hk := contrEquiv1_symm_val dot_S256x4096_S256x128_S4096x128_0_0_1_1_n_n 256 rfl rfl p
  have el : dot_S256x4096_S256x128_S4096x128_0_0_1_1_n_n.lhsIdx (ix2 m d) ((contrEquiv1 dot_S256x4096_S256x128_S4096x128_0_0_1_1_n_n 256 rfl rfl).symm p) = ix2 p m := funext fun a => Fin.ext (by
    match a with
    | ⟨0, _⟩ => exact (dot_S256x4096_S256x128_S4096x128_0_0_1_1_n_n.lhsIdx_val_of_single rfl _ _).trans hk
    | ⟨1, _⟩ => exact targetDot_lhs1 _ _)
  have er : dot_S256x4096_S256x128_S4096x128_0_0_1_1_n_n.rhsIdx (ix2 m d) ((contrEquiv1 dot_S256x4096_S256x128_S4096x128_0_0_1_1_n_n 256 rfl rfl).symm p) = ix2 p d := funext fun a => Fin.ext (by
    match a with
    | ⟨0, _⟩ => exact (dot_S256x4096_S256x128_S4096x128_0_0_1_1_n_n.rhsIdx_val_of_single rfl _ _).trans hk
    | ⟨1, _⟩ => exact targetDot_rhs1 _ _)
  rw [el, er]
  rfl

/-! ## On real matrices -/

theorem tileJoined (q o : Fin 8192 → Fin 64 → ℝ) (b : Fin 32) (p : Fin 256) (d : Fin 128) :
    tile (F := Ideal) (joined (lift2 q) (lift2 o)) b (ix2 p d) = ((joinR q o (rowAt b p) d : ℝ) : EReal) :=
  joined_lift2 q o (rowAt b p) d

theorem tileLeftJoined (q o : Fin 8192 → Fin 64 → ℝ) (b : Fin 32) (p : Fin 256) (k : Fin 64) :
    tileLeft (tile (F := Ideal) (joined (lift2 q) (lift2 o)) b) (ix2 p k) = ((q (rowAt b p) k : ℝ) : EReal) := by
  rw [tileLeft_apply]
  exact joined_left (lift2 q) (lift2 o) (rowAt b p) k

/-- The weights of tile `b`: `Dc` on the tile's rows, when `cs` holds the normalizers. -/
theorem weights_real (q o : Fin 8192 → Fin 64 → ℝ) (km : Fin 4096 → Fin 64 → ℝ) (cs : FVec Ideal S1x4096 .f32)
    (hcs : ∀ (u : Fin 1) (m : Fin 4096), cs (ix2 u m) = ((colExpSum q km m : ℝ) : EReal)) (b : Fin 32) (p : Fin 256) (m : Fin 4096) :
    weights (F := Ideal) (tile (joined (lift2 q) (lift2 o)) b) (lift2 km) cs (ix2 p m)
      = ((colSoftmax q km (rowAt b p) m : ℝ) : EReal) := by
  rw [weights_apply, hcs,
    tileSoftmax_real _ _ (fun p k => q (rowAt b p) k) km (fun p k => tileLeftJoined q o b p k) (fun _ _ => rfl) p m,
    Cert.Literals.ofBits_one, mul_one, Ideal.exp_coe]
  exact div_coe_coe _ _ (sum_exp_ne_zero fun c : Fin 8192 => rowSoftmax q km c m)

theorem step_target (q o : Fin 8192 → Fin 64 → ℝ) (km : Fin 4096 → Fin 64 → ℝ) (cs : FVec Ideal S1x4096 .f32)
    (hcs : ∀ (u : Fin 1) (m : Fin 4096), cs (ix2 u m) = ((colExpSum q km m : ℝ) : EReal)) (b : Fin 32)
    (acc : FVec Ideal S4096x128 .f32) (m : Fin 4096) (d : Fin 128) :
    k1_pay3 (F := Ideal) (tile (joined (lift2 q) (lift2 o)) b) (lift2 km) cs acc (ix2 m d)
      = acc (ix2 m d) + ((tileSum (fun r => colSoftmax q km r m * joinR q o r d) b : ℝ) : EReal) := by
  rw [k1_pay3_apply]
  refine congrArg (acc (ix2 m d) + ·) ?_
  unfold tileSum
  rw [coe_sum]
  exact Finset.sum_congr rfl fun p _ => by rw [weights_real q o km cs hcs, tileJoined, EReal.coe_mul]

theorem zeroMat_apply (i : S4096x128.Idx) : broadcast S4096x128 (Scalar.ofBits (F := Ideal) .f32 0x00000000#32) i = 0 :=
  Cert.Literals.ofBits_zero

theorem targetSums_apply (q o : Fin 8192 → Fin 64 → ℝ) (km : Fin 4096 → Fin 64 → ℝ) (cs : FVec Ideal S1x4096 .f32)
    (hcs : ∀ (u : Fin 1) (m : Fin 4096), cs (ix2 u m) = ((colExpSum q km m : ℝ) : EReal)) (c : Fin 2) (m : Fin 4096) (d : Fin 128) :
    ∀ j : ℕ, targetSums (F := Ideal) (joined (lift2 q) (lift2 o)) (lift2 km) cs c j (ix2 m d)
      = ((partialSum (fun r => colSoftmax q km r m * joinR q o r d) c j : ℝ) : EReal)
  | 0 => by
    show k1_pay3 (F := Ideal) (tile (joined (lift2 q) (lift2 o)) (tileOf c 0)) (lift2 km) cs (k1_pay2 (F := Ideal)) (ix2 m d) = _
    rw [step_target q o km cs hcs, k1_pay2_eq, zeroMat_apply, zero_add]
    unfold partialSum
    rw [Finset.sum_range_one]
  | j + 1 => by
    show k1_pay3 (F := Ideal) (tile (joined (lift2 q) (lift2 o)) (tileOf c (j + 1))) (lift2 km) cs
      (targetSums (joined (lift2 q) (lift2 o)) (lift2 km) cs c j) (ix2 m d) = _
    rw [step_target q o km cs hcs, targetSums_apply q o km cs hcs c m d j, ← EReal.coe_add]
    unfold partialSum
    rw [Finset.sum_range_succ _ (j + 1)]

theorem perCoreTarget_apply (QO : FVec Ideal S8192x128 .f32) (Km : FVec Ideal S4096x64 .f32) (cs : FVec Ideal S1x4096 .f32)
    (c : Fin 2) (m : Fin 4096) (d : Fin 128) :
    targetsPerCore (F := Ideal) QO Km cs (ix3 c m d) = targetSums QO Km cs c 15 (ix2 m d) := by
  show shapeCast S1x4096x128 (targetSums (F := Ideal) QO Km cs c 15) shapeCasts_S4096x128_S1x4096x128 (ix3 (0 : Fin 1) m d) = _
  exact shapeCast_ab_1ab_apply _ _ 0 m d

/-- The host's sum of the two cores' matrices at `(m, d)`. -/
theorem addCoreMats_apply (T : FVec Ideal S2x4096x128 .f32) (m : Fin 4096) (d : Fin 128) :
    Host.reduceAdd (F := Ideal) T (constant (F := Ideal) S_ .f32 0x00000000#32) reducesTo_S2x4096x128_S4096x128_d0 h_S_ (ix2 m d)
      = ∑ c : Fin 2, T (ix3 c m d) := by
  simp only [Host.reduceAdd, Ideal.hostReduceAdd_def]
  rw [Ideal.hostReduceAdd_single reducesTo_S2x4096x128_S4096x128_d0 (by decide)]
  show Ideal.ofBits .f32 0x00000000#32 + _ = _
  rw [Cert.Literals.ofBits_zero, zero_add]
  exact Finset.sum_congr rfl fun k _ => congrArg T (funext fun a => Fin.ext (by
    match a with | ⟨0, _⟩ => rfl | ⟨1, _⟩ => rfl | ⟨2, _⟩ => rfl))

/-- Pass 2's total at `(m, d)`: the sum over every context row of `Dc` times the joined entry. -/
theorem target_total (q o : Fin 8192 → Fin 64 → ℝ) (km : Fin 4096 → Fin 64 → ℝ) (cs : FVec Ideal S1x4096 .f32)
    (hcs : ∀ (u : Fin 1) (m : Fin 4096), cs (ix2 u m) = ((colExpSum q km m : ℝ) : EReal)) (m : Fin 4096) (d : Fin 128) :
    Host.reduceAdd (F := Ideal) (targetsPerCore (F := Ideal) (joined (lift2 q) (lift2 o)) (lift2 km) cs)
        (constant (F := Ideal) S_ .f32 0x00000000#32) reducesTo_S2x4096x128_S4096x128_d0 h_S_ (ix2 m d)
      = ((∑ r : Fin 8192, colSoftmax q km r m * joinR q o r d : ℝ) : EReal) := by
  rw [addCoreMats_apply]
  simp only [perCoreTarget_apply, targetSums_apply q o km cs hcs]
  rw [← coe_sum, sum_all_rows]

end Cert.KernelIdeal.PassValue

end
-- ==== Proof.PassResult.lean ====
/-
  The epilogue, and the whole result.

  The host adds the two cores' matrices, takes the first 64 columns (the `Q` half: `Dcᵀ·q`) and the last 64 (the `O`
  half: `Dcᵀ·o`), forms the rate of each slot — one half of the total of `S1` over the 8192 context rows divided by
  8192 —, scales `target − memory` row by row, and stacks the two products. Everything is a real number, so the
  products and differences are those of the reals, and the result is the specification's gradient pair.
-/
import proofs.«168828_j76141180223719_2_alg».proof.Proof.PassTwo

noncomputable section

open scoped BigOperators

namespace Cert.KernelIdeal.PassValue

open Idealize.ShloMosaic Idealize.ShloMosaic.ValueIdx Idealize.ShloMosaic.ValueKeepdims Cert.KernelIdeal Cert.KernelIdeal.Gen
open Cert.KernelIdeal.Passes Cert.Spec Cert.Lib.ERealSum

section AnyInstance

variable {F : FTy → Type} [FloatOps F]

/-- The slots' rates as the host computes them: one half times (the total of `S1` over 8192). -/
def rateVec (s1tot : Vec F S1x4096 .f32) : FVec F S4096 .f32 :=
  mulf (broadcastInDim S4096 ![] bcast_S_S4096 (constant S_ .f32 0x3F000000#32))
    (Host.divf (shapeCast S4096 s1tot shapeCasts_S1x4096_S4096)
      (broadcastInDim S4096 ![] bcast_S_S4096 (constant S_ .f32 0x46000000#32)))

/-- `rate · (target − memory)`, row by row, with a leading unit axis. -/
def scaled (r : FVec F S4096 .f32) (A M : FVec F S4096x64 .f32) : FVec F S1x4096x64 .f32 :=
  broadcastInDim S1x4096x64 ![1, 2] bcast_S4096x64_S1x4096x64_1_2
    (mulf (broadcastInDim S4096x64 ![0, 1] bcast_S4096x1_S4096x64_0_1 (broadcastInDim S4096x1 ![0] bcast_S4096_S4096x1_0 r))
      (subf A M))

/-- The sum of the two cores' matrices. -/
def coreSum (T : Vec F S2x4096x128 .f32) : FVec F S4096x128 .f32 :=
  Host.reduceAdd T (constant S_ .f32 0x00000000#32) reducesTo_S2x4096x128_S4096x128_d0 h_S_

theorem epilogue_eq (T : Vec F S2x4096x128 .f32) (s1tot : Vec F S1x4096 .f32) (Km Vm : Vec F S4096x64 .f32) :
    epilogue T s1tot Km Vm = concatenate S2x4096x64 0
      [⟨S1x4096x64, scaled (rateVec s1tot) (extractStridedSlice S4096x64 ![0, 0] (coreSum T) slices_S4096x128_S4096x64_0_0) Km⟩,
       ⟨S1x4096x64, scaled (rateVec s1tot) (extractStridedSlice S4096x64 ![0, 64] (coreSum T) slices_S4096x128_S4096x64_0_64) Vm⟩]
      concatenates_S1x4096x64_S1x4096x64_S2x4096x64_d0 := rfl

end AnyInstance

/-! ## The epilogue at an entry -/

theorem rateVec_apply (s1tot : FVec Ideal S1x4096 .f32) (m : Fin 4096) :
    rateVec (F := Ideal) s1tot (ix1 m)
      = Ideal.ofBits .f32 0x3F000000#32 * Ideal.div (s1tot (ix2 (0 : Fin 1) m)) (Ideal.ofBits .f32 0x46000000#32) := by
  unfold rateVec
  show Ideal.ofBits .f32 0x3F000000#32 * Ideal.div (shapeCast S4096 s1tot shapeCasts_S1x4096_S4096 (ix1 m)) (Ideal.ofBits .f32 0x46000000#32) = _
  rw [shapeCast_1a_a_apply]

theorem scaled_apply (r : FVec Ideal S4096 .f32) (A M : FVec Ideal S4096x64 .f32) (u : Fin 1) (m : Fin 4096) (d : Fin 64) :
    scaled (F := Ideal) r A M (ix3 u m d) = r (ix1 m) * (A (ix2 m d) - M (ix2 m d)) := by
  unfold scaled
  refine (broadcastInDim_apply _ _ _ (ix3 u m d) (ix2 m d) (fun a => ?_)).trans ?_
  · match a with
    | ⟨0, _⟩ => show m.val = if (4096 : ℕ) = 1 then 0 else m.val; rw [if_neg (by decide)]
    | ⟨1, _⟩ => show d.val = if (64 : ℕ) = 1 then 0 else d.val; rw [if_neg (by decide)]
  · show broadcastInDim S4096x64 ![0, 1] bcast_S4096x1_S4096x64_0_1 (broadcastInDim S4096x1 ![0] bcast_S4096_S4096x1_0 r) (ix2 m d)
        * (A (ix2 m d) - M (ix2 m d)) = _
    refine congrArg (· * _) ?_
    refine (broadcastInDim_apply _ _ _ (ix2 m d) (ix2 m (0 : Fin 1)) (fun a => ?_)).trans ?_
    · match a with
      | ⟨0, _⟩ => show m.val = if (4096 : ℕ) = 1 then 0 else m.val; rw [if_neg (by decide)]
      | ⟨1, _⟩ => show (0 : ℕ) = if (1 : ℕ) = 1 then 0 else d.val; rw [if_pos rfl]
    · exact broadcastInDim_apply _ _ _ (ix2 m (0 : Fin 1)) (ix1 m) (fun a => by
        match a with
        | ⟨0, _⟩ => show m.val = if (4096 : ℕ) = 1 then 0 else m.val; rw [if_neg (by decide)])

/-- The first of the two stacked gradients. -/
theorem epilogue_apply_zero (T : FVec Ideal S2x4096x128 .f32) (s1tot : FVec Ideal S1x4096 .f32) (Km Vm : FVec Ideal S4096x64 .f32)
    (m : Fin 4096) (d : Fin 64) :
    epilogue (F := Ideal) T s1tot Km Vm (ix3 (0 : Fin 2) m d)
      = rateVec (F := Ideal) s1tot (ix1 m) * (coreSum (F := Ideal) T (ix2 m (leftCol d)) - Km (ix2 m d)) := by
  rw [epilogue_eq]
  refine (concatenate_pair_apply_left (t := S2x4096x64) 0 _ _ concatenates_S1x4096x64_S1x4096x64_S2x4096x64_d0
    (ix3 (0 : Fin 2) m d) rfl (ix3 (0 : Fin 1) m d) (fun b => by
      match b with | ⟨0, _⟩ => rfl | ⟨1, _⟩ => rfl | ⟨2, _⟩ => rfl)).trans ?_
  rw [scaled_apply]
  exact congrArg (fun z => rateVec (F := Ideal) s1tot (ix1 m) * (z - Km (ix2 m d)))
    (slice2_axis1_apply 0 (coreSum (F := Ideal) T) slices_S4096x128_S4096x64_0_0 m d (leftCol d) (Nat.zero_add _).symm)

/-- The second of the two stacked gradients. -/
theorem epilogue_apply_one (T : FVec Ideal S2x4096x128 .f32) (s1tot : FVec Ideal S1x4096 .f32) (Km Vm : FVec Ideal S4096x64 .f32)
    (m : Fin 4096) (d : Fin 64) :
    epilogue (F := Ideal) T s1tot Km Vm (ix3 (1 : Fin 2) m d)
      = rateVec (F := Ideal) s1tot (ix1 m) * (coreSum (F := Ideal) T (ix2 m (rightCol d)) - Vm (ix2 m d)) := by
  rw [epilogue_eq]
  refine (concatenate_pair_apply_right (t := S2x4096x64) 0 _ _ concatenates_S1x4096x64_S1x4096x64_S2x4096x64_d0
    (ix3 (1 : Fin 2) m d) rfl rfl (ix3 (0 : Fin 1) m d) (fun b hb => by
      match b with | ⟨0, _⟩ => exact absurd rfl hb | ⟨1, _⟩ => rfl | ⟨2, _⟩ => rfl) rfl).trans ?_
  rw [scaled_apply]
  exact congrArg (fun z => rateVec (F := Ideal) s1tot (ix1 m) * (z - Vm (ix2 m d)))
    (slice2_axis1_apply 64 (coreSum (F := Ideal) T) slices_S4096x128_S4096x64_0_64 m d (rightCol d) (Nat.add_comm _ _))

/-! ## On real matrices -/

theorem joinR_left (q o : Fin 8192 → Fin 64 → ℝ) (r : Fin 8192) (d : Fin 64) : joinR q o r (leftCol d) = q r d := by
  unfold joinR
  rw [dif_pos (show (leftCol d).val < 64 from d.isLt)]
  rfl

theorem joinR_right (q o : Fin 8192 → Fin 64 → ℝ) (r : Fin 8192) (d : Fin 64) : joinR q o r (rightCol d) = o r d := by
  unfold joinR
  rw [dif_neg (show ¬(rightCol d).val < 64 from Nat.not_lt.2 (Nat.le_add_left _ _))]
  exact congrArg (o r) (Fin.ext (show d.val + 64 - 64 = d.val by omega))

/-- The rate on real matrices. -/
theorem rate_real (q : Fin 8192 → Fin 64 → ℝ) (km : Fin 4096 → Fin 64 → ℝ) (m : Fin 4096) :
    rateVec (F := Ideal) (addCores (s1SumsPerCore (lift2 q) (lift2 km))) (ix1 m) = ((rate q km m : ℝ) : EReal) := by
  rw [rateVec_apply, s1_total, Cert.Literals.ofBits_half, Cert.Literals.ofBits_8192,
    div_coe_coe _ _ (by norm_num), ← EReal.coe_mul]
  rfl

/-- The kernel's passes, on real arguments, compute the specification. -/
theorem result_eq_spec (q o : Fin 8192 → Fin 64 → ℝ) (km vm : Fin 4096 → Fin 64 → ℝ) :
    result (F := Ideal) (lift2 q) (lift2 o) (lift2 km) (lift2 vm) = gradArr q o km vm := by
  have hcs : ∀ (u : Fin 1) (m : Fin 4096),
      addCores (F := Ideal) (expSumsPerCore (lift2 q) (lift2 km)) (ix2 u m) = ((colExpSum q km m : ℝ) : EReal) :=
    fun u m => colExpSum_total q km u m
  have key : ∀ (s : Fin 2) (m : Fin 4096) (d : Fin 64),
      result (F := Ideal) (lift2 q) (lift2 o) (lift2 km) (lift2 vm) (ix3 s m d) = ((grad q o km vm s m d : ℝ) : EReal) := by
    intro s m d
    unfold result
    match s with
    | ⟨0, _⟩ =>
      refine (epilogue_apply_zero _ _ _ _ m d).trans ?_
      rw [rate_real]
      show _ * (Host.reduceAdd (F := Ideal) _ (constant (F := Ideal) S_ .f32 0x00000000#32) reducesTo_S2x4096x128_S4096x128_d0 h_S_
        (ix2 m (leftCol d)) - ((km m d : ℝ) : EReal)) = _
      rw [target_total q o km _ hcs, ← EReal.coe_sub, ← EReal.coe_mul]
      refine congrArg _ ?_
      unfold grad
      simp only [joinR_left]
      rfl
    | ⟨1, _⟩ =>
      refine (epilogue_apply_one _ _ _ _ m d).trans ?_
      rw [rate_real]
      show _ * (Host.reduceAdd (F := Ideal) _ (constant (F := Ideal) S_ .f32 0x00000000#32) reducesTo_S2x4096x128_S4096x128_d0 h_S_
        (ix2 m (rightCol d)) - ((vm m d : ℝ) : EReal)) = _
      rw [target_total q o km _ hcs, ← EReal.coe_sub, ← EReal.coe_mul]
      refine congrArg _ ?_
      unfold grad
      simp only [joinR_right]
      rfl
  funext i
  rw [eq_ix3 i]
  exact key _ _ _

end Cert.KernelIdeal.PassValue

end
-- ==== Proof.FiniteArgs.lean ====
/-
  The precondition "every input is finite", read as: the four argument arrays are real matrices.

  The precondition tests each argument `x` by `all (|x| < +inf)` and takes the conjunction of the four bits. When
  that bit is 1 each of the four reductions by `and` is 1, so each elementwise test is 1 at every entry, so every
  entry is a real number; choosing those reals gives the four real matrices.
-/
import proofs.«168828_j76141180223719_2_alg».proof.Pre_finite_inputs
import proofs.«168828_j76141180223719_2_alg».proof.Proof.Gen.Pre_finite_inputs
import proofs.«168828_j76141180223719_2_alg».proof.Proof.Spec
import proofs.«168828_j76141180223719_2_alg».proof.Proof.LibFiniteEntry
import Idealize.ShloMosaic.Lib.ReduceAll
import Idealize.ShloMosaic.Lib.ValueIdx

noncomputable section

namespace Cert.FiniteArgs

open Idealize.ShloMosaic Idealize.ShloMosaic.ValueIdx Cert.Lib.FiniteEntry

/-- An array of extended reals all of whose entries are real numbers is a real matrix. -/
theorem eq_lift2_of_entries_real {a b : Nat} (X : Vec Ideal ⟨2, ![a, b]⟩ .f32)
    (h : ∀ i, ∃ r : ℝ, X i = (r : EReal)) : ∃ x : Fin a → Fin b → ℝ, X = Cert.Spec.lift2 x := by
  choose f hf using h
  refine ⟨fun p q => f (ix2 p q), funext fun i => ?_⟩
  rw [hf i]
  exact congrArg (fun j => ((f j : ℝ) : EReal)) (eq_ix2 i)

/-- Under the finiteness precondition the four arguments are real matrices. -/
theorem real_of_pre [Cert.Pre_finite_inputs.Facts] (Q O : Vec Ideal ⟨2, ![8192, 64]⟩ .f32)
    (Km Vm : Vec Ideal ⟨2, ![4096, 64]⟩ .f32)
    (h : Cert.Pre_finite_inputs.fn (F := Ideal) Q O Km Vm = fun _ => 1#1) :
    ∃ (q o : Fin 8192 → Fin 64 → ℝ) (km vm : Fin 4096 → Fin 64 → ℝ),
      Q = Cert.Spec.lift2 q ∧ O = Cert.Spec.lift2 o ∧ Km = Cert.Spec.lift2 km ∧ Vm = Cert.Spec.lift2 vm := by
  have h0 := congrFun h ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  obtain ⟨q, hq⟩ := eq_lift2_of_entries_real Q fun i =>
    entry_real _ Q i (Host.reduce_andi_all _ _ _ _ _ h1 i)
  obtain ⟨o, ho⟩ := eq_lift2_of_entries_real O fun i =>
    entry_real _ O i (Host.reduce_andi_all _ _ _ _ _ h2 i)
  obtain ⟨km, hkm⟩ := eq_lift2_of_entries_real Km fun i =>
    entry_real _ Km i (Host.reduce_andi_all _ _ _ _ _ h3 i)
  obtain ⟨vm, hvm⟩ := eq_lift2_of_entries_real Vm fun i =>
    entry_real _ Vm i (Host.reduce_andi_all _ _ _ _ _ h4 i)
  exact ⟨q, o, km, vm, hq, ho, hkm, hvm⟩

end Cert.FiniteArgs

end
-- ==== Proof.RefLaws.lean ====
/-
  Laws on the reals and the extended reals behind the reference's three softmaxes.

  A softmax as it is computed subtracts a shift `t` (the running maximum) before the exponential:
  `exp (a i - t) / Σ j, exp (a j - t)`. On the reals the shift cancels, `exp (a i) / Σ j, exp (a j)`, whatever `t` is;
  so all that is needed of the maximum is that it is a real number, and the maximum from −∞ of finitely many (at least
  one) reals is one of them. The other facts move the embedding of the reals into the extended reals through a sum, a
  quotient by a nonzero real and an exponential. (The float constants' values are in the module of literals.)
-/
import Idealize.ShloMosaic.PureOps.Ideal.Laws
import proofs.«168828_j76141180223719_2_alg».proof.Proof.Literals

noncomputable section

open scoped BigOperators

namespace Cert.ReferenceIdeal.RefValue

open Idealize.ShloMosaic

/-- The shift of a softmax cancels: for any real `t`, `exp (a i - t) / Σ j, exp (a j - t) = exp (a i) / Σ j, exp (a j)`. -/
theorem softmax_shift {ι : Type*} [Fintype ι] (a : ι → ℝ) (t : ℝ) (i : ι) :
    Real.exp (a i - t) / ∑ j, Real.exp (a j - t) = Real.exp (a i) / ∑ j, Real.exp (a j) := by
  have ht : Real.exp t ≠ 0 := (Real.exp_pos t).ne'
  simp only [Real.exp_sub, ← Finset.sum_div]
  rw [div_div_div_cancel_right₀ ht]

/-- A sum of exponentials over a nonempty index type is positive, hence not zero. -/
theorem sum_exp_ne_zero {ι : Type*} [Fintype ι] [Nonempty ι] (a : ι → ℝ) : (∑ j, Real.exp (a j)) ≠ 0 :=
  (Finset.sum_pos (fun j _ => Real.exp_pos (a j)) Finset.univ_nonempty).ne'

/-- The embedding of the reals commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum, from −∞, of finitely many (at least one) reals is a real. -/
theorem fold_max_bot_coe {ι : Type*} [Fintype ι] [Nonempty ι] (f : ι → ℝ) :
    ∃ t : ℝ, Finset.fold max (⊥ : EReal) (fun k => ((f k : ℝ) : EReal)) Finset.univ = (t : EReal) := by
  obtain ⟨i, -, hi⟩ := Finset.exists_mem_eq_sup (Finset.univ : Finset ι) Finset.univ_nonempty
    (fun k => ((f k : ℝ) : EReal))
  exact ⟨f i, hi⟩

/-- The quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul, mul_one_div]

end Cert.ReferenceIdeal.RefValue

end
-- ==== Proof.RefReduce.lean ====
/-
  The two maxima of the reference, as real numbers.

  A reduction of an 8192×4096 array by a maximum from −∞, along the memory axis (one value per context row) or along the
  context axis (one value per memory slot), folds `max` over the coordinates of the reduced axis. When every entry of
  the array is a real number, so is each such maximum: it is one of the entries. Nothing more is needed of a softmax's
  shift. Also here: the maximum of −∞ and `x` is `x`.
-/
import Idealize.ShloMosaic.Lib.ValueIdx
import Idealize.ShloMosaic.PureOps.Ideal.Laws
import proofs.«168828_j76141180223719_2_alg».proof.Proof.RefLaws

noncomputable section

open scoped BigOperators

namespace Cert.ReferenceIdeal.RefValue

open Idealize.ShloMosaic Idealize.ShloMosaic.ValueIdx

/-- Row `c` with column `k` put back on the reduced (second) axis is the entry `(c, k)`. -/
theorem lift_row (h : (⟨2, ![8192, 4096]⟩ : Shape).Reduces [1] (⟨1, ![8192]⟩ : Shape)) (c : Fin 8192) (k : Fin 4096) :
    h.lift (ix1 c) k = ix2 c k := by
  funext a; apply Fin.ext
  match a with
  | ⟨0, _⟩ => rfl
  | ⟨1, _⟩ => rfl

/-- Column `m` with row `k` put back on the reduced (first) axis is the entry `(k, m)`. -/
theorem lift_col (h : (⟨2, ![8192, 4096]⟩ : Shape).Reduces [0] (⟨1, ![4096]⟩ : Shape)) (m : Fin 4096) (k : Fin 8192) :
    h.lift (ix1 m) k = ix2 k m := by
  funext a; apply Fin.ext
  match a with
  | ⟨0, _⟩ => rfl
  | ⟨1, _⟩ => rfl

/-- The maximum along the memory axis, from −∞, of an array of reals is a real at every context row. -/
theorem rowMax_real (x : FVec Ideal ⟨2, ![8192, 4096]⟩ .f32) (init : FVec Ideal ⟨0, ![]⟩ .f32)
    (h' : (⟨2, ![8192, 4096]⟩ : Shape).ReducesTo [1] (⟨1, ![8192]⟩ : Shape)) (hu : 0 < (⟨0, ![]⟩ : Shape).numel)
    (hinit : init (Shape.Idx.first hu) = (⊥ : EReal))
    (f : Fin 8192 → Fin 4096 → ℝ) (hx : ∀ c m, x (ix2 c m) = ((f c m : ℝ) : EReal)) (c : Fin 8192) :
    ∃ t : ℝ, Host.reduce (FloatOps.maximumf (F := Ideal) (φ := .f32)) x init h' hu (ix1 c) = (t : EReal) := by
  obtain ⟨t, ht⟩ := fold_max_bot_coe (fun m : Fin 4096 => f c m)
  refine ⟨t, ?_⟩
  have h : (⟨2, ![8192, 4096]⟩ : Shape).Reduces [1] (⟨1, ![8192]⟩ : Shape) := by decide
  rw [Host.reduce_eq_fold_single (FloatOps.maximumf (F := Ideal) (φ := .f32)) x init h' h hu, hinit]
  have hf : (x ∘ h.lift (ix1 c)) = fun m : Fin 4096 => ((f c m : ℝ) : EReal) :=
    funext fun m => (congrArg x (lift_row h c m)).trans (hx c m)
  exact (congrArg (fun g => Finset.fold max (⊥ : EReal) g (Finset.univ : Finset (Fin 4096))) hf).trans ht

/-- The maximum along the context axis, from −∞, of an array of reals is a real at every memory slot. -/
theorem colMax_real (x : FVec Ideal ⟨2, ![8192, 4096]⟩ .f32) (init : FVec Ideal ⟨0, ![]⟩ .f32)
    (h' : (⟨2, ![8192, 4096]⟩ : Shape).ReducesTo [0] (⟨1, ![4096]⟩ : Shape)) (hu : 0 < (⟨0, ![]⟩ : Shape).numel)
    (hinit : init (Shape.Idx.first hu) = (⊥ : EReal))
    (f : Fin 8192 → Fin 4096 → ℝ) (hx : ∀ c m, x (ix2 c m) = ((f c m : ℝ) : EReal)) (m : Fin 4096) :
    ∃ t : ℝ, Host.reduce (FloatOps.maximumf (F := Ideal) (φ := .f32)) x init h' hu (ix1 m) = (t : EReal) := by
  obtain ⟨t, ht⟩ := fold_max_bot_coe (fun c : Fin 8192 => f c m)
  refine ⟨t, ?_⟩
  have h : (⟨2, ![8192, 4096]⟩ : Shape).Reduces [0] (⟨1, ![4096]⟩ : Shape) := by decide
  rw [Host.reduce_eq_fold_single (FloatOps.maximumf (F := Ideal) (φ := .f32)) x init h' h hu, hinit]
  have hf : (x ∘ h.lift (ix1 m)) = fun c : Fin 8192 => ((f c m : ℝ) : EReal) :=
    funext fun c => (congrArg x (lift_col h m c)).trans (hx c m)
  exact (congrArg (fun g => Finset.fold max (⊥ : EReal) g (Finset.univ : Finset (Fin 8192))) hf).trans ht

end Cert.ReferenceIdeal.RefValue

end
-- ==== Proof.RefStages1.lean ====
/-
  The reference's first stages, read at an index: the similarities and their softmax along the memory axis.

  With real arguments `q` (8192×64) and `km` (4096×64): the product of `q` with the transpose of `km` is the similarity
  `sim c m = Σ_k q c k · km m k`; multiplying by the constant one changes nothing; the maximum of a row is a real `t`;
  the exponentials `exp (sim c m − t)`, their row sum and the quotient are reals, and the quotient is the softmax of
  the row, the shift `t` cancelling.
-/
import proofs.«168828_j76141180223719_2_alg».proof.Proof.RefReadP
import proofs.«168828_j76141180223719_2_alg».proof.Proof.RefLaws
import proofs.«168828_j76141180223719_2_alg».proof.Proof.RefReduce
import proofs.«168828_j76141180223719_2_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

variable (q : Fin 8192 → Fin 64 → ℝ) (km : Fin 4096 → Fin 64 → ℝ)

/-- The product `q · kmᵀ` at `(c, m)` is the similarity of row `c` and slot `m`. -/
theorem sim_apply (c : Fin 8192) (m : Fin 4096) :
    val_main_v1 (F := Ideal) (lift2 q) (lift2 km) (ix2 c m) = ((sim q km c m : ℝ) : EReal) := by
  rw [val_main_v1_apply, sim, coe_sum]
  refine Finset.sum_congr rfl fun k _ => ?_
  rw [val_main_v0_apply, EReal.coe_mul]
  rfl

/-- Scaling by the constant one leaves the similarity. -/
theorem scaledSim_apply (c : Fin 8192) (m : Fin 4096) :
    val_main_v3 (F := Ideal) (lift2 q) (lift2 km) (ix2 c m) = ((sim q km c m : ℝ) : EReal) := by
  rw [val_main_v3_apply, val_main_v2_apply, val_main_cst_apply, sim_apply, Ideal.mulf_def, Ideal.ofBits_def,
    Cert.Literals.ofBits_one, one_mul]

/-- The maximum of row `c` of the similarities is a real. -/
theorem rowMax_sim (c : Fin 8192) :
    ∃ t : ℝ, val_main_v4 (F := Ideal) (lift2 q) (lift2 km) (ix1 c) = (t : EReal) := by
  unfold val_main_v4
  exact rowMax_real _ _ _ _ ((val_main_cst_0_apply _).trans Cert.Literals.ofBits_negInf) (sim q km)
    (scaledSim_apply q km) c

/-- The shift broadcast over the row: at `(c, m)` it is the maximum of row `c` (its maximum with −∞ is itself). -/
theorem rowShift_apply (c : Fin 8192) (m : Fin 4096) :
    val_main_v8 (F := Ideal) (lift2 q) (lift2 km) (ix2 c m) = val_main_v4 (F := Ideal) (lift2 q) (lift2 km) (ix1 c) := by
  rw [val_main_v8_apply, val_main_v7_apply, val_main_v6_apply, val_main_v5_apply, val_main_cst_1_apply,
    Ideal.maximumf_def, Ideal.ofBits_def, Cert.Literals.ofBits_negInf, max_bot_left]
  exact congrArg _ (funext fun a => match a with | ⟨0, _⟩ => rfl)

/-- The exponential of the shifted similarity, the shift being the real `t`. -/
theorem rowExp_apply (c : Fin 8192) (m : Fin 4096) (t : ℝ)
    (ht : val_main_v4 (F := Ideal) (lift2 q) (lift2 km) (ix1 c) = (t : EReal)) :
    val_main_v10 (F := Ideal) (lift2 q) (lift2 km) (ix2 c m) = ((Real.exp (sim q km c m - t) : ℝ) : EReal) := by
  rw [val_main_v10_apply, val_main_v9_apply, scaledSim_apply, rowShift_apply, ht, Ideal.subf_def, ← EReal.coe_sub,
    Ideal.hostUnary_exp_def, Ideal.exp_coe]

/-- The sum of a row's exponentials. -/
theorem rowExpSum_apply (c : Fin 8192) (t : ℝ)
    (ht : val_main_v4 (F := Ideal) (lift2 q) (lift2 km) (ix1 c) = (t : EReal)) :
    val_main_v11 (F := Ideal) (lift2 q) (lift2 km) (ix1 c) = ((∑ k : Fin 4096, Real.exp (sim q km c k - t) : ℝ) : EReal) := by
  rw [val_main_v11_apply, val_main_cst_2_apply, Ideal.ofBits_def, Cert.Literals.ofBits_zero, zero_add, coe_sum]
  refine Finset.sum_congr rfl fun k _ => ?_
  rw [← rowExp_apply q km c k t ht]
  exact congrArg _ (funext fun a => match a with | ⟨0, _⟩ => rfl | ⟨1, _⟩ => rfl)

/-- The row sum broadcast over the row. -/
theorem rowExpSumB_apply (c : Fin 8192) (m : Fin 4096) :
    val_main_v13 (F := Ideal) (lift2 q) (lift2 km) (ix2 c m) = val_main_v11 (F := Ideal) (lift2 q) (lift2 km) (ix1 c) := by
  rw [val_main_v13_apply, val_main_v12_apply]
  exact congrArg _ (funext fun a => match a with | ⟨0, _⟩ => rfl)

/-- `S1` at `(c, m)`: the softmax of the similarities along the memory axis. -/
theorem rowSoftmax_apply (c : Fin 8192) (m : Fin 4096) :
    val_main_v14 (F := Ideal) (lift2 q) (lift2 km) (ix2 c m) = ((rowSoftmax q km c m : ℝ) : EReal) := by
  obtain ⟨t, ht⟩ := rowMax_sim q km c
  have hne : (∑ k : Fin 4096, Real.exp (sim q km c k - t)) ≠ 0 := sum_exp_ne_zero fun k => sim q km c k - t
  rw [val_main_v14_apply, rowExp_apply q km c m t ht, rowExpSumB_apply, rowExpSum_apply q km c t ht, Ideal.hostDivf_def,
    div_coe_coe _ hne, softmax_shift (fun k => sim q km c k) t m]
  rfl

end Cert.ReferenceIdeal.RefValue

end
-- ==== Proof.RefStages2.lean ====
/-
  The reference's middle stages, read at an index: the softmax of `S1` along the context axis and the two targets.

  `S1` scaled by the constant one is `S1`; the maximum of a column of `S1` is a real `t`; the exponentials
  `exp (S1 c m − t)`, their column sum and the quotient are reals, and the quotient is the softmax of the column
  (`Dc`), the shift cancelling. The transpose exchanges the coordinates, and each target is the product of `Dcᵀ` with an
  argument: `Σ_c Dc c m · q c d` and `Σ_c Dc c m · o c d`.
-/
import proofs.«168828_j76141180223719_2_alg».proof.Proof.RefStages1

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

variable (q o : Fin 8192 → Fin 64 → ℝ) (km : Fin 4096 → Fin 64 → ℝ)

/-- Scaling by the constant one leaves `S1`. -/
theorem scaledS1_apply (c : Fin 8192) (m : Fin 4096) :
    val_main_v16 (F := Ideal) (lift2 q) (lift2 km) (ix2 c m) = ((rowSoftmax q km c m : ℝ) : EReal) := by
  rw [val_main_v16_apply, val_main_v15_apply, val_main_cst_3_apply, rowSoftmax_apply, Ideal.mulf_def, Ideal.ofBits_def,
    Cert.Literals.ofBits_one, one_mul]

/-- The maximum of column `m` of `S1` is a real. -/
theorem colMax_s1 (m : Fin 4096) :
    ∃ t : ℝ, val_main_v17 (F := Ideal) (lift2 q) (lift2 km) (ix1 m) = (t : EReal) := by
  unfold val_main_v17
  exact colMax_real _ _ _ _ ((val_main_cst_4_apply _).trans Cert.Literals.ofBits_negInf) (rowSoftmax q km)
    (scaledS1_apply q km) m

/-- The shift broadcast down the column: at `(c, m)` it is the maximum of column `m`. -/
theorem colShift_apply (c : Fin 8192) (m : Fin 4096) :
    val_main_v21 (F := Ideal) (lift2 q) (lift2 km) (ix2 c m) = val_main_v17 (F := Ideal) (lift2 q) (lift2 km) (ix1 m) := by
  rw [val_main_v21_apply, val_main_v20_apply, val_main_v19_apply, val_main_v18_apply, val_main_cst_5_apply,
    Ideal.maximumf_def, Ideal.ofBits_def, Cert.Literals.ofBits_negInf, max_bot_left]
  exact congrArg _ (funext fun a => match a with | ⟨0, _⟩ => rfl)

/-- The exponential of the shifted `S1`, the shift being the real `t`. -/
theorem colExp_apply (c : Fin 8192) (m : Fin 4096) (t : ℝ)
    (ht : val_main_v17 (F := Ideal) (lift2 q) (lift2 km) (ix1 m) = (t : EReal)) :
    val_main_v23 (F := Ideal) (lift2 q) (lift2 km) (ix2 c m) = ((Real.exp (rowSoftmax q km c m - t) : ℝ) : EReal) := by
  rw [val_main_v23_apply, val_main_v22_apply, scaledS1_apply, colShift_apply, ht, Ideal.subf_def, ← EReal.coe_sub,
    Ideal.hostUnary_exp_def, Ideal.exp_coe]

/-- The sum of a column's exponentials. -/
theorem colExpSum_apply (m : Fin 4096) (t : ℝ)
    (ht : val_main_v17 (F := Ideal) (lift2 q) (lift2 km) (ix1 m) = (t : EReal)) :
    val_main_v24 (F := Ideal) (lift2 q) (lift2 km) (ix1 m)
      = ((∑ k : Fin 8192, Real.exp (rowSoftmax q km k m - t) : ℝ) : EReal) := by
  rw [val_main_v24_apply, val_main_cst_6_apply, Ideal.ofBits_def, Cert.Literals.ofBits_zero, zero_add, coe_sum]
  refine Finset.sum_congr rfl fun k _ => ?_
  rw [← colExp_apply q km k m t ht]
  exact congrArg _ (funext fun a => match a with | ⟨0, _⟩ => rfl | ⟨1, _⟩ => rfl)

/-- The column sum broadcast down the column. -/
theorem colExpSumB_apply (c : Fin 8192) (m : Fin 4096) :
    val_main_v26 (F := Ideal) (lift2 q) (lift2 km) (ix2 c m) = val_main_v24 (F := Ideal) (lift2 q) (lift2 km) (ix1 m) := by
  rw [val_main_v26_apply, val_main_v25_apply]
  exact congrArg _ (funext fun a => match a with | ⟨0, _⟩ => rfl)

/-- `Dc` at `(c, m)`: the softmax of `S1` along the context axis. -/
theorem colSoftmax_apply (c : Fin 8192) (m : Fin 4096) :
    val_main_v27 (F := Ideal) (lift2 q) (lift2 km) (ix2 c m) = ((colSoftmax q km c m : ℝ) : EReal) := by
  obtain ⟨t, ht⟩ := colMax_s1 q km m
  have hne : (∑ k : Fin 8192, Real.exp (rowSoftmax q km k m - t)) ≠ 0 :=
    sum_exp_ne_zero fun k => rowSoftmax q km k m - t
  rw [val_main_v27_apply, colExp_apply q km c m t ht, colExpSumB_apply, colExpSum_apply q km m t ht, Ideal.hostDivf_def,
    div_coe_coe _ hne, softmax_shift (fun k => rowSoftmax q km k m) t c]
  rfl

/-- The transpose of `Dc` at `(m, c)`. -/
theorem colSoftmaxT_apply (m : Fin 4096) (c : Fin 8192) :
    val_main_v28 (F := Ideal) (lift2 q) (lift2 km) (ix2 m c) = ((colSoftmax q km c m : ℝ) : EReal) := by
  rw [val_main_v28_apply, ← colSoftmax_apply]
  exact congrArg _ (funext fun a => match a with | ⟨0, _⟩ => rfl | ⟨1, _⟩ => rfl)

/-- The first target, `Dcᵀ · q`, at `(m, d)`. -/
theorem keyTarget_apply (m : Fin 4096) (d : Fin 64) :
    val_main_v29 (F := Ideal) (lift2 q) (lift2 km) (ix2 m d)
      = ((∑ c : Fin 8192, colSoftmax q km c m * q c d : ℝ) : EReal) := by
  rw [val_main_v29_apply, coe_sum]
  refine Finset.sum_congr rfl fun k _ => ?_
  have e : lidx_main_v29 (ix2 m d) k = ix2 m k :=
    funext fun a => match a with | ⟨0, _⟩ => rfl | ⟨1, _⟩ => rfl
  rw [e, colSoftmaxT_apply, EReal.coe_mul]
  rfl

/-- The second target, `Dcᵀ · o`, at `(m, d)`. -/
theorem valueTarget_apply (m : Fin 4096) (d : Fin 64) :
    val_main_v30 (F := Ideal) (lift2 q) (lift2 o) (lift2 km) (ix2 m d)
      = ((∑ c : Fin 8192, colSoftmax q km c m * o c d : ℝ) : EReal) := by
  rw [val_main_v30_apply, coe_sum]
  refine Finset.sum_congr rfl fun k _ => ?_
  have e : lidx_main_v30 (ix2 m d) k = ix2 m k :=
    funext fun a => match a with | ⟨0, _⟩ => rfl | ⟨1, _⟩ => rfl
  rw [e, colSoftmaxT_apply, EReal.coe_mul]
  rfl

end Cert.ReferenceIdeal.RefValue

end
-- ==== Proof.RefStages3.lean ====
/-
  The reference's adaptive rate, read at an index.

  The smooth maximum at temperature zero: `S1` scaled by the constant zero is zero at every entry; the maximum of a
  column of zeros is a real `t`; `exp (0 − t)` over the sum of 8192 copies of it is `1/8192`, the shift cancelling: the
  weights are uniform. The weighted sum of a column of `S1` is then its mean, and the rate of slot `m` is half of it.
-/
import proofs.«168828_j76141180223719_2_alg».proof.Proof.RefStages1

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

variable (q : Fin 8192 → Fin 64 → ℝ) (km : Fin 4096 → Fin 64 → ℝ)

/-- `S1` scaled by the constant zero is zero (every entry of `S1` is a real). -/
theorem zeroScaled_apply (c : Fin 8192) (m : Fin 4096) :
    val_main_v32 (F := Ideal) (lift2 q) (lift2 km) (ix2 c m) = ((0 : ℝ) : EReal) := by
  rw [val_main_v32_apply, val_main_v31_apply, val_main_cst_7_apply, rowSoftmax_apply, Ideal.mulf_def, Ideal.ofBits_def,
    Cert.Literals.ofBits_zero, zero_mul, EReal.coe_zero]

/-- The maximum of a column of zeros is a real. -/
theorem colMax_zero (m : Fin 4096) :
    ∃ t : ℝ, val_main_v33 (F := Ideal) (lift2 q) (lift2 km) (ix1 m) = (t : EReal) := by
  unfold val_main_v33
  exact colMax_real _ _ _ _ ((val_main_cst_8_apply _).trans Cert.Literals.ofBits_negInf) (fun _ _ => 0)
    (zeroScaled_apply q km) m

/-- The shift broadcast down the column. -/
theorem zeroShift_apply (c : Fin 8192) (m : Fin 4096) :
    val_main_v37 (F := Ideal) (lift2 q) (lift2 km) (ix2 c m) = val_main_v33 (F := Ideal) (lift2 q) (lift2 km) (ix1 m) := by
  rw [val_main_v37_apply, val_main_v36_apply, val_main_v35_apply, val_main_v34_apply, val_main_cst_9_apply,
    Ideal.maximumf_def, Ideal.ofBits_def, Cert.Literals.ofBits_negInf, max_bot_left]
  exact congrArg _ (funext fun a => match a with | ⟨0, _⟩ => rfl)

/-- The exponential of the shifted zero, the shift being the real `t`. -/
theorem zeroExp_apply (c : Fin 8192) (m : Fin 4096) (t : ℝ)
    (ht : val_main_v33 (F := Ideal) (lift2 q) (lift2 km) (ix1 m) = (t : EReal)) :
    val_main_v39 (F := Ideal) (lift2 q) (lift2 km) (ix2 c m) = ((Real.exp ((0 : ℝ) - t) : ℝ) : EReal) := by
  rw [val_main_v39_apply, val_main_v38_apply, zeroScaled_apply, zeroShift_apply, ht, Ideal.subf_def, ← EReal.coe_sub,
    Ideal.hostUnary_exp_def, Ideal.exp_coe]

/-- The sum of a column's exponentials. -/
theorem zeroExpSum_apply (m : Fin 4096) (t : ℝ)
    (ht : val_main_v33 (F := Ideal) (lift2 q) (lift2 km) (ix1 m) = (t : EReal)) :
    val_main_v40 (F := Ideal) (lift2 q) (lift2 km) (ix1 m) = ((∑ _k : Fin 8192, Real.exp ((0 : ℝ) - t) : ℝ) : EReal) := by
  rw [val_main_v40_apply, val_main_cst_10_apply, Ideal.ofBits_def, Cert.Literals.ofBits_zero, zero_add, coe_sum]
  refine Finset.sum_congr rfl fun k _ => ?_
  rw [← zeroExp_apply q km k m t ht]
  exact congrArg _ (funext fun a => match a with | ⟨0, _⟩ => rfl | ⟨1, _⟩ => rfl)

/-- The column sum broadcast down the column. -/
theorem zeroExpSumB_apply (c : Fin 8192) (m : Fin 4096) :
    val_main_v42 (F := Ideal) (lift2 q) (lift2 km) (ix2 c m) = val_main_v40 (F := Ideal) (lift2 q) (lift2 km) (ix1 m) := by
  rw [val_main_v42_apply, val_main_v41_apply]
  exact congrArg _ (funext fun a => match a with | ⟨0, _⟩ => rfl)

/-- The weights of the smooth maximum at temperature zero are uniform: `1/8192` at every entry. -/
theorem uniform_apply (c : Fin 8192) (m : Fin 4096) :
    val_main_v43 (F := Ideal) (lift2 q) (lift2 km) (ix2 c m) = (((1 : ℝ) / 8192 : ℝ) : EReal) := by
  obtain ⟨t, ht⟩ := colMax_zero q km m
  have hne : (∑ _k : Fin 8192, Real.exp ((0 : ℝ) - t)) ≠ 0 := sum_exp_ne_zero fun _ => (0 : ℝ) - t
  rw [val_main_v43_apply, zeroExp_apply q km c m t ht, zeroExpSumB_apply, zeroExpSum_apply q km m t ht, Ideal.hostDivf_def,
    div_coe_coe _ hne, softmax_shift (fun _ : Fin 8192 => (0 : ℝ)) t c]
  simp

/-- An entry of `S1` times its weight. -/
theorem weighted_apply (c : Fin 8192) (m : Fin 4096) :
    val_main_v44 (F := Ideal) (lift2 q) (lift2 km) (ix2 c m) = ((rowSoftmax q km c m * ((1 : ℝ) / 8192) : ℝ) : EReal) := by
  rw [val_main_v44_apply, rowSoftmax_apply, uniform_apply, Ideal.mulf_def, ← EReal.coe_mul]

/-- The smooth maximum at temperature zero of column `m` of `S1` is the column's mean. -/
theorem smoothMax_apply (m : Fin 4096) :
    val_main_v45 (F := Ideal) (lift2 q) (lift2 km) (ix1 m)
      = (((∑ c : Fin 8192, rowSoftmax q km c m) / 8192 : ℝ) : EReal) := by
  rw [val_main_v45_apply, val_main_cst_11_apply, Ideal.ofBits_def, Cert.Literals.ofBits_zero, zero_add,
    ← mul_one_div, Finset.sum_mul, coe_sum]
  refine Finset.sum_congr rfl fun k _ => ?_
  rw [← weighted_apply q km k m]
  exact congrArg _ (funext fun a => match a with | ⟨0, _⟩ => rfl | ⟨1, _⟩ => rfl)

/-- The adaptive rate of slot `m`: half the mean of column `m` of `S1`. -/
theorem rate_apply (m : Fin 4096) :
    val_main_v47 (F := Ideal) (lift2 q) (lift2 km) (ix1 m) = ((rate q km m : ℝ) : EReal) := by
  rw [val_main_v47_apply, val_main_v46_apply, val_main_cst_12_apply, smoothMax_apply, Ideal.mulf_def, Ideal.ofBits_def,
    Cert.Literals.ofBits_half, ← EReal.coe_mul]
  rfl

end Cert.ReferenceIdeal.RefValue

end
-- ==== Proof.RefValue.lean ====
/-
  The reference is the specification.

  The last stages: each target less its memory, times the rate of the slot broadcast along the feature axis, is
  `rate m · (Σ_c Dc c m · q c d − km m d)` for the first pair and the same with `o`, `vm` for the second; the result
  stacks the two along a new leading axis, so its entry `(s, m, d)` is the first at `s = 0` and the second at `s = 1`.
  Hence every run of the reference on real arguments ends with the specification's array.
-/
import proofs.«168828_j76141180223719_2_alg».proof.Proof.RefStages2
import proofs.«168828_j76141180223719_2_alg».proof.Proof.RefStages3

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

section Stages

variable (q o : Fin 8192 → Fin 64 → ℝ) (km vm : Fin 4096 → Fin 64 → ℝ)

/-- The specification's entry for the first pair. -/
theorem grad_zero (m : Fin 4096) (d : Fin 64) :
    grad q o km vm 0 m d = rate q km m * ((∑ c : Fin 8192, colSoftmax q km c m * q c d) - km m d) := by
  simp [grad]

/-- The specification's entry for the second pair. -/
theorem grad_one (m : Fin 4096) (d : Fin 64) :
    grad q o km vm 1 m d = rate q km m * ((∑ c : Fin 8192, colSoftmax q km c m * o c d) - vm m d) := by
  simp [grad]

/-- The rate broadcast along the feature axis (the first pair's copy). -/
theorem rateKey_apply (m : Fin 4096) (d : Fin 64) :
    val_main_v50 (F := Ideal) (lift2 q) (lift2 km) (ix2 m d) = ((rate q km m : ℝ) : EReal) := by
  rw [val_main_v50_apply, val_main_v48_apply, ← rate_apply]
  exact congrArg _ (funext fun a => match a with | ⟨0, _⟩ => rfl)

/-- The rate broadcast along the feature axis (the second pair's copy). -/
theorem rateValue_apply (m : Fin 4096) (d : Fin 64) :
    val_main_v54 (F := Ideal) (lift2 q) (lift2 km) (ix2 m d) = ((rate q km m : ℝ) : EReal) := by
  rw [val_main_v54_apply, val_main_v52_apply, ← rate_apply]
  exact congrArg _ (funext fun a => match a with | ⟨0, _⟩ => rfl)

/-- The first pair's result at `(m, d)`. -/
theorem keyGrad_apply (m : Fin 4096) (d : Fin 64) :
    val_main_v51 (F := Ideal) (lift2 q) (lift2 km) (ix2 m d) = ((grad q o km vm 0 m d : ℝ) : EReal) := by
  rw [val_main_v51_apply, rateKey_apply, val_main_v49_apply, keyTarget_apply, Ideal.mulf_def, Ideal.subf_def, grad_zero,
    EReal.coe_mul, EReal.coe_sub]
  rfl

/-- The second pair's result at `(m, d)`. -/
theorem valueGrad_apply (m : Fin 4096) (d : Fin 64) :
    val_main_v55 (F := Ideal) (lift2 q) (lift2 o) (lift2 km) (lift2 vm) (ix2 m d)
      = ((grad q o km vm 1 m d : ℝ) : EReal) := by
  rw [val_main_v55_apply, rateValue_apply, val_main_v53_apply, valueTarget_apply, Ideal.mulf_def, Ideal.subf_def, grad_one,
    EReal.coe_mul, EReal.coe_sub]
  rfl

/-- The stacked result at `(0, m, d)` is the first pair's. -/
theorem out_zero_apply (m : Fin 4096) (d : Fin 64) :
    val_main_v58 (F := Ideal) (lift2 q) (lift2 o) (lift2 km) (lift2 vm) (ix3 (0 : Fin 2) m d)
      = ((grad q o km vm 0 m d : ℝ) : EReal) := by
  unfold val_main_v58
  refine (concatenate_pair_apply_left (0 : Fin S2x4096x64.rank) _ _ concatenates_S1x4096x64_S1x4096x64_S2x4096x64_d0
    (ix3 (0 : Fin 2) m d) rfl (ix3 (0 : Fin 1) m d)
    (fun b => match b with | ⟨0, _⟩ => rfl | ⟨1, _⟩ => rfl | ⟨2, _⟩ => rfl)).trans ?_
  rw [val_main_v56_apply, ← keyGrad_apply q o km vm m d]
  exact congrArg _ (funext fun a => match a with | ⟨0, _⟩ => rfl | ⟨1, _⟩ => rfl)

/-- The stacked result at `(1, m, d)` is the second pair's. -/
theorem out_one_apply (m : Fin 4096) (d : Fin 64) :
    val_main_v58 (F := Ideal) (lift2 q) (lift2 o) (lift2 km) (lift2 vm) (ix3 (1 : Fin 2) m d)
      = ((grad q o km vm 1 m d : ℝ) : EReal) := by
  unfold val_main_v58
  refine (concatenate_pair_apply_right (0 : Fin S2x4096x64.rank) _ _ concatenates_S1x4096x64_S1x4096x64_S2x4096x64_d0
    (ix3 (1 : Fin 2) m d) rfl rfl (ix3 (0 : Fin 1) m d)
    (fun b hb => match b, hb with
      | ⟨0, _⟩, hb => absurd rfl hb
      | ⟨1, _⟩, _ => rfl
      | ⟨2, _⟩, _ => rfl) rfl).trans ?_
  rw [val_main_v57_apply, ← valueGrad_apply q o km vm m d]
  exact congrArg _ (funext fun a => match a with | ⟨0, _⟩ => rfl | ⟨1, _⟩ => rfl)

/-- The reference's last stage on real arguments is the specification's array. -/
theorem out_eq_spec :
    val_main_v58 (F := Ideal) (lift2 q) (lift2 o) (lift2 km) (lift2 vm) = gradArr q o km vm := by
  funext i
  obtain ⟨s, m, d, rfl⟩ : ∃ (s : Fin 2) (m : Fin 4096) (d : Fin 64), i = ix3 s m d := ⟨i 0, i 1, i 2, eq_ix3 i⟩
  match s with
  | ⟨0, _⟩ => exact out_zero_apply q o km vm m d
  | ⟨1, _⟩ => exact out_one_apply q o km vm m d

end Stages

/-- Every run of the reference whose arguments are the real arrays `q`, `o`, `km`, `vm` ends with the specification's
    array. -/
theorem res_eq_spec (m : (ℓ : Loc nD τ sig) → Buf (Elt Ideal) ℓ) (c : Dev nD)
    (q o : Fin 8192 → Fin 64 → ℝ) (km vm : Fin 4096 → Fin 64 → ℝ)
    (hQ : m ((c.tc : Thread nD τ).loc main_arg0) = lift2 q) (hO : m ((c.tc : Thread nD τ).loc main_arg1) = lift2 o)
    (hKm : m ((c.tc : Thread nD τ).loc main_arg2) = lift2 km) (hVm : m ((c.tc : Thread nD τ).loc main_arg3) = lift2 vm) :
    Cert.ReferenceIdeal.ValueP.res_main_v58 (F := Ideal) m c = gradArr q o km vm := by
  rw [val_main_v58_eq, hQ, hO, hKm, hVm]
  exact out_eq_spec q o km vm

end Cert.ReferenceIdeal.RefValue

end
-- ==== Proof.lean ====
/-
  The five claims of the certificate.

  Each of the three programs runs to its end and leaves its four argument arrays as launched. For the kernel — read
  at words and read at the extended reals — this is the run of the whole program, pass 1, the host's sums, pass 2 and
  the host's epilogue, after which every buffer outside the passes' scratch holds a known array and no step has
  written an argument (modules KWhole and Whole). For the reference it is its run with the result dropped (RefRunP).
  The idealization rewrote no operation, so what it must preserve is nothing.
  The two programs agree at the extended reals, and the common result is the kernel's last array: under the finiteness
  precondition the arguments are real matrices `q`, `o`, `km`, `vm` (FiniteArgs); the kernel's last array is the two
  passes' pure function of the arguments (ArrResult), which on real matrices is the gradient pair
  `rate m · (Σ_c Dc c m · q c d − km m d)`, `rate m · (Σ_c Dc c m · o c d − vm m d)` of the specification (PassResult);
  and the reference on the same matrices ends at the same array (RefValue).
-/
import proofs.«168828_j76141180223719_2_alg».proof.Defs
import proofs.«168828_j76141180223719_2_alg».proof.Proof.Gen.Kernel
import proofs.«168828_j76141180223719_2_alg».proof.Proof.Gen.Kernel.Skeleton
import proofs.«168828_j76141180223719_2_alg».proof.Proof.Gen.Kernel.Launch
import proofs.«168828_j76141180223719_2_alg».proof.Proof.Gen.Kernel.Regions
import proofs.«168828_j76141180223719_2_alg».proof.Proof.Gen.Kernel.Points
import proofs.«168828_j76141180223719_2_alg».proof.Proof.Gen.KernelIdeal
import proofs.«168828_j76141180223719_2_alg».proof.Proof.Gen.KernelIdeal.Skeleton
import proofs.«168828_j76141180223719_2_alg».proof.Proof.Gen.KernelIdeal.Launch
import proofs.«168828_j76141180223719_2_alg».proof.Proof.Gen.KernelIdeal.Regions
import proofs.«168828_j76141180223719_2_alg».proof.Proof.Gen.KernelIdeal.Points
import proofs.«168828_j76141180223719_2_alg».proof.Proof.Gen.ReferenceIdeal
import proofs.«168828_j76141180223719_2_alg».proof.Proof.Gen.Pre_finite_inputs
import proofs.«168828_j76141180223719_2_alg».proof.Proof.KWhole
import proofs.«168828_j76141180223719_2_alg».proof.Proof.Whole
import proofs.«168828_j76141180223719_2_alg».proof.Proof.ArrResult
import proofs.«168828_j76141180223719_2_alg».proof.Proof.PassResult
import proofs.«168828_j76141180223719_2_alg».proof.Proof.FiniteArgs
import proofs.«168828_j76141180223719_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_Kernel : Cert.frame_Kernel := fun m ρ _ => Cert.Kernel.Whole.frame (F := Bits) m ρ

/-- The kernel read at the extended reals runs and leaves its arguments as launched. -/
theorem frame_KernelIdeal : Cert.frame_KernelIdeal := fun m ρ _ => Cert.KernelIdeal.Whole.frame (F := Ideal) m ρ

/-- The reference runs and leaves its arguments as launched: its run, the result dropped. -/
theorem frame_ReferenceIdeal : Cert.frame_ReferenceIdeal := fun m ρ _ =>
  (θ_run Cert.ReferenceIdeal.defs _ _).mono (fun _ h c => (h c).2) (Cert.ReferenceIdeal.ValueP.run (F := Ideal) m ρ)

/-- On one core: when the kernel's arguments pass the finiteness test they are real matrices `q`, `o`, `km`, `vm`; the
    reference, whose arguments are the same, ends at the specification's array of them, and so does any array `w` that
    is the kernel's two passes applied to the arguments. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (w : Buf (Elt Ideal) ((c.tc : Thread Cert.KernelIdeal.nD Cert.KernelIdeal.τ).loc Cert.KernelIdeal.main_v23))
    (hw : w = Cert.KernelIdeal.Passes.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))) :
    Cert.ReferenceIdeal.ValueP.res_main_v58 (F := Ideal) m' c = w := by
  obtain ⟨q, o, km, vm, hq, ho, hkm, hvm⟩ := Cert.FiniteArgs.real_of_pre _ _ _ _ hpre
  obtain ⟨a0, a1, a2, a3⟩ := hagree
  rw [hw, hq, ho, hkm, hvm, Cert.KernelIdeal.PassValue.result_eq_spec]
  exact Cert.ReferenceIdeal.RefValue.res_eq_spec m' c q o km vm (a0.trans hq) (a1.trans ho) (a2.trans hkm) (a3.trans hvm)

/-- From memories agreeing on the arguments, both programs run, end with equal results and leave their arguments as
    launched; the common result is the kernel's last array. -/
theorem algebraic : Cert.algebraic_KernelIdeal_ReferenceIdeal := fun m ρ m' ρ' hpre hagree =>
  ⟨fun c => Cert.KernelIdeal.Whole.W4 (F := Ideal) m c (Proc.devRef .tc Cert.KernelIdeal.main_v23),
    (θ_run Cert.KernelIdeal.defs _ _).mono (fun _ h c =>
      ⟨h c _ (Cert.KernelIdeal.Whole.mem_uc Cert.KernelIdeal.main_v23 (by decide)),
       (h c _ (Cert.KernelIdeal.Whole.mem_uc Cert.KernelIdeal.main_arg0 (by decide))).trans (Cert.KernelIdeal.Whole.W4_main_arg0 m c),
       (h c _ (Cert.KernelIdeal.Whole.mem_uc Cert.KernelIdeal.main_arg1 (by decide))).trans (Cert.KernelIdeal.Whole.W4_main_arg1 m c),
       (h c _ (Cert.KernelIdeal.Whole.mem_uc Cert.KernelIdeal.main_arg2 (by decide))).trans (Cert.KernelIdeal.Whole.W4_main_arg2 m c),
       (h c _ (Cert.KernelIdeal.Whole.mem_uc Cert.KernelIdeal.main_arg3 (by decide))).trans (Cert.KernelIdeal.Whole.W4_main_arg3 m c)⟩)
      (Cert.KernelIdeal.Whole.run_all (F := Ideal) m ρ),
    (θ_run Cert.ReferenceIdeal.defs _ _).mono (fun _ h c =>
      ⟨(h c).1.trans (results_agree m m' c (hpre c) (hagree c) _ (Cert.KernelIdeal.Arrays.result_at_end (F := Ideal) m c)), (h c).2⟩)
      (Cert.ReferenceIdeal.ValueP.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
